-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S4096x4096 : Shape := ⟨2, ![4096, 4096]⟩
abbrev S32x8192x128 : Shape := ⟨3, ![32, 8192, 128]⟩
abbrev S_ : Shape := ⟨0, ![]⟩
abbrev S16 : Shape := ⟨1, ![16]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x8192x128 : S_.BroadcastsInDim S32x8192x128 (![] : Fin 0 → Fin S32x8192x128.rank)
  reducesTo_S32x8192x128_S_d0_1_2 : S32x8192x128.ReducesTo [0, 1, 2] S_
  reducesTo_S16x4096_S16_d1 : S16x4096.ReducesTo [1] S16
  bcast_S_S16 : S_.BroadcastsInDim S16 (![] : Fin 0 → Fin S16.rank)
  reducesTo_S16_S_d0 : S16.ReducesTo [0] S_

variable [Facts]

def fn_part2 {F : FTy → Type} [FloatOps F] (main_v28 : IVec S_ 1) (main_v32 : IVec S16 1) (main_c_12 : IVec S_ 1) : IVec S_ 1 :=
  let main_v33 : IVec S_ 1 := (fun x v => Host.reduce IntOp.andi x v reducesTo_S16_S_d0 h_S_) main_v32 main_c_12
  let main_v34 : IVec S_ 1 := andi main_v28 main_v33
  main_v34

def fn_part1 {F : FTy → Type} [FloatOps F] (main_arg0 : FVec F S16x4096 .f32) (main_arg4 : FVec F S32x8192x128 .f32) (main_arg5 : FVec F S32x8192x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S32x8192x128 .f32 := Host.absf main_arg4
  let main_cst_6 : FVec F S_ .f32 := constant S_ .f32 0x7F800000#32
  let main_v20 : FVec F S32x8192x128 .f32 := broadcastInDim S32x8192x128 ![] bcast_S_S32x8192x128 main_cst_6
  let main_v21 : IVec S32x8192x128 1 := cmpf .olt main_v19 main_v20
  let main_c_7 : IVec S_ 1 := constantI S_ 1 1#1
  let main_v22 : IVec S_ 1 := (fun x v => Host.reduce IntOp.andi x v reducesTo_S32x8192x128_S_d0_1_2 h_S_) main_v21 main_c_7
  let main_v23 : IVec S_ 1 := andi main_v18 main_v22
  let main_v24 : FVec F S32x8192x128 .f32 := Host.absf main_arg5
  let main_cst_8 : FVec F S_ .f32 := constant S_ .f32 0x7F800000#32
  let main_v25 : FVec F S32x8192x128 .f32 := broadcastInDim S32x8192x128 ![] bcast_S_S32x8192x128 main_cst_8
  let main_v26 : IVec S32x8192x128 1 := cmpf .olt main_v24 main_v25
  let main_c_9 : IVec S_ 1 := constantI S_ 1 1#1
  let main_v27 : IVec S_ 1 := (fun x v => Host.reduce IntOp.andi x v reducesTo_S32x8192x128_S_d0_1_2 h_S_) main_v26 main_c_9
  let main_v28 : IVec S_ 1 := andi main_v23 main_v27
  let main_v29 : FVec F S16x4096 .f32 := mulf main_arg0 main_arg0
  let main_cst_10 : FVec F S_ .f32 := constant S_ .f32 0x00000000#32
  let main_v30 : FVec F S16 .f32 := (fun x v => Host.reduceAdd x v reducesTo_S16x4096_S16_d1 h_S_) main_v29 main_cst_10
  let main_cst_11 : FVec F S_ .f32 := constant S_ .f32 0x00000000#32
  let main_v31 : FVec F S16 .f32 := broadcastInDim S16 ![] bcast_S_S16 main_cst_11
  let main_v32 : IVec S16 1 := cmpf .ogt main_v30 main_v31
  let main_c_12 : IVec S_ 1 := constantI S_ 1 1#1
  fn_part2 (F := F) main_v28 main_v32 main_c_12

def fn {F : FTy → Type} [FloatOps F] (main_arg0 : FVec F S16x4096 .f32) (main_arg1 : FVec F S4096x4096 .f32) (main_arg2 : FVec F S4096x4096 .f32) (main_arg3 : FVec F S4096x4096 .f32) (main_arg4 : FVec F S32x8192x128 .f32) (main_arg5 : FVec F S32x8192x128 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg0 main_arg4 main_arg5 main_v13 main_v16
-- ==== Kernel.lean ====
abbrev S16x4096 : Shape := ⟨2, ![16, 4096]⟩
abbrev S4096x4096 : Shape := ⟨2, ![4096, 4096]⟩
abbrev S32x8192x128 : Shape := ⟨3, ![32, 8192, 128]⟩
abbrev S_ : Shape := ⟨0, ![]⟩
abbrev S16 : Shape := ⟨1, ![16]⟩
abbrev S16x1 : Shape := ⟨2, ![16, 1]⟩
abbrev S256x4096 : Shape := ⟨2, ![256, 4096]⟩
abbrev S16x256 : Shape := ⟨2, ![16, 256]⟩
abbrev S16x32x128 : Shape := ⟨3, ![16, 32, 128]⟩
abbrev S32x16x128 : Shape := ⟨3, ![32, 16, 128]⟩
abbrev S1x16x128 : Shape := ⟨3, ![1, 16, 128]⟩
abbrev S1x4096x128 : Shape := ⟨3, ![1, 4096, 128]⟩
abbrev S1x16x1 : Shape := ⟨3, ![1, 16, 1]⟩
abbrev S1x16x4096 : Shape := ⟨3, ![1, 16, 4096]⟩
abbrev S1x16 : Shape := ⟨2, ![1, 16]⟩
abbrev S1x16x16 : Shape := ⟨3, ![1, 16, 16]⟩

abbrev nBuf : Space → Nat
  | .hbm => 29
  | .vmem => 28
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S16x4096, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16x1, .f32⟩
  | .hbm, ⟨14, _⟩ => ⟨S16x4096, .f32⟩
  | .hbm, ⟨15, _⟩ => ⟨S16x4096, .f32⟩
  | .hbm, ⟨16, _⟩ => ⟨S16x4096, .bf16⟩
  | .hbm, ⟨17, _⟩ => ⟨S16x4096, .f32⟩
  | .hbm, ⟨18, _⟩ => ⟨S16x4096, .f32⟩
  | .hbm, ⟨19, _⟩ => ⟨S16x4096, .f32⟩
  | .hbm, ⟨20, _⟩ => ⟨S16x32x128, .f32⟩
  | .hbm, ⟨21, _⟩ => ⟨S32x16x128, .f32⟩
  | .hbm, ⟨22, _⟩ => ⟨S16x32x128, .f32⟩
  | .hbm, ⟨23, _⟩ => ⟨S32x16x128, .f32⟩
  | .hbm, ⟨24, _⟩ => ⟨S16x32x128, .f32⟩
  | .hbm, ⟨25, _⟩ => ⟨S32x16x128, .f32⟩
  | .hbm, ⟨26, _⟩ => ⟨S32x16x128, .f32⟩
  | .hbm, ⟨27, _⟩ => ⟨S16x32x128, .f32⟩
  | .hbm, ⟨28, _⟩ => ⟨S16x4096, .f32⟩
  | .local _ .vmem, ⟨0, _⟩ => ⟨S16x4096, .bf16⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S1x16x128, .f32⟩
  | .local _ .vmem, ⟨14, _⟩ => ⟨S1x16x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | .local _ .vmem, ⟨18, _⟩ => ⟨S1x4096x128, .f32⟩
  | .local _ .vmem, ⟨19, _⟩ => ⟨S1x16x128, .f32⟩
  | .local _ .vmem, ⟨20, _⟩ => ⟨S1x16x128, .f32⟩
  | .local _ .vmem, ⟨21, _⟩ => ⟨S1x16x128, .f32⟩
  | .local _ .vmem, ⟨22, _⟩ => ⟨S1x16x128, .f32⟩
  | .local _ .vmem, ⟨23, _⟩ => ⟨S1x16x128, .f32⟩
  | .local _ .vmem, ⟨24, _⟩ => ⟨S1x16x128, .f32⟩
  | .local _ .vmem, ⟨25, _⟩ => ⟨S1x16x1, .f32⟩
  | .local _ .vmem, ⟨26, _⟩ => ⟨S1x16x1, .f32⟩
  | .local _ .vmem, ⟨27, _⟩ => ⟨S1x16x128, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![32, 2], ![false, false]⟩

def k1_cond2 (i : grid1.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_33 : BitVec 32 := 0#32
  let v43 : BitVec 1 := Scalar.cmpi .ne v42 c0_i32_33
  v43

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x16x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  reducesTo_S16x4096_S16_d1 : S16x4096.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x4096_0_1 : S16x1.BroadcastsInDim S16x4096 (![0, 1] : Fin 2 → Fin S16x4096.rank)
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  inb_S256x4096_S256x4096_0_0 : ∀ a, (![0, 0] : Fin 2 → Nat) a + S256x4096.size a ≤ S256x4096.size a
  h_S256x4096 : 0 < S256x4096.numel
  inb_S16x256_S16x256_0_0 : ∀ a, (![0, 0] : Fin 2 → Nat) a + S16x256.size a ≤ S16x256.size a
  h_S16x256 : 0 < S16x256.numel
  shapeCasts_S16x4096_S16x32x128 : S16x4096.ShapeCasts S16x32x128
  transposes_S16x32x128_S32x16x128_1_0_2 : S16x32x128.Transposes [1, 0, 2] S32x16x128
  inb_S1x16x1_S1x16x1_0_0_0 : ∀ a, (![0, 0, 0] : Fin 3 → Nat) a + S1x16x1.size a ≤ S1x16x1.size a
  h_S1x16x1 : 0 < S1x16x1.numel
  shapeCasts_S1x16x1_S1x16x1 : S1x16x1.ShapeCasts S1x16x1
  inb_S1x16x128_S1x16x128_0_0_0 : ∀ a, (![0, 0, 0] : Fin 3 → Nat) a + S1x16x128.size a ≤ S1x16x128.size a
  h_S1x16x128 : 0 < S1x16x128.numel
  shapeCasts_S1x16x128_S1x16x128 : S1x16x128.ShapeCasts S1x16x128
  inb_S1x4096x128_S1x4096x128_0_0_0 : ∀ a, (![0, 0, 0] : Fin 3 → Nat) a + S1x4096x128.size a ≤ S1x4096x128.size a
  h_S1x4096x128 : 0 < S1x4096x128.numel
  reduces_S1x16x4096_S1x16 : S1x16x4096.Reduces [2] S1x16
  shapeCasts_S1x16_S1x16x1 : S1x16.ShapeCasts S1x16x1
  broadcasts_S1x16x1_S1x16x4096 : S1x16x1.Broadcasts S1x16x4096
  broadcasts_S1x16x1_S1x16x128 : S1x16x1.Broadcasts S1x16x128
  reduces_S1x16x16_S1x16 : S1x16x16.Reduces [2] S1x16
  broadcasts_S1x16x1_S1x16x16 : S1x16x1.Broadcasts S1x16x16
  transposes_S32x16x128_S16x32x128_1_0_2 : S32x16x128.Transposes [1, 0, 2] S16x32x128
  shapeCasts_S16x32x128_S16x4096 : S16x32x128.ShapeCasts S16x4096
  dot_S16x4096_S256x4096_S16x256_1_1_0_0_n_n_wf : DotDims.WF S16x4096 S256x4096 S16x256 [1] [1] [0] [0] [] []
  dot_S1x16x128_S1x4096x128_S1x16x4096_2_2_1_1_0_0_wf : DotDims.WF S1x16x128 S1x4096x128 S1x16x4096 [2] [2] [1] [1] [0] [0]
  dot_S1x16x4096_S1x4096x128_S1x16x128_2_1_1_2_0_0_wf : DotDims.WF S1x16x4096 S1x4096x128 S1x16x128 [2] [1] [1] [2] [0] [0]
  dot_S1x16x128_S1x16x128_S1x16x16_2_2_1_1_0_0_wf : DotDims.WF S1x16x128 S1x16x128 S1x16x16 [2] [2] [1] [1] [0] [0]
  dot_S1x16x16_S1x16x128_S1x16x128_2_1_1_2_0_0_wf : DotDims.WF S1x16x16 S1x16x128 S1x16x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .bf16 = 32 ∨ (Rect.block (s := S16x4096) S16x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x4096.size a
  hwx0_4 : ∀ i : grid0.Coords, EltTy.bits .f32 = 32 ∨ (Rect.block (s := S16x4096) S16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x4096.size a
  hwx0_5 : ∀ i : grid0.Coords, EltTy.bits .f32 = 32 ∨ (Rect.block (s := S16x4096) S16x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x4096.size a
  hwx0_6 : ∀ i : grid0.Coords, EltTy.bits .f32 = 32 ∨ (Rect.block (s := S16x4096) S16x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x128.size a ≤ S32x16x128.size a
  hwx1_0 : ∀ i : grid1.Coords, EltTy.bits .f32 = 32 ∨ (Rect.block (s := S32x16x128) S1x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S32x8192x128.size a
  hwx1_1 : ∀ i : grid1.Coords, EltTy.bits .f32 = 32 ∨ (Rect.block (s := S32x8192x128) S1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x128.size a ≤ S32x8192x128.size a
  hwx1_2 : ∀ i : grid1.Coords, EltTy.bits .f32 = 32 ∨ (Rect.block (s := S32x8192x128) S1x4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x128.size a ≤ S32x16x128.size a
  hwx1_3 : ∀ i : grid1.Coords, EltTy.bits .f32 = 32 ∨ (Rect.block (s := S32x16x128) S1x16x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x128.size a ≤ S32x16x128.size a
  hwx1_4 : ∀ i : grid1.Coords, EltTy.bits .f32 = 32 ∨ (Rect.block (s := S32x16x128) S1x16x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x128.size a ≤ S32x16x128.size a
  hwx1_5 : ∀ i : grid1.Coords, EltTy.bits .f32 = 32 ∨ (Rect.block (s := S32x16x128) S1x16x128.size (cc1_transform_5 i) (hinb1_5 i)).WholeWords (EltTy.packing .f32)

variable [Facts₀]

def dot_S16x4096_S256x4096_S16x256_1_1_0_0_n_n : DotDims S16x4096 S256x4096 S16x256 where
  lhsContracting := [1]
  rhsContracting := [1]
  lhsNonContracting := [0]
  rhsNonContracting := [0]
  lhsBatch := []
  rhsBatch := []
  wf := dot_S16x4096_S256x4096_S16x256_1_1_0_0_n_n_wf
def dot_S1x16x128_S1x4096x128_S1x16x4096_2_2_1_1_0_0 : DotDims S1x16x128 S1x4096x128 S1x16x4096 where
  lhsContracting := [2]
  rhsContracting := [2]
  lhsNonContracting := [1]
  rhsNonContracting := [1]
  lhsBatch := [0]
  rhsBatch := [0]
  wf := dot_S1x16x128_S1x4096x128_S1x16x4096_2_2_1_1_0_0_wf
def dot_S1x16x4096_S1x4096x128_S1x16x128_2_1_1_2_0_0 : DotDims S1x16x4096 S1x4096x128 S1x16x128 where
  lhsContracting := [2]
  rhsContracting := [1]
  lhsNonContracting := [1]
  rhsNonContracting := [2]
  lhsBatch := [0]
  rhsBatch := [0]
  wf := dot_S1x16x4096_S1x4096x128_S1x16x128_2_1_1_2_0_0_wf
def dot_S1x16x128_S1x16x128_S1x16x16_2_2_1_1_0_0 : DotDims S1x16x128 S1x16x128 S1x16x16 where
  lhsContracting := [2]
  rhsContracting := [2]
  lhsNonContracting := [1]
  rhsNonContracting := [1]
  lhsBatch := [0]
  rhsBatch := [0]
  wf := dot_S1x16x128_S1x16x128_S1x16x16_2_2_1_1_0_0_wf
def dot_S1x16x16_S1x16x128_S1x16x128_2_1_1_2_0_0 : DotDims S1x16x16 S1x16x128 S1x16x128 where
  lhsContracting := [2]
  rhsContracting := [1]
  lhsNonContracting := [1]
  rhsNonContracting := [2]
  lhsBatch := [0]
  rhsBatch := [0]
  wf := dot_S1x16x16_S1x16x128_S1x16x128_2_1_1_2_0_0_wf

abbrev win0_0 : Pipeline.Window sig grid0 :=
  Pipeline.Window.ofSpec (Memref.whole main_v8) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S16x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S16x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S16x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S1x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x16x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x16x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x16x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16x4096 : Shape := ⟨2, ![16, 4096]⟩
abbrev S4096x4096 : Shape := ⟨2, ![4096, 4096]⟩
abbrev S32x8192x128 : Shape := ⟨3, ![32, 8192, 128]⟩
abbrev S_ : Shape := ⟨0, ![]⟩
abbrev S16 : Shape := ⟨1, ![16]⟩
abbrev S16x1 : Shape := ⟨2, ![16, 1]⟩
abbrev S16x32x128 : Shape := ⟨3, ![16, 32, 128]⟩
abbrev S32x16x128 : Shape := ⟨3, ![32, 16, 128]⟩
abbrev S32x8208x128 : Shape := ⟨3, ![32, 8208, 128]⟩
abbrev S32x16x8208 : Shape := ⟨3, ![32, 16, 8208]⟩
abbrev S32x16 : Shape := ⟨2, ![32, 16]⟩
abbrev S32x16x1 : Shape := ⟨3, ![32, 16, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x8192x128, .f32⟩
  | .hbm, ⟨5, _⟩ => ⟨S32x8192x128, .f32⟩
  | .hbm, ⟨6, _⟩ => ⟨S16x4096, .f32⟩
  | .hbm, ⟨7, _⟩ => ⟨S_, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16x1, .f32⟩
  | .hbm, ⟨14, _⟩ => ⟨S16x4096, .f32⟩
  | .hbm, ⟨15, _⟩ => ⟨S16x4096, .f32⟩
  | .hbm, ⟨16, _⟩ => ⟨S4096x4096, .f32⟩
  | .hbm, ⟨17, _⟩ => ⟨S16x4096, .f32⟩
  | .hbm, ⟨18, _⟩ => ⟨S16x32x128, .f32⟩
  | .hbm, ⟨19, _⟩ => ⟨S32x16x128, .f32⟩
  | .hbm, ⟨20, _⟩ => ⟨S4096x4096, .f32⟩
  | .hbm, ⟨21, _⟩ => ⟨S16x4096, .f32⟩
  | .hbm, ⟨22, _⟩ => ⟨S16x32x128, .f32⟩
  | .hbm, ⟨23, _⟩ => ⟨S32x16x128, .f32⟩
  | .hbm, ⟨24, _⟩ => ⟨S4096x4096, .f32⟩
  | .hbm, ⟨25, _⟩ => ⟨S16x4096, .f32⟩
  | .hbm, ⟨26, _⟩ => ⟨S16x32x128, .f32⟩
  | .hbm, ⟨27, _⟩ => ⟨S32x16x128, .f32⟩
  | .hbm, ⟨28, _⟩ => ⟨S32x8208x128, .f32⟩
  | .hbm, ⟨29, _⟩ => ⟨S32x8208x128, .f32⟩
  | .hbm, ⟨30, _⟩ => ⟨S32x16x8208, .f32⟩
  | .hbm, ⟨31, _⟩ => ⟨S32x16x8208, .f32⟩
  | .hbm, ⟨32, _⟩ => ⟨S_, .f32⟩
  | .hbm, ⟨33, _⟩ => ⟨S32x16, .f32⟩
  | .hbm, ⟨34, _⟩ => ⟨S32x16x1, .f32⟩
  | .hbm, ⟨35, _⟩ => ⟨S32x16x8208, .f32⟩
  | .hbm, ⟨36, _⟩ => ⟨S32x16x8208, .f32⟩
  | .hbm, ⟨37, _⟩ => ⟨S32x16x128, .f32⟩
  | .hbm, ⟨38, _⟩ => ⟨S16x32x128, .f32⟩
  | .hbm, ⟨39, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  reducesTo_S16x4096_S16_d1 : S16x4096.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  bcast_S16x1_S16x4096_0_1 : S16x1.BroadcastsInDim S16x4096 (![0, 1] : Fin 2 → Fin S16x4096.rank)
  transposes_S4096x4096_S4096x4096_1_0 : S4096x4096.Transposes [1, 0] S4096x4096
  shapeCasts_S16x4096_S16x32x128 : S16x4096.ShapeCasts S16x32x128
  transposes_S16x32x128_S32x16x128_1_0_2 : S16x32x128.Transposes [1, 0, 2] S32x16x128
  concatenates_S32x8192x128_S32x16x128_S32x8208x128_d1 : Shape.Concatenates [S32x8192x128, S32x16x128] S32x8208x128 1
  reducesTo_S32x16x8208_S32x16_d2 : S32x16x8208.ReducesTo [2] S32x16
  bcast_S32x16_S32x16x1_0_1 : S32x16.BroadcastsInDim S32x16x1 (![0, 1] : Fin 2 → Fin S32x16x1.rank)
  bcast_S32x16x1_S32x16x8208_0_1_2 : S32x16x1.BroadcastsInDim S32x16x8208 (![0, 1, 2] : Fin 3 → Fin S32x16x8208.rank)
  transposes_S32x16x128_S16x32x128_1_0_2 : S32x16x128.Transposes [1, 0, 2] S16x32x128
  shapeCasts_S16x32x128_S16x4096 : S16x32x128.ShapeCasts S16x4096
  dot_S16x4096_S4096x4096_S16x4096_1_0_0_1_n_n_wf : DotDims.WF S16x4096 S4096x4096 S16x4096 [1] [0] [0] [1] [] []
  dot_S32x16x128_S32x8208x128_S32x16x8208_2_2_1_1_0_0_wf : DotDims.WF S32x16x128 S32x8208x128 S32x16x8208 [2] [2] [1] [1] [0] [0]
  dot_S32x16x8208_S32x8208x128_S32x16x128_2_1_1_2_0_0_wf : DotDims.WF S32x16x8208 S32x8208x128 S32x16x128 [2] [1] [1] [2] [0] [0]

variable [Facts₀]

def dot_S16x4096_S4096x4096_S16x4096_1_0_0_1_n_n : DotDims S16x4096 S4096x4096 S16x4096 where
  lhsContracting := [1]
  rhsContracting := [0]
  lhsNonContracting := [0]
  rhsNonContracting := [1]
  lhsBatch := []
  rhsBatch := []
  wf := dot_S16x4096_S4096x4096_S16x4096_1_0_0_1_n_n_wf
def dot_S32x16x128_S32x8208x128_S32x16x8208_2_2_1_1_0_0 : DotDims S32x16x128 S32x8208x128 S32x16x8208 where
  lhsContracting := [2]
  rhsContracting := [2]
  lhsNonContracting := [1]
  rhsNonContracting := [1]
  lhsBatch := [0]
  rhsBatch := [0]
  wf := dot_S32x16x128_S32x8208x128_S32x16x8208_2_2_1_1_0_0_wf
def dot_S32x16x8208_S32x8208x128_S32x16x128_2_1_1_2_0_0 : DotDims S32x16x8208 S32x8208x128 S32x16x128 where
  lhsContracting := [2]
  rhsContracting := [1]
  lhsNonContracting := [1]
  rhsNonContracting := [2]
  lhsBatch := [0]
  rhsBatch := [0]
  wf := dot_S32x16x8208_S32x8208x128_S32x16x128_2_1_1_2_0_0_wf

class Facts : Prop extends Facts₀ where

variable [Facts]
-- ==== Proof.ProjBodyBits.lean ====
/-
  The projection kernel's body on any staging buffers. One grid point multiplies the whole normalised input
  (16 x 4096) by a band of 256 rows of each of the three weight matrices, contracting the shared axis of length 4096,
  and stores the three 16 x 256 products whole, each into its own output buffer. What each output buffer holds after
  the body is therefore the one stored product, as a function of the input blocks.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rX : Rect S16x4096 := Rect.unit (s := S16x4096) ![0, 0] S16x4096.size inb_S16x4096_S16x4096_0_0
abbrev rW : Rect S256x4096 := Rect.unit (s := S256x4096) ![0, 0] S256x4096.size inb_S256x4096_S256x4096_0_0
abbrev rO : Rect S16x256 := Rect.unit (s := S16x256) ![0, 0] S16x256.size inb_S16x256_S16x256_0_0

/-- The three output buffers after the body: the band's product with the normalised input, stored whole. -/
def outQ (x0 : Vec F S16x4096 .bf16) (x1 : Vec F S256x4096 .f32) : Vec F S16x256 .f32 :=
  View.canon [⟨rO, k0_pay2 (View.ld x0 rX) (View.ld x1 rW)⟩]
def outK (x0 : Vec F S16x4096 .bf16) (x2 : Vec F S256x4096 .f32) : Vec F S16x256 .f32 :=
  View.canon [⟨rO, k0_pay3 (View.ld x0 rX) (View.ld x2 rW)⟩]
def outV (x0 : Vec F S16x4096 .bf16) (x3 : Vec F S256x4096 .f32) : Vec F S16x256 .f32 :=
  View.canon [⟨rO, k0_pay4 (View.ld x0 rX) (View.ld x3 rW)⟩]

/-- One whole-buffer store covers the 16 x 256 buffer. -/
theorem coverO (p0 : Vec F S16x256 .f32) (y : S16x256.Idx) :
    ∃ pc ∈ ([⟨rO, p0⟩] : List (View.Piece (Elt F) S16x256 .f32)), y ∈ pc.1.set :=
  View.cover_of_tiled [⟨rO, p0⟩] S16x256.size (by rfl) y

set_option maxHeartbeats 2000000 in
/-- The body, run on whole staging buffers with the four inputs at known contents and the three outputs at anything,
    reaches its continuation with the inputs as they were and each output at its product. -/
theorem sound_kernel0 (c : Dev nD) (E : Set ℕ) (i : grid0.Coords)
    (arg1 : Memref sig .tc .vmem S16x4096 .bf16) (harg1 : arg1.IsWhole)
    (arg2 : Memref sig .tc .vmem S256x4096 .f32) (harg2 : arg2.IsWhole)
    (arg3 : Memref sig .tc .vmem S256x4096 .f32) (harg3 : arg3.IsWhole)
    (arg4 : Memref sig .tc .vmem S256x4096 .f32) (harg4 : arg4.IsWhole)
    (arg5 : Memref sig .tc .vmem S16x256 .f32) (harg5 : arg5.IsWhole)
    (arg6 : Memref sig .tc .vmem S16x256 .f32) (harg6 : arg6.IsWhole)
    (arg7 : Memref sig .tc .vmem S16x256 .f32) (harg7 : arg7.IsWhole)
    (x0 : Vec F S16x4096 .bf16) (x1 x2 x3 : Vec F S256x4096 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outQ x0 x1) ∗ owns (c : Thread nD τ) arg6 fullShare (outK x0 x2)
            ∗ owns (c : Thread nD τ) arg7 fullShare (outV x0 x3)) -∗ K ⟨⟩))
      ⊢ wp frame (wpE (defs₀ (F := F)) Variants.none c none) E
          (cc0__qkv_fused_kernel i arg1 harg1 arg2 harg2 arg3 harg3 arg4 harg4 arg5 harg5 arg6 harg6 arg7 harg7) K := by
  simp only [cc0__qkv_fused_kernel_eq_skeleton]; unfold cc0__qkv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

end Cert.Kernel.Hand

end
-- ==== Proof.ProjDataBits.lean ====
/-
  The projection region's proof data. The region finds its four input arrays as the host stretch before it left them
  (the normalised input, and the three weight matrices untouched); at every grid point each input's staging buffer holds
  that array's block at the point, and the body leaves in each output's staging buffer the product of the normalised
  input with the point's band of the weight matrix. Nothing is kept between points.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import proofs.«157200_j55740085567782_2_alg».proof.Proof.ProjBodyBits
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the projection region is entered: after the first host stretch. -/
abbrev VA (c : Dev nD) (b : Ref sig .tc) : Buf (Elt F) ((c : Thread nD τ).loc b) := V1 m c (Proc.devRef .tc b)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (VA m c (Pipeline.arrRef spec0 w))

/-- The proof data: arrays as found, inputs at their blocks, outputs at the products, the class's invariant. -/
def dats0 (c : Dev nD) : Dat τ (Elt F) Unit ℕ (UR sig nD τ) ℕ cfg0 c where
  A w := VA m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => outQ (iblk0 m c 0 t) (iblk0 m c 1 t)
    | ⟨5, _⟩ => outK (iblk0 m c 0 t) (iblk0 m c 2 t)
    | ⟨6, _⟩ => outV (iblk0 m c 0 t) (iblk0 m c 3 t)
  Φ _ := Pipeline.ΦA spec0 c
  q _ := fullShare
  owed _ := 0

theorem A0_eq (c : Dev nD) (w : Fin cfg0.W) : (dats0 m c).A w = VA m c (Pipeline.arrRef spec0 w) := by
  dsimp only [dats0]

theorem after0_0 (c : Dev nD) (t : Fin cfg0.N) : (dats0 m c).after 0 t = iblk0 m c 0 t := by dsimp only [dats0]
theorem after0_1 (c : Dev nD) (t : Fin cfg0.N) : (dats0 m c).after 1 t = iblk0 m c 1 t := by dsimp only [dats0]
theorem after0_2 (c : Dev nD) (t : Fin cfg0.N) : (dats0 m c).after 2 t = iblk0 m c 2 t := by dsimp only [dats0]
theorem after0_3 (c : Dev nD) (t : Fin cfg0.N) : (dats0 m c).after 3 t = iblk0 m c 3 t := by dsimp only [dats0]
theorem after0_4 (c : Dev nD) (t : Fin cfg0.N) : (dats0 m c).after 4 t = outQ (iblk0 m c 0 t) (iblk0 m c 1 t) := by dsimp only [dats0]
theorem after0_5 (c : Dev nD) (t : Fin cfg0.N) : (dats0 m c).after 5 t = outK (iblk0 m c 0 t) (iblk0 m c 2 t) := by dsimp only [dats0]
theorem after0_6 (c : Dev nD) (t : Fin cfg0.N) : (dats0 m c).after 6 t = outV (iblk0 m c 0 t) (iblk0 m c 3 t) := by dsimp only [dats0]

/-- Each input's current staging buffer holds its block at every point, fetched there or not (an unfetched window's
    block index has not moved since its last fetch). -/
theorem before0_0 (c : Dev nD) (t : Fin cfg0.N) (d) : (dats0 m c).before 0 t d = iblk0 m c 0 t :=
  ((dats0 m c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dats0 m c).before 1 t d = iblk0 m c 1 t :=
  ((dats0 m c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dats0 m c).before 2 t d = iblk0 m c 2 t :=
  ((dats0 m c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dats0 m c).before 3 t d = iblk0 m c 3 t :=
  ((dats0 m c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- What the body is called with at point `t`, the windows one by one, -/
def bodyPre0 (c : Dev nD) (t : Fin cfg0.N) : sProp 𝕄 :=
  iprop((dats0 m c).Φ t.castSucc ∗ (dats0 m c).owesAt () t.castSucc
    ∗ (∃ d, owns (c : Thread nD τ) (st0_0 t) fullShare ((dats0 m c).before 0 t d))
    ∗ (∃ d, owns (c : Thread nD τ) (st0_1 t) fullShare ((dats0 m c).before 1 t d))
    ∗ (∃ d, owns (c : Thread nD τ) (st0_2 t) fullShare ((dats0 m c).before 2 t d))
    ∗ (∃ d, owns (c : Thread nD τ) (st0_3 t) fullShare ((dats0 m c).before 3 t d))
    ∗ (∃ d, owns (c : Thread nD τ) (st0_4 t) fullShare ((dats0 m c).before 4 t d))
    ∗ (∃ d, owns (c : Thread nD τ) (st0_5 t) fullShare ((dats0 m c).before 5 t d))
    ∗ (∃ d, owns (c : Thread nD τ) (st0_6 t) fullShare ((dats0 m c).before 6 t d)))

/-- and what it returns. -/
def bodyPost0 (c : Dev nD) (t : Fin cfg0.N) : sProp 𝕄 :=
  iprop((dats0 m c).Φ t.succ ∗ (dats0 m c).owesAt () t.succ
    ∗ owns (c : Thread nD τ) (st0_0 t) fullShare ((dats0 m c).after 0 t)
    ∗ owns (c : Thread nD τ) (st0_1 t) fullShare ((dats0 m c).after 1 t)
    ∗ owns (c : Thread nD τ) (st0_2 t) fullShare ((dats0 m c).after 2 t)
    ∗ owns (c : Thread nD τ) (st0_3 t) fullShare ((dats0 m c).after 3 t)
    ∗ owns (c : Thread nD τ) (st0_4 t) fullShare ((dats0 m c).after 4 t)
    ∗ owns (c : Thread nD τ) (st0_5 t) fullShare ((dats0 m c).after 5 t)
    ∗ owns (c : Thread nD τ) (st0_6 t) fullShare ((dats0 m c).after 6 t))

/-- The body at any point: the inputs' buffers hold their blocks, so the body's triple applies; the invariant and the
    core's dues pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3]
  rw [show (dats0 m c).Φ t.succ = (dats0 m c).Φ t.castSucc from rfl,
    show (dats0 m c).owesAt () t.succ = (dats0 m c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 m c 0 t) (iblk0 m c 1 t) (iblk0 m c 2 t) (iblk0 m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dats0 (F := F) m c) (defs₀ (F := F)) Variants.none () Set.univ := fun t => by
  rw [bigSep_W0, bigSep_W0]
  exact sound_body0 m c t

end Cert.Kernel.Hand

end
-- ==== Proof.AttnCondsBits.lean ====
/-
  What the attention kernel's runs share. The grid is 32 heads by 2 halves of the 8192 cached keys; the body's first
  conditional (reset the running maximum, the normaliser and the accumulator) is taken exactly on the first half, its
  second (fold in the 16 new keys and values, divide, store the head's output) exactly on the second half. On the first
  half nothing is stored into the output buffer and its block is not written back.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates. -/
abbrev cond1_0 (i : grid1.Coords) : Prop := (Scalar.cmpi .ne (Scalar.extui (Scalar.cmpi .eq (BitVec.ofNat 32 (i 1).val) 0#32)) 0#32) = 1#1
/-- It holds at the even points (the first half of a head). -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's test. -/
abbrev cond1_1 (i : grid1.Coords) : Prop := k1_cond2 i = 1#1
/-- It holds at the odd points (the second half of a head). -/
theorem hcond1_1 : ∀ t : Fin cfg1.N, cond1_1 (grid1.coords t) ↔ t.val % 2 = 1 :=
  (by decide +kernel : ∀ t : Fin grid1.N, cond1_1 (grid1.coords t) ↔ t.val % 2 = 1)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- On the first half the output window is idle and its block is not written back; on the second half it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem liveAt1_5_B : ∀ t : Fin cfg1.N, ¬cond1_0 (grid1.coords t) → cond1_1 (grid1.coords t) → cfg1.idle 5 (grid1.coords t) = false := by decide +kernel

/-- Each window's current staging buffer at point `t`, as the pipeline passes it, and its wholeness. -/
abbrev ms1_0 (t : Fin cfg1.N) : Memref sig .tc .vmem S1x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16x128 .f32 := win1_5.stage (cfg1.slots t 5)
abbrev hs1_5 (t : Fin cfg1.N) : (ms1_5 t).IsWhole := hstage1_5 ((cfg1.slots t 5).cast nbuf1_5)

/-- The three buffers the kernel keeps between points: the running maximum, the normaliser, the accumulator. -/
abbrev scM : Memref sig .tc .vmem S1x16x1 .f32 := Memref.whole cc1_scratch0
abbrev scL : Memref sig .tc .vmem S1x16x1 .f32 := Memref.whole cc1_scratch1
abbrev scA : Memref sig .tc .vmem S1x16x128 .f32 := Memref.whole cc1_scratch2
abbrev VSM : View sig .tc .vmem S1x16x1 .f32 := scM.view
abbrev VSL : View sig .tc .vmem S1x16x1 .f32 := scL.view
abbrev VSA : View sig .tc .vmem S1x16x128 .f32 := scA.view
/-- One staging buffer of the output window, through which its contents are stated. -/
abbrev VO5 : View sig .tc .vmem S1x16x128 .f32 := (Memref.whole cc1_stg5_0 : Memref sig .tc .vmem S1x16x128 .f32).view

/-- The projection region's thirteen staging buffers lie idle through this region, each whole at some contents. -/
def idleStaging (c : Dev nD) : sProp 𝕄 :=
  iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg5_1), ((c : Thread nD τ).loc cc0_stg5_1) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg6_1), ((c : Thread nD τ).loc cc0_stg6_1) ↦{fullShare} f))

/-- The region's invariant before its first point: the idle staging buffers of the projection region, the three kept
    buffers at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg5_1), ((c : Thread nD τ).loc cc0_stg5_1) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg6_1), ((c : Thread nD τ).loc cc0_stg6_1) ↦{fullShare} f)
          ∗ (∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA; rw [scopedRest1_eq]; simp only [scM, scL, scA, owns_whole]; try rfl

end Cert.Kernel.Hand

end
-- ==== Proof.AttnRunABits.lean ====
/-
  The attention kernel's body on the first half of a head. The running maximum, the normaliser and the accumulator are
  reset (to minus infinity, zero, zero) and then updated by the half's 4096 cached keys and values; nothing is stored
  into the output buffer, which is handed back as it was found. What the three kept buffers end with is found by
  running the body: the pieces its stores leave, last first.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import proofs.«157200_j55740085567782_2_alg».proof.Proof.AttnCondsBits
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three kept buffers on a first half, with the proof that from whole
    buffers — the five inputs at known contents, the output at contents handed back untouched, the kept buffers at
    anything — the body runs to its continuation with those pieces written. -/
noncomputable def kernelRun1_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i)
    (x0 : Vec F S1x16x128 .f32) (x1 x2 : Vec F S1x4096x128 .f32) (x3 x4 : Vec F S1x16x128 .f32) :
    Σ' (LS0 : List (View.Piece (Elt F) S1x16x1 .f32)) (LS1 : List (View.Piece (Elt F) S1x16x1 .f32)), { LS2 : List (View.Piece (Elt F) S1x16x128 .f32) //
      ∀ (xi5 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.AttnRunBBits.lean ====
/-
  The attention kernel's body on the second half of a head. The running maximum, the normaliser and the accumulator
  arrive as the first half left them, are updated by the half's 4096 cached keys and values, and then once more — in
  values only, nothing more is kept — by the 16 new keys and values; the quotient of the final accumulator by the final
  normaliser is stored whole into the output buffer. The pieces the stores leave are found by running the body.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import proofs.«157200_j55740085567782_2_alg».proof.Proof.AttnCondsBits
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three kept buffers on a second half, with the
    proof that from whole buffers — the five inputs at known contents, the output at anything, the kept buffers at the
    contents the point before left — the body runs to its continuation with those pieces written. -/
noncomputable def kernelRun1_B (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i)
    (x0 : Vec F S1x16x128 .f32) (x1 x2 : Vec F S1x4096x128 .f32) (x3 x4 : Vec F S1x16x128 .f32) (xs0 xs1 : Vec F S1x16x1 .f32) (xs2 : Vec F S1x16x128 .f32) :
    Σ' (L5 : List (View.Piece (Elt F) S1x16x128 .f32)) (LS0 : List (View.Piece (Elt F) S1x16x1 .f32)) (LS1 : List (View.Piece (Elt F) S1x16x1 .f32)), { LS2 : List (View.Piece (Elt F) S1x16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.AttnDataBits.lean ====
/-
  The attention region's proof data. A head takes two grid points. After the first, the three kept buffers hold the
  running maximum, the normaliser and the accumulator over the first 4096 cached keys; after the second, the output
  buffer holds the head's result and the kept buffers the state over all 8192 cached keys. What every buffer holds
  after each point is defined by recursion on the point: an even point starts afresh, an odd point continues from what
  the point before it left.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import proofs.«157200_j55740085567782_2_alg».proof.Proof.AttnRunABits
import proofs.«157200_j55740085567782_2_alg».proof.Proof.AttnRunBBits
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kept buffers' contents as a triple: running maximum, normaliser, accumulator. -/
abbrev Kept (F : FTy → Type) : Type := Vec F S1x16x1 .f32 × Vec F S1x16x1 .f32 × Vec F S1x16x128 .f32

/-- What an even point leaves in the kept buffers: the pieces its run found, read back. -/
def caseA (c : Dev nD) (t : Fin cfg1.N) (h0 : t.val % 2 = 0) : Kept F :=
  (VSM.read (Elt F) (VSM.writes (Elt F) VSM.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t) (iblk1 V c 3 t) (iblk1 V c 4 t)).1),
   VSL.read (Elt F) (VSL.writes (Elt F) VSL.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t) (iblk1 V c 3 t) (iblk1 V c 4 t)).2.1),
   VSA.read (Elt F) (VSA.writes (Elt F) VSA.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t) (iblk1 V c 3 t) (iblk1 V c 4 t)).2.2.1))

/-- What an odd point leaves in the output buffer and the kept buffers, from what the point before left. -/
def caseB (c : Dev nD) (t : Fin cfg1.N) (h1 : t.val % 2 = 1) (s : Kept F) : Vec F S1x16x128 .f32 × Kept F :=
  (VO5.read (Elt F) (VO5.writes (Elt F) VO5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).1),
   VSM.read (Elt F) (VSM.writes (Elt F) VSM.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).2.1),
   VSL.read (Elt F) (VSL.writes (Elt F) VSL.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).2.2.1),
   VSA.read (Elt F) (VSA.writes (Elt F) VSA.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).2.2.2.1))

/-- The pieces found cover their buffers (each store is of a whole buffer). -/
theorem scoverA_M (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) (y : S1x16x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1x16x1.size (by sl_kernel_rfl) y
theorem scoverA_L (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) (y : S1x16x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1x16x1.size (by sl_kernel_rfl) y
theorem scoverA_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) (y : S1x16x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1x16x128.size (by sl_kernel_rfl) y
theorem coverB_5 (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S1x16x128.size (by sl_kernel_rfl) y
theorem scoverB_M (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S1x16x1.size (by sl_kernel_rfl) y
theorem scoverB_L (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S1x16x1.size (by sl_kernel_rfl) y
theorem scoverB_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1 S1x16x128.size (by sl_kernel_rfl) y

/-- What the output buffer and the kept buffers hold after the body at position `n`. At an even position the output
    component is a placeholder nothing consults (the window is idle there and its block is not written back). -/
def outsAt1 (c : Dev nD) : (n : ℕ) → n < cfg1.N → Vec F S1x16x128 .f32 × Kept F
  | 0, hn => (VO5.read (Elt F) VO5.junk, caseA V c ⟨0, hn⟩ (Nat.zero_mod _))
  | n + 1, hn =>
    if h0 : (n + 1) % 2 = 0 then (VO5.read (Elt F) VO5.junk, caseA V c ⟨n + 1, hn⟩ h0)
    else caseB V c ⟨n + 1, hn⟩ (show (n + 1) % 2 = 1 by omega) (outsAt1 c n (Nat.lt_of_succ_lt hn)).2

theorem outsAt1_A (c : Dev nD) (t : Fin cfg1.N) (h0 : t.val % 2 = 0) :
    outsAt1 V c t.val t.isLt = (VO5.read (Elt F) VO5.junk, caseA V c t h0) := by
  obtain ⟨n, hn⟩ := t
  cases n with
  | zero => exact rfl
  | succ n => exact (dif_pos h0).trans rfl

theorem outsAt1_B (c : Dev nD) (t : Fin cfg1.N) (h1 : t.val % 2 = 1) :
    outsAt1 V c t.val t.isLt = caseB V c t h1 (outsAt1 V c (t.val - 1) (Nat.lt_of_le_of_lt (Nat.sub_le _ _) t.isLt)).2 := by
  obtain ⟨n, hn⟩ := t
  cases n with
  | zero => exact absurd (show (0 : ℕ) % 2 = 1 from h1) (by decide)
  | succ n => exact (dif_neg (show ¬ (n + 1) % 2 = 0 by have h1' : (n + 1) % 2 = 1 := h1; omega)).trans rfl

/-- The region invariant before position `n`: before the first point the class's; afterwards the idle staging buffers,
    the three kept buffers at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM fullShare (outsAt1 V c n hn).2.1
      ∗ owns (c : Thread nD τ) scL fullShare (outsAt1 V c n hn).2.2.1
      ∗ owns (c : Thread nD τ) scA fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM fullShare (outsAt1 V c n hn).2.1
      ∗ owns (c : Thread nD τ) scL fullShare (outsAt1 V c n hn).2.2.1
      ∗ owns (c : Thread nD τ) scA fullShare (outsAt1 V c n hn).2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM fullShare (outsAt1 V c (n - 1) (by omega)).2.1
      ∗ owns (c : Thread nD τ) scL fullShare (outsAt1 V c (n - 1) (by omega)).2.2.1
      ∗ owns (c : Thread nD τ) scA fullShare (outsAt1 V c (n - 1) (by omega)).2.2.2) ∗ (∃ r, prngReg c r)) := by
  cases n with
  | zero => exact absurd rfl hz
  | succ n => rfl

/-- The proof data: arrays as found; after the body each input's buffer at its block and the output's at
    `outsAt1`'s first component; the invariant `PhiS1`; nothing owed; full shares. -/
def dats1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A1_eq (c : Dev nD) (w : Fin cfg1.W) : (dats1 V c).A w = V c (Pipeline.arrRef spec1 w) := by
  dsimp only [dats1]

theorem PhiS1_castSucc (c : Dev nD) (t : Fin cfg1.N) :
    (dats1 V c).Φ t.castSucc = PhiS1 V c t.val (Nat.le_of_lt t.isLt) := by
  dsimp only [dats1]; simp only [Fin.coe_castSucc]

theorem after1_0 (c : Dev nD) (t : Fin cfg1.N) : (dats1 V c).after 0 t = iblk1 V c 0 t := by dsimp only [dats1]
theorem after1_1 (c : Dev nD) (t : Fin cfg1.N) : (dats1 V c).after 1 t = iblk1 V c 1 t := by dsimp only [dats1]
theorem after1_2 (c : Dev nD) (t : Fin cfg1.N) : (dats1 V c).after 2 t = iblk1 V c 2 t := by dsimp only [dats1]
theorem after1_3 (c : Dev nD) (t : Fin cfg1.N) : (dats1 V c).after 3 t = iblk1 V c 3 t := by dsimp only [dats1]
theorem after1_4 (c : Dev nD) (t : Fin cfg1.N) : (dats1 V c).after 4 t = iblk1 V c 4 t := by dsimp only [dats1]
theorem after1_5 (c : Dev nD) (t : Fin cfg1.N) : (dats1 V c).after 5 t = (outsAt1 V c t.val t.isLt).1 := by dsimp only [dats1]

/-- Each input's current staging buffer holds its block at every point, fetched there or not. -/
theorem before1_0 (c : Dev nD) (t : Fin cfg1.N) (d) : (dats1 V c).before 0 t d = iblk1 V c 0 t :=
  ((dats1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dats1 V c).before 1 t d = iblk1 V c 1 t :=
  ((dats1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dats1 V c).before 2 t d = iblk1 V c 2 t :=
  ((dats1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dats1 V c).before 3 t d = iblk1 V c 3 t :=
  ((dats1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dats1 V c).before 4 t d = iblk1 V c 4 t :=
  ((dats1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)

end Cert.Kernel.Hand

end
-- ==== Proof.AttnBodyBits.lean ====
/-
  The attention region's body obligation. At an even point the body is handed the kept buffers at anything (at the very
  first point) or at what the point before left (which it overwrites), and leaves them at the reset-and-update
  contents; at an odd point it is handed them at what the even point left and leaves the output buffer at the head's
  result. The projection region's idle staging buffers, the generator register and the core's dues pass through unread.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import proofs.«157200_j55740085567782_2_alg».proof.Proof.AttnDataBits
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dats1 V c).Φ t.castSucc ∗ (dats1 V c).owesAt () t.castSucc
    ∗ (∃ d, owns (c : Thread nD τ) (ms1_0 t) fullShare ((dats1 V c).before 0 t d))
    ∗ (∃ d, owns (c : Thread nD τ) (ms1_1 t) fullShare ((dats1 V c).before 1 t d))
    ∗ (∃ d, owns (c : Thread nD τ) (ms1_2 t) fullShare ((dats1 V c).before 2 t d))
    ∗ (∃ d, owns (c : Thread nD τ) (ms1_3 t) fullShare ((dats1 V c).before 3 t d))
    ∗ (∃ d, owns (c : Thread nD τ) (ms1_4 t) fullShare ((dats1 V c).before 4 t d))
    ∗ (∃ d, owns (c : Thread nD τ) (ms1_5 t) fullShare ((dats1 V c).before 5 t d)))

/-- and what it returns. -/
def bodyPost1 (c : Dev nD) (t : Fin cfg1.N) : sProp 𝕄 :=
  iprop((dats1 V c).Φ t.succ ∗ (dats1 V c).owesAt () t.succ
    ∗ (dats1 V c).leavesExact 0 t ∗ (dats1 V c).leavesExact 1 t ∗ (dats1 V c).leavesExact 2 t
    ∗ (dats1 V c).leavesExact 3 t ∗ (dats1 V c).leavesExact 4 t ∗ (dats1 V c).leavesExact 5 t)

set_option maxHeartbeats 8000000 in
/-- The body at any point, by the point's parity. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dats1 V c).owesAt () t.succ = (dats1 V c).owesAt () t.castSucc from rfl]
  rw [show (dats1 V c).Φ t.succ = PhiS1 V c (t.val + 1) t.isLt from rfl, PhiS1_succ]
  have hN : t.val < 64 := lt_of_lt_of_eq t.isLt (show cfg1.N = 64 from N_1)
  rw [show (dats1 V c).leavesExact 0 t = owns (c : Thread nD τ) (ms1_0 t) fullShare ((dats1 V c).after 0 t) from by
    unfold Dat.leavesExact; rw [liveAt1_0 t], after1_0]
  rw [show (dats1 V c).leavesExact 1 t = owns (c : Thread nD τ) (ms1_1 t) fullShare ((dats1 V c).after 1 t) from by
    unfold Dat.leavesExact; rw [liveAt1_1 t], after1_1]
  rw [show (dats1 V c).leavesExact 2 t = owns (c : Thread nD τ) (ms1_2 t) fullShare ((dats1 V c).after 2 t) from by
    unfold Dat.leavesExact; rw [liveAt1_2 t], after1_2]
  rw [show (dats1 V c).leavesExact 3 t = owns (c : Thread nD τ) (ms1_3 t) fullShare ((dats1 V c).after 3 t) from by
    unfold Dat.leavesExact; rw [liveAt1_3 t], after1_3]
  rw [show (dats1 V c).leavesExact 4 t = owns (c : Thread nD τ) (ms1_4 t) fullShare ((dats1 V c).after 4 t) from by
    unfold Dat.leavesExact; rw [liveAt1_4 t], after1_4]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dats1 V c) 5 t (idleAt1_5_A t hc0 hc1) (noFlush1_5_A t hc0 hc1)]
    rw [outsAt1_A V c t h0]
    unfold caseA; (try dsimp only)
    by_cases hz : t.val = 0
    · rw [PhiS1_castSucc V c t, PhiS1_zero V c _ _ hz, PhiA1_eq]
      iintro ⟨⟨⟨R0, R1, R2, R3, R4, R5, R6, R7, R8, R9, R10, R11, R12, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [R0 R1 R2 R3 R4 R5 R6 R7 R8 R9 R10 R11 R12 HS0 HS1 HS2 Hg]
      · isplitl [R0 R1 R2 R3 R4 R5 R6 R7 R8 R9 R10 R11 R12 HS0 HS1 HS2]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [HS0]
        · unfold owns; iexists _; isplitr
          swap; · iexact HS0
          ipureintro; exact View.read_writes_of_cover _ _ _ _ _ (scoverA_M c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _ _ _ _ _ _)
        unfold owns; iexists _; isplitr
        swap; · iexact HS2
        ipureintro; exact View.read_writes_of_cover _ _ _ _ _ (scoverA_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨R0, R1, R2, R3, R4, R5, R6, R7, R8, R9, R10, R11, R12, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [R0 R1 R2 R3 R4 R5 R6 R7 R8 R9 R10 R11 R12 HS0 HS1 HS2 Hg]
      · isplitl [R0 R1 R2 R3 R4 R5 R6 R7 R8 R9 R10 R11 R12 HS0 HS1 HS2]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [HS0]
        · unfold owns; iexists _; isplitr
          swap; · iexact HS0
          ipureintro; exact View.read_writes_of_cover _ _ _ _ _ (scoverA_M c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _ _ _ _ _ _)
        unfold owns; iexists _; isplitr
        swap; · iexact HS2
        ipureintro; exact View.read_writes_of_cover _ _ _ _ _ (scoverA_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hc0 : ¬cond1_0 (grid1.coords t) := fun h => by have := (hcond1_0 t).mp h; omega
    have hc1 : cond1_1 (grid1.coords t) := (hcond1_1 t).mpr h1
    have hz : t.val ≠ 0 := by omega
    rw [show (dats1 V c).leavesExact 5 t = owns (c : Thread nD τ) (ms1_5 t) fullShare ((dats1 V c).after 5 t) from by
      unfold Dat.leavesExact; rw [liveAt1_5_B t hc0 hc1], after1_5]
    rw [outsAt1_B V c t h1]
    unfold caseB; (try dsimp only)
    rw [PhiS1_castSucc V c t, PhiS1_pos V c _ _ hz]
    iintro ⟨⟨⟨R0, R1, R2, R3, R4, R5, R6, R7, R8, R9, R10, R11, R12, HS0, HS1, HS2⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ _ _ _ _ hc0 hc1 (iblk1 V c 0 t) (iblk1 V c 1 t) (iblk1 V c 2 t) (iblk1 V c 3 t) (iblk1 V c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [R0 R1 R2 R3 R4 R5 R6 R7 R8 R9 R10 R11 R12 HS0 HS1 HS2 Hg]
    · isplitl [R0 R1 R2 R3 R4 R5 R6 R7 R8 R9 R10 R11 R12 HS0 HS1 HS2]
      swap; · iexact Hg
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [HS0]
      · unfold owns; iexists _; isplitr
        swap; · iexact HS0
        ipureintro; exact View.read_writes_of_cover _ _ _ _ _ (scoverB_M c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scoverB_L c _ _ _ _ _ _ _ _ _ _ _ _ _ _ _ _ _ _ _ _ _ _ _ _ _ _ _ _ _)
      unfold owns; iexists _; isplitr
      swap; · iexact HS2
      ipureintro; exact View.read_writes_of_cover _ _ _ _ _ (scoverB_A c _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB_5 c _ _ _ _ _ _ _ _ _ _ _ _ _ _ _ _ _ _ _ _ _ _ _ _ _ _ _ _ _)

/-- The library's body obligation, at every point. -/
theorem body_obligation1 (c : Dev nD) : BodyObligation (dats1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dats1 V c).Φ 0 := by
  rw [show (dats1 V c).Φ 0 = PhiS1 V c 0 (Nat.zero_le _) from rfl, PhiS1_zero V c 0 _ rfl]
  try exact Idealize.SL.BI.Entails.refl _

/-- After the last point the invariant gives the class's back: the kept buffers' named contents are forgotten. -/
theorem hout1 (c : Dev nD) : (dats1 V c).Φ (Fin.last cfg1.N) ⊢ Pipeline.ΦA spec1 c := by
  rw [show (dats1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨R0, R1, R2, R3, R4, R5, R6, R7, R8, R9, R10, R11, R12, HS0, HS1, HS2⟩, Hg⟩
  isplitl [R0 R1 R2 R3 R4 R5 R6 R7 R8 R9 R10 R11 R12 HS0 HS1 HS2]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [HS0]; · iexists _; iexact HS0
  isplitl [HS1]; · iexists _; iexact HS1
  iexists _; iexact HS2

end Cert.Kernel.Hand

end
-- ==== Proof.RunBits.lean ====
/-
  The whole program's run. @main is five items: the normalisation (host), the projection region, the re-layout of the
  three projections per head (host), the attention region, and the re-layout of the result (host). Between two items
  every unscoped buffer of the core is held at a named valuation: the launch memory, then each host stretch applied,
  then — at a region's exit — the region's arrays at what its pipeline leaves and every other buffer as entered. The
  run ends with every unscoped buffer at the last valuation; the frame and the result's value are both read off it.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import proofs.«157200_j55740085567782_2_alg».proof.Proof.ProjDataBits
import proofs.«157200_j55740085567782_2_alg».proof.Proof.AttnBodyBits
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the normalisation (the projection region's entry): the generated `V1`. Read at a reference: `VA`. -/
abbrev W1 : Dev nD → Valuation τ sig (Elt F) := fun c => V1 m c
/-- At the projection region's exit. -/
def W2 (c : Dev nD) : Valuation τ sig (Elt F) :=
  Pipeline.withArrays spec0 c (W1 m c) fun w => (dats0 m c).arrAt w cfg0.N
theorem W2_arr (c : Dev nD) (w : Fin cfg0.W) :
    W2 m c (Proc.devRef .tc (Pipeline.arrRef spec0 w)) = (dats0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dats0 m c).arrAt w cfg0.N = V2 m c (Pipeline.arrRef spec0 w) :=
  (W2_arr m c w).symm
theorem hrest0 (c : Dev nD) : ∀ b, b ∉ Finset.univ.image (Pipeline.arrRef spec0) → V2 m c b = VA m c b :=
  fun b hb => W2_of_ne m c b fun w e => hb (Finset.mem_image.mpr ⟨w, Finset.mem_univ _, e⟩)

/-- After the per-head re-layout (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dats1 (V3 m) c).arrAt w cfg1.N
theorem W4_arr (c : Dev nD) (w : Fin cfg1.W) :
    W4 m c (Proc.devRef .tc (Pipeline.arrRef spec1 w)) = (dats1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dats1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the result's re-layout: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dats0 m c
  | ⟨1, _⟩ => fun c => dats1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- unification with the pinned configuration may unfold plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

-- the launch theorem's implicit arguments are found by unifying its conclusion with this one
set_option backward.isDefEq.respectTransparency.types false in
/-- From any memory with zero counters every weakly fair execution of @main terminates, nothing faulting, and every
    final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.FrameBits.lean ====
/-
  The frame, read off the run: no host stretch writes an argument and no region changes one (a region reads it through
  an input window, whose array ends as it was entered, or does not touch it), so the last valuation at an argument's
  buffer walks back to the launch memory.
-/
import proofs.«157200_j55740085567782_2_alg».proof.Proof.Gen.Kernel.Launch
import proofs.«157200_j55740085567782_2_alg».proof.Proof.Gen.Kernel.Skeleton
import proofs.«157200_j55740085567782_2_alg».proof.Proof.Gen.Kernel.Points
import proofs.«157200_j55740085567782_2_alg».proof.Proof.Gen.Kernel.Regions
import proofs.«157200_j55740085567782_2_alg».proof.Proof.RunBits
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = m ((c : Thread nD τ).loc main_arg0) := (V1_of m c main_arg0 (by decide)).trans rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dats0 m c).arrAt_in 1 rfl _).trans (A0_eq m c 1))
    _ = m ((c : Thread nD τ).loc main_arg1) := (V1_of m c main_arg1 (by decide)).trans rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dats0 m c).arrAt_in 2 rfl _).trans (A0_eq m c 2))
    _ = m ((c : Thread nD τ).loc main_arg2) := (V1_of m c main_arg2 (by decide)).trans rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 3).trans (((dats0 m c).arrAt_in 3 rfl _).trans (A0_eq m c 3))
    _ = m ((c : Thread nD τ).loc main_arg3) := (V1_of m c main_arg3 (by decide)).trans rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := (W4_arr m c 1).trans (((dats1 (V3 m) c).arrAt_in 1 rfl _).trans (A1_eq (V3 m) c 1))
    _ = W2 m c (Proc.devRef .tc main_arg4) := StableHlo.after_of_writes_sub hostOps1 _ hostOps1_writes (by decide)
    _ = W1 m c (Proc.devRef .tc main_arg4) := W2_of_ne m c main_arg4 (by decide)
    _ = m ((c : Thread nD τ).loc main_arg4) := (V1_of m c main_arg4 (by decide)).trans rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := (W4_arr m c 2).trans (((dats1 (V3 m) c).arrAt_in 2 rfl _).trans (A1_eq (V3 m) c 2))
    _ = W2 m c (Proc.devRef .tc main_arg5) := StableHlo.after_of_writes_sub hostOps1 _ hostOps1_writes (by decide)
    _ = W1 m c (Proc.devRef .tc main_arg5) := W2_of_ne m c main_arg5 (by decide)
    _ = m ((c : Thread nD τ).loc main_arg5) := (V1_of m c main_arg5 (by decide)).trans rfl

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

/-- The same run with the result named: the result buffer ends at the last valuation's contents. -/
theorem run_value : θ_run defs (onTc (τ := τ) (main (F := F))) ⟨m, fun _ => 0, ρ⟩ (fun r => ∀ c : Dev nD,
      r.2.mem ((c.tc : Thread nD τ).loc main_v18) = W5 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v18 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Hand

end
-- ==== Proof.ProjBodyIdeal.lean ====
/-
  The projection kernel's body on any staging buffers. One grid point multiplies the whole normalised input
  (16 x 4096) by a band of 256 rows of each of the three weight matrices, contracting the shared axis of length 4096,
  and stores the three 16 x 256 products whole, each into its own output buffer. What each output buffer holds after
  the body is therefore the one stored product, as a function of the input blocks.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rX : Rect S16x4096 := Rect.unit (s := S16x4096) ![0, 0] S16x4096.size inb_S16x4096_S16x4096_0_0
abbrev rW : Rect S256x4096 := Rect.unit (s := S256x4096) ![0, 0] S256x4096.size inb_S256x4096_S256x4096_0_0
abbrev rO : Rect S16x256 := Rect.unit (s := S16x256) ![0, 0] S16x256.size inb_S16x256_S16x256_0_0

/-- The three output buffers after the body: the band's product with the normalised input, stored whole. -/
def outQ (x0 : Vec F S16x4096 .bf16) (x1 : Vec F S256x4096 .f32) : Vec F S16x256 .f32 :=
  View.canon [⟨rO, k0_pay2 (View.ld x0 rX) (View.ld x1 rW)⟩]
def outK (x0 : Vec F S16x4096 .bf16) (x2 : Vec F S256x4096 .f32) : Vec F S16x256 .f32 :=
  View.canon [⟨rO, k0_pay3 (View.ld x0 rX) (View.ld x2 rW)⟩]
def outV (x0 : Vec F S16x4096 .bf16) (x3 : Vec F S256x4096 .f32) : Vec F S16x256 .f32 :=
  View.canon [⟨rO, k0_pay4 (View.ld x0 rX) (View.ld x3 rW)⟩]

/-- One whole-buffer store covers the 16 x 256 buffer. -/
theorem coverO (p0 : Vec F S16x256 .f32) (y : S16x256.Idx) :
    ∃ pc ∈ ([⟨rO, p0⟩] : List (View.Piece (Elt F) S16x256 .f32)), y ∈ pc.1.set :=
  View.cover_of_tiled [⟨rO, p0⟩] S16x256.size (by rfl) y

set_option maxHeartbeats 2000000 in
/-- The body, run on whole staging buffers with the four inputs at known contents and the three outputs at anything,
    reaches its continuation with the inputs as they were and each output at its product. -/
theorem sound_kernel0 (c : Dev nD) (E : Set ℕ) (i : grid0.Coords)
    (arg1 : Memref sig .tc .vmem S16x4096 .bf16) (harg1 : arg1.IsWhole)
    (arg2 : Memref sig .tc .vmem S256x4096 .f32) (harg2 : arg2.IsWhole)
    (arg3 : Memref sig .tc .vmem S256x4096 .f32) (harg3 : arg3.IsWhole)
    (arg4 : Memref sig .tc .vmem S256x4096 .f32) (harg4 : arg4.IsWhole)
    (arg5 : Memref sig .tc .vmem S16x256 .f32) (harg5 : arg5.IsWhole)
    (arg6 : Memref sig .tc .vmem S16x256 .f32) (harg6 : arg6.IsWhole)
    (arg7 : Memref sig .tc .vmem S16x256 .f32) (harg7 : arg7.IsWhole)
    (x0 : Vec F S16x4096 .bf16) (x1 x2 x3 : Vec F S256x4096 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outQ x0 x1) ∗ owns (c : Thread nD τ) arg6 fullShare (outK x0 x2)
            ∗ owns (c : Thread nD τ) arg7 fullShare (outV x0 x3)) -∗ K ⟨⟩))
      ⊢ wp frame (wpE (defs₀ (F := F)) Variants.none c none) E
          (cc0__qkv_fused_kernel i arg1 harg1 arg2 harg2 arg3 harg3 arg4 harg4 arg5 harg5 arg6 harg6 arg7 harg7) K := by
  simp only [cc0__qkv_fused_kernel_eq_skeleton]; unfold cc0__qkv_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

end Cert.KernelIdeal.Hand

end
-- ==== Proof.ProjDataIdeal.lean ====
/-
  The projection region's proof data. The region finds its four input arrays as the host stretch before it left them
  (the normalised input, and the three weight matrices untouched); at every grid point each input's staging buffer holds
  that array's block at the point, and the body leaves in each output's staging buffer the product of the normalised
  input with the point's band of the weight matrix. Nothing is kept between points.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.ProjBodyIdeal
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the projection region is entered: after the first host stretch. -/
abbrev VA (c : Dev nD) (b : Ref sig .tc) : Buf (Elt F) ((c : Thread nD τ).loc b) := V1 m c (Proc.devRef .tc b)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (VA m c (Pipeline.arrRef spec0 w))

/-- The proof data: arrays as found, inputs at their blocks, outputs at the products, the class's invariant. -/
def dats0 (c : Dev nD) : Dat τ (Elt F) Unit ℕ (UR sig nD τ) ℕ cfg0 c where
  A w := VA m c (Pipeline.arrRef spec0 w)
  after w t := match w with
    | ⟨0, _⟩ => iblk0 m c 0 t
    | ⟨1, _⟩ => iblk0 m c 1 t
    | ⟨2, _⟩ => iblk0 m c 2 t
    | ⟨3, _⟩ => iblk0 m c 3 t
    | ⟨4, _⟩ => outQ (iblk0 m c 0 t) (iblk0 m c 1 t)
    | ⟨5, _⟩ => outK (iblk0 m c 0 t) (iblk0 m c 2 t)
    | ⟨6, _⟩ => outV (iblk0 m c 0 t) (iblk0 m c 3 t)
  Φ _ := Pipeline.ΦA spec0 c
  q _ := fullShare
  owed _ := 0

theorem A0_eq (c : Dev nD) (w : Fin cfg0.W) : (dats0 m c).A w = VA m c (Pipeline.arrRef spec0 w) := by
  dsimp only [dats0]

theorem after0_0 (c : Dev nD) (t : Fin cfg0.N) : (dats0 m c).after 0 t = iblk0 m c 0 t := by dsimp only [dats0]
theorem after0_1 (c : Dev nD) (t : Fin cfg0.N) : (dats0 m c).after 1 t = iblk0 m c 1 t := by dsimp only [dats0]
theorem after0_2 (c : Dev nD) (t : Fin cfg0.N) : (dats0 m c).after 2 t = iblk0 m c 2 t := by dsimp only [dats0]
theorem after0_3 (c : Dev nD) (t : Fin cfg0.N) : (dats0 m c).after 3 t = iblk0 m c 3 t := by dsimp only [dats0]
theorem after0_4 (c : Dev nD) (t : Fin cfg0.N) : (dats0 m c).after 4 t = outQ (iblk0 m c 0 t) (iblk0 m c 1 t) := by dsimp only [dats0]
theorem after0_5 (c : Dev nD) (t : Fin cfg0.N) : (dats0 m c).after 5 t = outK (iblk0 m c 0 t) (iblk0 m c 2 t) := by dsimp only [dats0]
theorem after0_6 (c : Dev nD) (t : Fin cfg0.N) : (dats0 m c).after 6 t = outV (iblk0 m c 0 t) (iblk0 m c 3 t) := by dsimp only [dats0]

/-- Each input's current staging buffer holds its block at every point, fetched there or not (an unfetched window's
    block index has not moved since its last fetch). -/
theorem before0_0 (c : Dev nD) (t : Fin cfg0.N) (d) : (dats0 m c).before 0 t d = iblk0 m c 0 t :=
  ((dats0 m c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dats0 m c).before 1 t d = iblk0 m c 1 t :=
  ((dats0 m c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dats0 m c).before 2 t d = iblk0 m c 2 t :=
  ((dats0 m c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem before0_3 (c : Dev nD) (t : Fin cfg0.N) (d) : (dats0 m c).before 3 t d = iblk0 m c 3 t :=
  ((dats0 m c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)

/-- What the body is called with at point `t`, the windows one by one, -/
def bodyPre0 (c : Dev nD) (t : Fin cfg0.N) : sProp 𝕄 :=
  iprop((dats0 m c).Φ t.castSucc ∗ (dats0 m c).owesAt () t.castSucc
    ∗ (∃ d, owns (c : Thread nD τ) (st0_0 t) fullShare ((dats0 m c).before 0 t d))
    ∗ (∃ d, owns (c : Thread nD τ) (st0_1 t) fullShare ((dats0 m c).before 1 t d))
    ∗ (∃ d, owns (c : Thread nD τ) (st0_2 t) fullShare ((dats0 m c).before 2 t d))
    ∗ (∃ d, owns (c : Thread nD τ) (st0_3 t) fullShare ((dats0 m c).before 3 t d))
    ∗ (∃ d, owns (c : Thread nD τ) (st0_4 t) fullShare ((dats0 m c).before 4 t d))
    ∗ (∃ d, owns (c : Thread nD τ) (st0_5 t) fullShare ((dats0 m c).before 5 t d))
    ∗ (∃ d, owns (c : Thread nD τ) (st0_6 t) fullShare ((dats0 m c).before 6 t d)))

/-- and what it returns. -/
def bodyPost0 (c : Dev nD) (t : Fin cfg0.N) : sProp 𝕄 :=
  iprop((dats0 m c).Φ t.succ ∗ (dats0 m c).owesAt () t.succ
    ∗ owns (c : Thread nD τ) (st0_0 t) fullShare ((dats0 m c).after 0 t)
    ∗ owns (c : Thread nD τ) (st0_1 t) fullShare ((dats0 m c).after 1 t)
    ∗ owns (c : Thread nD τ) (st0_2 t) fullShare ((dats0 m c).after 2 t)
    ∗ owns (c : Thread nD τ) (st0_3 t) fullShare ((dats0 m c).after 3 t)
    ∗ owns (c : Thread nD τ) (st0_4 t) fullShare ((dats0 m c).after 4 t)
    ∗ owns (c : Thread nD τ) (st0_5 t) fullShare ((dats0 m c).after 5 t)
    ∗ owns (c : Thread nD τ) (st0_6 t) fullShare ((dats0 m c).after 6 t))

/-- The body at any point: the inputs' buffers hold their blocks, so the body's triple applies; the invariant and the
    core's dues pass through unread. -/
theorem sound_body0 (c : Dev nD) (t : Fin cfg0.N) :
    bodyPre0 m c t ⊢ wp frame (wpE (defs₀ (F := F)) Variants.none c none) Set.univ (bodyAt0 t) (fun _ => bodyPost0 m c t) := by
  unfold bodyPre0 bodyPost0 bodyAt0
  simp only [before0_0, before0_1, before0_2, before0_3]
  rw [show (dats0 m c).Φ t.succ = (dats0 m c).Φ t.castSucc from rfl,
    show (dats0 m c).owesAt () t.succ = (dats0 m c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 m c 0 t) (iblk0 m c 1 t) (iblk0 m c 2 t) (iblk0 m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dats0 (F := F) m c) (defs₀ (F := F)) Variants.none () Set.univ := fun t => by
  rw [bigSep_W0, bigSep_W0]
  exact sound_body0 m c t

end Cert.KernelIdeal.Hand

end
-- ==== Proof.AttnCondsIdeal.lean ====
/-
  What the attention kernel's runs share. The grid is 32 heads by 2 halves of the 8192 cached keys; the body's first
  conditional (reset the running maximum, the normaliser and the accumulator) is taken exactly on the first half, its
  second (fold in the 16 new keys and values, divide, store the head's output) exactly on the second half. On the first
  half nothing is stored into the output buffer and its block is not written back.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates. -/
abbrev cond1_0 (i : grid1.Coords) : Prop := (Scalar.cmpi .ne (Scalar.extui (Scalar.cmpi .eq (BitVec.ofNat 32 (i 1).val) 0#32)) 0#32) = 1#1
/-- It holds at the even points (the first half of a head). -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's test. -/
abbrev cond1_1 (i : grid1.Coords) : Prop := k1_cond2 i = 1#1
/-- It holds at the odd points (the second half of a head). -/
theorem hcond1_1 : ∀ t : Fin cfg1.N, cond1_1 (grid1.coords t) ↔ t.val % 2 = 1 :=
  (by decide +kernel : ∀ t : Fin grid1.N, cond1_1 (grid1.coords t) ↔ t.val % 2 = 1)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- On the first half the output window is idle and its block is not written back; on the second half it is live. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem liveAt1_5_B : ∀ t : Fin cfg1.N, ¬cond1_0 (grid1.coords t) → cond1_1 (grid1.coords t) → cfg1.idle 5 (grid1.coords t) = false := by decide +kernel

/-- Each window's current staging buffer at point `t`, as the pipeline passes it, and its wholeness. -/
abbrev ms1_0 (t : Fin cfg1.N) : Memref sig .tc .vmem S1x16x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x16x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x16x128 .f32 := win1_5.stage (cfg1.slots t 5)
abbrev hs1_5 (t : Fin cfg1.N) : (ms1_5 t).IsWhole := hstage1_5 ((cfg1.slots t 5).cast nbuf1_5)

/-- The three buffers the kernel keeps between points: the running maximum, the normaliser, the accumulator. -/
abbrev scM : Memref sig .tc .vmem S1x16x1 .f32 := Memref.whole cc1_scratch0
abbrev scL : Memref sig .tc .vmem S1x16x1 .f32 := Memref.whole cc1_scratch1
abbrev scA : Memref sig .tc .vmem S1x16x128 .f32 := Memref.whole cc1_scratch2
abbrev VSM : View sig .tc .vmem S1x16x1 .f32 := scM.view
abbrev VSL : View sig .tc .vmem S1x16x1 .f32 := scL.view
abbrev VSA : View sig .tc .vmem S1x16x128 .f32 := scA.view
/-- One staging buffer of the output window, through which its contents are stated. -/
abbrev VO5 : View sig .tc .vmem S1x16x128 .f32 := (Memref.whole cc1_stg5_0 : Memref sig .tc .vmem S1x16x128 .f32).view

/-- The projection region's thirteen staging buffers lie idle through this region, each whole at some contents. -/
def idleStaging (c : Dev nD) : sProp 𝕄 :=
  iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg5_1), ((c : Thread nD τ).loc cc0_stg5_1) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg6_1), ((c : Thread nD τ).loc cc0_stg6_1) ↦{fullShare} f))

/-- The region's invariant before its first point: the idle staging buffers of the projection region, the three kept
    buffers at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg1_1), ((c : Thread nD τ).loc cc0_stg1_1) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ f : Buf (Elt F) ((c : Thread nD τ).loc cc0_stg4_0), ((c : Thread nD τ).loc cc0_stg4_0) ↦{fullShare} f)
          ∗ (∃ f : Buf (Elt F) ((c : Thread nD τ).loc cc0_stg4_1), ((c : Thread nD τ).loc cc0_stg4_1) ↦{fullShare} f)
          ∗ (∃ f : Buf (Elt F) ((c : Thread nD τ).loc cc0_stg5_0), ((c : Thread nD τ).loc cc0_stg5_0) ↦{fullShare} f)
          ∗ (∃ f : Buf (Elt F) ((c : Thread nD τ).loc cc0_stg5_1), ((c : Thread nD τ).loc cc0_stg5_1) ↦{fullShare} f)
          ∗ (∃ f : Buf (Elt F) ((c : Thread nD τ).loc cc0_stg6_0), ((c : Thread nD τ).loc cc0_stg6_0) ↦{fullShare} f)
          ∗ (∃ f : Buf (Elt F) ((c : Thread nD τ).loc cc0_stg6_1), ((c : Thread nD τ).loc cc0_stg6_1) ↦{fullShare} f)
          ∗ (∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA; rw [scopedRest1_eq]; simp only [scM, scL, scA, owns_whole]; try rfl

end Cert.KernelIdeal.Hand

end
-- ==== Proof.AttnRunAIdeal.lean ====
/-
  The attention kernel's body on the first half of a head. The running maximum, the normaliser and the accumulator are
  reset (to minus infinity, zero, zero) and then updated by the half's 4096 cached keys and values; nothing is stored
  into the output buffer, which is handed back as it was found. What the three kept buffers end with is found by
  running the body: the pieces its stores leave, last first.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.AttnCondsIdeal
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three kept buffers on a first half, with the proof that from whole
    buffers — the five inputs at known contents, the output at contents handed back untouched, the kept buffers at
    anything — the body runs to its continuation with those pieces written. -/
noncomputable def kernelRun1_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i)
    (x0 : Vec F S1x16x128 .f32) (x1 x2 : Vec F S1x4096x128 .f32) (x3 x4 : Vec F S1x16x128 .f32) :
    Σ' (LS0 : List (View.Piece (Elt F) S1x16x1 .f32)) (LS1 : List (View.Piece (Elt F) S1x16x1 .f32)), { LS2 : List (View.Piece (Elt F) S1x16x128 .f32) //
      ∀ (xi5 : Vec F S1x16x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8 arg9 harg9 arg10 harg10) K } := by
  refine ⟨?_, ?_, ?_, fun xi5 E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.AttnRunBIdeal.lean ====
/-
  The attention kernel's body on the second half of a head. The running maximum, the normaliser and the accumulator
  arrive as the first half left them, are updated by the half's 4096 cached keys and values, and then once more — in
  values only, nothing more is kept — by the 16 new keys and values; the quotient of the final accumulator by the final
  normaliser is stored whole into the output buffer. The pieces the stores leave are found by running the body.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.AttnCondsIdeal
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output buffer and in the three kept buffers on a second half, with the
    proof that from whole buffers — the five inputs at known contents, the output at anything, the kept buffers at the
    contents the point before left — the body runs to its continuation with those pieces written. -/
noncomputable def kernelRun1_B (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i)
    (x0 : Vec F S1x16x128 .f32) (x1 x2 : Vec F S1x4096x128 .f32) (x3 x4 : Vec F S1x16x128 .f32) (xs0 xs1 : Vec F S1x16x1 .f32) (xs2 : Vec F S1x16x128 .f32) :
    Σ' (L5 : List (View.Piece (Elt F) S1x16x128 .f32)) (LS0 : List (View.Piece (Elt F) S1x16x1 .f32)) (LS1 : List (View.Piece (Elt F) S1x16x1 .f32)), { LS2 : List (View.Piece (Elt F) S1x16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__flash_attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__flash_attn_kernel_eq_skeleton]; unfold cc1__flash_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.AttnDataIdeal.lean ====
/-
  The attention region's proof data. A head takes two grid points. After the first, the three kept buffers hold the
  running maximum, the normaliser and the accumulator over the first 4096 cached keys; after the second, the output
  buffer holds the head's result and the kept buffers the state over all 8192 cached keys. What every buffer holds
  after each point is defined by recursion on the point: an even point starts afresh, an odd point continues from what
  the point before it left.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.AttnRunAIdeal
import proofs.«157200_j55740085567782_2_alg».proof.Proof.AttnRunBIdeal
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kept buffers' contents as a triple: running maximum, normaliser, accumulator. -/
abbrev Kept (F : FTy → Type) : Type := Vec F S1x16x1 .f32 × Vec F S1x16x1 .f32 × Vec F S1x16x128 .f32

/-- What an even point leaves in the kept buffers: the pieces its run found, read back. -/
def caseA (c : Dev nD) (t : Fin cfg1.N) (h0 : t.val % 2 = 0) : Kept F :=
  (VSM.read (Elt F) (VSM.writes (Elt F) VSM.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t) (iblk1 V c 3 t) (iblk1 V c 4 t)).1),
   VSL.read (Elt F) (VSL.writes (Elt F) VSL.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t) (iblk1 V c 3 t) (iblk1 V c 4 t)).2.1),
   VSA.read (Elt F) (VSA.writes (Elt F) VSA.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t) (iblk1 V c 3 t) (iblk1 V c 4 t)).2.2.1))

/-- What an odd point leaves in the output buffer and the kept buffers, from what the point before left. -/
def caseB (c : Dev nD) (t : Fin cfg1.N) (h1 : t.val % 2 = 1) (s : Kept F) : Vec F S1x16x128 .f32 × Kept F :=
  (VO5.read (Elt F) (VO5.writes (Elt F) VO5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).1),
   VSM.read (Elt F) (VSM.writes (Elt F) VSM.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).2.1),
   VSL.read (Elt F) (VSL.writes (Elt F) VSL.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).2.2.1),
   VSA.read (Elt F) (VSA.writes (Elt F) VSA.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) (iblk1 V c 3 t) (iblk1 V c 4 t) s.1 s.2.1 s.2.2).2.2.2.1))

/-- The pieces found cover their buffers (each store is of a whole buffer). -/
theorem scoverA_M (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) (y : S1x16x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).1 S1x16x1.size (by sl_kernel_rfl) y
theorem scoverA_L (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) (y : S1x16x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.1 S1x16x1.size (by sl_kernel_rfl) y
theorem scoverA_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) (y : S1x16x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1x16x128.size (by sl_kernel_rfl) y
theorem coverB_5 (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).1 S1x16x128.size (by sl_kernel_rfl) y
theorem scoverB_M (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.1 S1x16x1.size (by sl_kernel_rfl) y
theorem scoverB_L (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.1 S1x16x1.size (by sl_kernel_rfl) y
theorem scoverB_A (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) (y : S1x16x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1 S1x16x128.size (by sl_kernel_rfl) y

/-- What the output buffer and the kept buffers hold after the body at position `n`. At an even position the output
    component is a placeholder nothing consults (the window is idle there and its block is not written back). -/
def outsAt1 (c : Dev nD) : (n : ℕ) → n < cfg1.N → Vec F S1x16x128 .f32 × Kept F
  | 0, hn => (VO5.read (Elt F) VO5.junk, caseA V c ⟨0, hn⟩ (Nat.zero_mod _))
  | n + 1, hn =>
    if h0 : (n + 1) % 2 = 0 then (VO5.read (Elt F) VO5.junk, caseA V c ⟨n + 1, hn⟩ h0)
    else caseB V c ⟨n + 1, hn⟩ (show (n + 1) % 2 = 1 by omega) (outsAt1 c n (Nat.lt_of_succ_lt hn)).2

theorem outsAt1_A (c : Dev nD) (t : Fin cfg1.N) (h0 : t.val % 2 = 0) :
    outsAt1 V c t.val t.isLt = (VO5.read (Elt F) VO5.junk, caseA V c t h0) := by
  obtain ⟨n, hn⟩ := t
  cases n with
  | zero => exact rfl
  | succ n => exact (dif_pos h0).trans rfl

theorem outsAt1_B (c : Dev nD) (t : Fin cfg1.N) (h1 : t.val % 2 = 1) :
    outsAt1 V c t.val t.isLt = caseB V c t h1 (outsAt1 V c (t.val - 1) (Nat.lt_of_le_of_lt (Nat.sub_le _ _) t.isLt)).2 := by
  obtain ⟨n, hn⟩ := t
  cases n with
  | zero => exact absurd (show (0 : ℕ) % 2 = 1 from h1) (by decide)
  | succ n => exact (dif_neg (show ¬ (n + 1) % 2 = 0 by have h1' : (n + 1) % 2 = 1 := h1; omega)).trans rfl

/-- The region invariant before position `n`: before the first point the class's; afterwards the idle staging buffers,
    the three kept buffers at what the point before left, and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM fullShare (outsAt1 V c n hn).2.1
      ∗ owns (c : Thread nD τ) scL fullShare (outsAt1 V c n hn).2.2.1
      ∗ owns (c : Thread nD τ) scA fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM fullShare (outsAt1 V c n hn).2.1
      ∗ owns (c : Thread nD τ) scL fullShare (outsAt1 V c n hn).2.2.1
      ∗ owns (c : Thread nD τ) scA fullShare (outsAt1 V c n hn).2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ f : Buf (Elt F) ((c : Thread nD τ).loc cc0_stg6_0), ((c : Thread nD τ).loc cc0_stg6_0) ↦{fullShare} f)
      ∗ (∃ f : Buf (Elt F) ((c : Thread nD τ).loc cc0_stg6_1), ((c : Thread nD τ).loc cc0_stg6_1) ↦{fullShare} f)
      ∗ owns (c : Thread nD τ) scM fullShare (outsAt1 V c (n - 1) (by omega)).2.1
      ∗ owns (c : Thread nD τ) scL fullShare (outsAt1 V c (n - 1) (by omega)).2.2.1
      ∗ owns (c : Thread nD τ) scA fullShare (outsAt1 V c (n - 1) (by omega)).2.2.2) ∗ (∃ r, prngReg c r)) := by
  cases n with
  | zero => exact absurd rfl hz
  | succ n => rfl

/-- The proof data: arrays as found; after the body each input's buffer at its block and the output's at
    `outsAt1`'s first component; the invariant `PhiS1`; nothing owed; full shares. -/
def dats1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A1_eq (c : Dev nD) (w : Fin cfg1.W) : (dats1 V c).A w = V c (Pipeline.arrRef spec1 w) := by
  dsimp only [dats1]

theorem PhiS1_castSucc (c : Dev nD) (t : Fin cfg1.N) :
    (dats1 V c).Φ t.castSucc = PhiS1 V c t.val (Nat.le_of_lt t.isLt) := by
  dsimp only [dats1]; simp only [Fin.coe_castSucc]

theorem after1_0 (c : Dev nD) (t : Fin cfg1.N) : (dats1 V c).after 0 t = iblk1 V c 0 t := by dsimp only [dats1]
theorem after1_1 (c : Dev nD) (t : Fin cfg1.N) : (dats1 V c).after 1 t = iblk1 V c 1 t := by dsimp only [dats1]
theorem after1_2 (c : Dev nD) (t : Fin cfg1.N) : (dats1 V c).after 2 t = iblk1 V c 2 t := by dsimp only [dats1]
theorem after1_3 (c : Dev nD) (t : Fin cfg1.N) : (dats1 V c).after 3 t = iblk1 V c 3 t := by dsimp only [dats1]
theorem after1_4 (c : Dev nD) (t : Fin cfg1.N) : (dats1 V c).after 4 t = iblk1 V c 4 t := by dsimp only [dats1]
theorem after1_5 (c : Dev nD) (t : Fin cfg1.N) : (dats1 V c).after 5 t = (outsAt1 V c t.val t.isLt).1 := by dsimp only [dats1]

/-- Each input's current staging buffer holds its block at every point, fetched there or not. -/
theorem before1_0 (c : Dev nD) (t : Fin cfg1.N) (d) : (dats1 V c).before 0 t d = iblk1 V c 0 t :=
  ((dats1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dats1 V c).before 1 t d = iblk1 V c 1 t :=
  ((dats1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dats1 V c).before 2 t d = iblk1 V c 2 t :=
  ((dats1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dats1 V c).before 3 t d = iblk1 V c 3 t :=
  ((dats1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dats1 V c).before 4 t d = iblk1 V c 4 t :=
  ((dats1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)

end Cert.KernelIdeal.Hand

end
-- ==== Proof.AttnBodyIdeal.lean ====
/-
  The attention region's body obligation. At an even point the body is handed the kept buffers at anything (at the very
  first point) or at what the point before left (which it overwrites), and leaves them at the reset-and-update
  contents; at an odd point it is handed them at what the even point left and leaves the output buffer at the head's
  result. The projection region's idle staging buffers, the generator register and the core's dues pass through unread.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.AttnDataIdeal
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dats1 V c).Φ t.castSucc ∗ (dats1 V c).owesAt () t.castSucc
    ∗ (∃ d, owns (c : Thread nD τ) (ms1_0 t) fullShare ((dats1 V c).before 0 t d))
    ∗ (∃ d, owns (c : Thread nD τ) (ms1_1 t) fullShare ((dats1 V c).before 1 t d))
    ∗ (∃ d, owns (c : Thread nD τ) (ms1_2 t) fullShare ((dats1 V c).before 2 t d))
    ∗ (∃ d, owns (c : Thread nD τ) (ms1_3 t) fullShare ((dats1 V c).before 3 t d))
    ∗ (∃ d, owns (c : Thread nD τ) (ms1_4 t) fullShare ((dats1 V c).before 4 t d))
    ∗ (∃ d, owns (c : Thread nD τ) (ms1_5 t) fullShare ((dats1 V c).before 5 t d)))

/-- and what it returns. -/
def bodyPost1 (c : Dev nD) (t : Fin cfg1.N) : sProp 𝕄 :=
  iprop((dats1 V c).Φ t.succ ∗ (dats1 V c).owesAt () t.succ
    ∗ (dats1 V c).leavesExact 0 t ∗ (dats1 V c).leavesExact 1 t ∗ (dats1 V c).leavesExact 2 t
    ∗ (dats1 V c).leavesExact 3 t ∗ (dats1 V c).leavesExact 4 t ∗ (dats1 V c).leavesExact 5 t)

set_option maxHeartbeats 8000000 in
/-- The body at any point, by the point's parity. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dats1 V c).owesAt () t.succ = (dats1 V c).owesAt () t.castSucc from rfl]
  rw [show (dats1 V c).Φ t.succ = PhiS1 V c (t.val + 1) t.isLt from rfl, PhiS1_succ]
  have hN : t.val < 64 := lt_of_lt_of_eq t.isLt (show cfg1.N = 64 from N_1)
  rw [show (dats1 V c).leavesExact 0 t = owns (c : Thread nD τ) (ms1_0 t) fullShare ((dats1 V c).after 0 t) from by
    unfold Dat.leavesExact; rw [liveAt1_0 t], after1_0]
  rw [show (dats1 V c).leavesExact 1 t = owns (c : Thread nD τ) (ms1_1 t) fullShare ((dats1 V c).after 1 t) from by
    unfold Dat.leavesExact; rw [liveAt1_1 t], after1_1]
  rw [show (dats1 V c).leavesExact 2 t = owns (c : Thread nD τ) (ms1_2 t) fullShare ((dats1 V c).after 2 t) from by
    unfold Dat.leavesExact; rw [liveAt1_2 t], after1_2]
  rw [show (dats1 V c).leavesExact 3 t = owns (c : Thread nD τ) (ms1_3 t) fullShare ((dats1 V c).after 3 t) from by
    unfold Dat.leavesExact; rw [liveAt1_3 t], after1_3]
  rw [show (dats1 V c).leavesExact 4 t = owns (c : Thread nD τ) (ms1_4 t) fullShare ((dats1 V c).after 4 t) from by
    unfold Dat.leavesExact; rw [liveAt1_4 t], after1_4]
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dats1 V c) 5 t (idleAt1_5_A t hc0 hc1) (noFlush1_5_A t hc0 hc1)]
    rw [outsAt1_A V c t h0]
    unfold caseA; (try dsimp only)
    by_cases hz : t.val = 0
    · rw [PhiS1_castSucc V c t, PhiS1_zero V c _ _ hz, PhiA1_eq]
      iintro ⟨⟨⟨R0, R1, R2, R3, R4, R5, R6, R7, R8, R9, R10, R11, R12, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [R0 R1 R2 R3 R4 R5 R6 R7 R8 R9 R10 R11 R12 HS0 HS1 HS2 Hg]
      · isplitl [R0 R1 R2 R3 R4 R5 R6 R7 R8 R9 R10 R11 R12 HS0 HS1 HS2]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [HS0]
        · unfold owns; iexists _; isplitr
          swap; · iexact HS0
          ipureintro; exact View.read_writes_of_cover _ _ _ _ _ (scoverA_M c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _ _ _ _ _ _)
        unfold owns; iexists _; isplitr
        swap; · iexact HS2
        ipureintro; exact View.read_writes_of_cover _ _ _ _ _ (scoverA_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨R0, R1, R2, R3, R4, R5, R6, R7, R8, R9, R10, R11, R12, HS0, HS1, HS2⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ hc0 hc1 (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [R0 R1 R2 R3 R4 R5 R6 R7 R8 R9 R10 R11 R12 HS0 HS1 HS2 Hg]
      · isplitl [R0 R1 R2 R3 R4 R5 R6 R7 R8 R9 R10 R11 R12 HS0 HS1 HS2]
        swap; · iexact Hg
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [HS0]
        · unfold owns; iexists _; isplitr
          swap; · iexact HS0
          ipureintro; exact View.read_writes_of_cover _ _ _ _ _ (scoverA_M c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverA_L c _ _ _ _ _ _ _ _ _ _ _ _ _ _ _ _ _ _ _ _ _ _ _ _ _ _)
        unfold owns; iexists _; isplitr
        swap; · iexact HS2
        ipureintro; exact View.read_writes_of_cover _ _ _ _ _ (scoverA_A c _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    have hc0 : ¬cond1_0 (grid1.coords t) := fun h => by have := (hcond1_0 t).mp h; omega
    have hc1 : cond1_1 (grid1.coords t) := (hcond1_1 t).mpr h1
    have hz : t.val ≠ 0 := by omega
    rw [show (dats1 V c).leavesExact 5 t = owns (c : Thread nD τ) (ms1_5 t) fullShare ((dats1 V c).after 5 t) from by
      unfold Dat.leavesExact; rw [liveAt1_5_B t hc0 hc1], after1_5]
    rw [outsAt1_B V c t h1]
    unfold caseB; (try dsimp only)
    rw [PhiS1_castSucc V c t, PhiS1_pos V c _ _ hz]
    iintro ⟨⟨⟨R0, R1, R2, R3, R4, R5, R6, R7, R8, R9, R10, R11, R12, HS0, HS1, HS2⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ _ _ _ _ hc0 hc1 (iblk1 V c 0 t) (iblk1 V c 1 t) (iblk1 V c 2 t) (iblk1 V c 3 t) (iblk1 V c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    iintro ⟨H0, H1, H2, H3, H4, ⟨%e5, H5⟩, ⟨%es0, HS0⟩, ⟨%es1, HS1⟩, ⟨%es2, HS2⟩⟩
    isplitl [R0 R1 R2 R3 R4 R5 R6 R7 R8 R9 R10 R11 R12 HS0 HS1 HS2 Hg]
    · isplitl [R0 R1 R2 R3 R4 R5 R6 R7 R8 R9 R10 R11 R12 HS0 HS1 HS2]
      swap; · iexact Hg
      isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [HS0]
      · unfold owns; iexists _; isplitr
        swap; · iexact HS0
        ipureintro; exact View.read_writes_of_cover _ _ _ _ _ (scoverB_M c _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scoverB_L c _ _ _ _ _ _ _ _ _ _ _ _ _ _ _ _ _ _ _ _ _ _ _ _ _ _ _ _ _)
      unfold owns; iexists _; isplitr
      swap; · iexact HS2
      ipureintro; exact View.read_writes_of_cover _ _ _ _ _ (scoverB_A c _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB_5 c _ _ _ _ _ _ _ _ _ _ _ _ _ _ _ _ _ _ _ _ _ _ _ _ _ _ _ _ _)

/-- The library's body obligation, at every point. -/
theorem body_obligation1 (c : Dev nD) : BodyObligation (dats1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dats1 V c).Φ 0 := by
  rw [show (dats1 V c).Φ 0 = PhiS1 V c 0 (Nat.zero_le _) from rfl, PhiS1_zero V c 0 _ rfl]
  try exact Idealize.SL.BI.Entails.refl _

/-- After the last point the invariant gives the class's back: the kept buffers' named contents are forgotten. -/
theorem hout1 (c : Dev nD) : (dats1 V c).Φ (Fin.last cfg1.N) ⊢ Pipeline.ΦA spec1 c := by
  rw [show (dats1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨R0, R1, R2, R3, R4, R5, R6, R7, R8, R9, R10, R11, R12, HS0, HS1, HS2⟩, Hg⟩
  isplitl [R0 R1 R2 R3 R4 R5 R6 R7 R8 R9 R10 R11 R12 HS0 HS1 HS2]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [HS0]; · iexists _; iexact HS0
  isplitl [HS1]; · iexists _; iexact HS1
  iexists _; iexact HS2

end Cert.KernelIdeal.Hand

end
-- ==== Proof.RunIdeal.lean ====
/-
  The whole program's run. @main is five items: the normalisation (host), the projection region, the re-layout of the
  three projections per head (host), the attention region, and the re-layout of the result (host). Between two items
  every unscoped buffer of the core is held at a named valuation: the launch memory, then each host stretch applied,
  then — at a region's exit — the region's arrays at what its pipeline leaves and every other buffer as entered. The
  run ends with every unscoped buffer at the last valuation; the frame and the result's value are both read off it.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.ProjDataIdeal
import proofs.«157200_j55740085567782_2_alg».proof.Proof.AttnBodyIdeal
import Idealize.ShloMosaic.Lib.Pipeline.Regions
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- After the normalisation (the projection region's entry): the generated `V1`. Read at a reference: `VA`. -/
abbrev W1 : Dev nD → Valuation τ sig (Elt F) := fun c => V1 m c
/-- At the projection region's exit. -/
def W2 (c : Dev nD) : Valuation τ sig (Elt F) :=
  Pipeline.withArrays spec0 c (W1 m c) fun w => (dats0 m c).arrAt w cfg0.N
theorem W2_arr (c : Dev nD) (w : Fin cfg0.W) :
    W2 m c (Proc.devRef .tc (Pipeline.arrRef spec0 w)) = (dats0 m c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dats0 m c).arrAt w cfg0.N = V2 m c (Pipeline.arrRef spec0 w) :=
  (W2_arr m c w).symm
theorem hrest0 (c : Dev nD) : ∀ b, b ∉ Finset.univ.image (Pipeline.arrRef spec0) → V2 m c b = VA m c b :=
  fun b hb => W2_of_ne m c b fun w e => hb (Finset.mem_image.mpr ⟨w, Finset.mem_univ _, e⟩)

/-- After the per-head re-layout (the attention region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit. -/
def W4 (c : Dev nD) : Valuation τ sig (Elt F) :=
  Pipeline.withArrays spec1 c (W3 m c) fun w => (dats1 (V3 m) c).arrAt w cfg1.N
theorem W4_arr (c : Dev nD) (w : Fin cfg1.W) :
    W4 m c (Proc.devRef .tc (Pipeline.arrRef spec1 w)) = (dats1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dats1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the result's re-layout: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dats0 m c
  | ⟨1, _⟩ => fun c => dats1 (V3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- unification with the pinned configuration may unfold plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration may unfold plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

-- the launch theorem's implicit arguments are found by unifying its conclusion with this one
set_option backward.isDefEq.respectTransparency.types false in
/-- From any memory with zero counters every weakly fair execution of @main terminates, nothing faulting, and every
    final state has every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (StableHlo.after hostOps2 (W4 m c)) ∗ R c) : sProp 𝕄) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.FrameIdeal.lean ====
/-
  The frame, read off the run: no host stretch writes an argument and no region changes one (a region reads it through
  an input window, whose array ends as it was entered, or does not touch it), so the last valuation at an argument's
  buffer walks back to the launch memory.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.RunIdeal
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = m ((c : Thread nD τ).loc main_arg0) := (V1_of m c main_arg0 (by decide)).trans rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := (W2_arr m c 1).trans (((dats0 m c).arrAt_in 1 rfl _).trans (A0_eq m c 1))
    _ = m ((c : Thread nD τ).loc main_arg1) := (V1_of m c main_arg1 (by decide)).trans rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 2).trans (((dats0 m c).arrAt_in 2 rfl _).trans (A0_eq m c 2))
    _ = m ((c : Thread nD τ).loc main_arg2) := (V1_of m c main_arg2 (by decide)).trans rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := (W2_arr m c 3).trans (((dats0 m c).arrAt_in 3 rfl _).trans (A0_eq m c 3))
    _ = m ((c : Thread nD τ).loc main_arg3) := (V1_of m c main_arg3 (by decide)).trans rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := (W4_arr m c 1).trans (((dats1 (V3 m) c).arrAt_in 1 rfl _).trans (A1_eq (V3 m) c 1))
    _ = W2 m c (Proc.devRef .tc main_arg4) := StableHlo.after_of_writes_sub hostOps1 _ hostOps1_writes (by decide)
    _ = W1 m c (Proc.devRef .tc main_arg4) := W2_of_ne m c main_arg4 (by decide)
    _ = m ((c : Thread nD τ).loc main_arg4) := (V1_of m c main_arg4 (by decide)).trans rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (by decide)
    _ = W3 m c (Proc.devRef .tc main_arg5) := (W4_arr m c 2).trans (((dats1 (V3 m) c).arrAt_in 2 rfl _).trans (A1_eq (V3 m) c 2))
    _ = W2 m c (Proc.devRef .tc main_arg5) := StableHlo.after_of_writes_sub hostOps1 _ hostOps1_writes (by decide)
    _ = W1 m c (Proc.devRef .tc main_arg5) := W2_of_ne m c main_arg5 (by decide)
    _ = m ((c : Thread nD τ).loc main_arg5) := (V1_of m c main_arg5 (by decide)).trans rfl

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

/-- The same run with the result named: the result buffer ends at the last valuation's contents. -/
theorem run_value : θ_run defs (onTc (τ := τ) (main (F := F))) ⟨m, fun _ => 0, ρ⟩ (fun r => ∀ c : Dev nD,
      r.2.mem ((c.tc : Thread nD τ).loc main_v18) = W5 m c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v18 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Hand

end
-- ==== Proof.LibRowRowProduct.lean ====
/-
  A matrix product that contracts the SECOND axis of both operands, read at coordinates.

  For `lhs` of extents [A, K] and `rhs` of extents [B, K], the product that pairs row `a` of the first with row `b` of
  the second — `lhs · rhsᵀ` — reads at `(a, b)`, over the extended reals, the sum over `k` of `lhs (a, k) · rhs (b, k)`:
  stated for the accumulating product into a zero accumulator and for the host's product. The dimension record's two
  non-contracted coordinates are taken as hypotheses; at a literal record they hold by computation.
-/
import Idealize.ShloMosaic.PureOps.Ideal.Laws
import Idealize.ShloMosaic.Lib.ValueIdx
import Idealize.ShloMosaic.Lib.Pipeline.Value

noncomputable section

namespace Cert.LibRowRowProduct

open Idealize.ShloMosaic Idealize.ShloMosaic.ValueIdx

section Dot
variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum d hr hs hlc hrc hl0 hr0 lhs rhs a b)

include hr hs hlc hrc hl0 hr0 in
/-- The host's product, at `(a, b)`. -/
theorem hostDot_apply (prec : Option ContractPrecision) :
    Host.dotGeneral d prec lhs rhs (ix2 a b) = ∑ k : Fin K, lhs (ix2 a k) * rhs (ix2 b k) :=
  (Ideal.dotGeneral_apply d prec .single lhs rhs (ix2 a b)).trans (contr_sum d hr hs hlc hrc hl0 hr0 lhs rhs a b)

end Dot

end Cert.LibRowRowProduct

end
-- ==== Proof.Spec.lean ====
/-
  The mathematics of the computation as plain coordinate functions into the extended reals: a root-mean-square
  normalisation of the rows of X, three projections of the normalised rows, and per head an exponential-weighted
  average (a softmax without maximum subtraction) of the cached and the new values, the weights the exponentials of
  the inner products of the head's query with the cached and the new keys. The initial zero of every sum is left out.
-/
import Idealize.ShloMosaic.PureOps.Ideal
import Idealize.ShloMosaic.Lib.ValueIdx

noncomputable section

open scoped BigOperators

namespace Cert.Proof.Spec

open Idealize.ShloMosaic

/-- The sum of squares of row `m`. -/
def x2 (X : Fin 16 → Fin 4096 → EReal) (m : Fin 16) : EReal := ∑ k : Fin 4096, X m k * X m k

/-- The row divided by the square root of its mean square (the literal is 4096 as an f32 word). -/
def xn (X : Fin 16 → Fin 4096 → EReal) (m : Fin 16) (k : Fin 4096) : EReal :=
  Ideal.div (X m k) (Ideal.sqrt (Ideal.div (x2 X m) (Ideal.ofBits .f32 0x45800000#32)))

/-- A projection: the rows of `xn` against the rows of `W` (the product with the transpose of `W`). -/
def proj (xn : Fin 16 → Fin 4096 → EReal) (W : Fin 4096 → Fin 4096 → EReal) (m : Fin 16) (n : Fin 4096) : EReal :=
  ∑ k : Fin 4096, xn m k * W n k

/-- Column `h * 128 + d` of a projection: coordinate `d` of head `h`. -/
def col (h : Fin 32) (d : Fin 128) : Fin 4096 := ⟨h.val * 128 + d.val, by have := h.isLt; have := d.isLt; omega⟩

/-- The score of query row `m` of head `h` against cached key `p`. -/
def scoreC (q : Fin 16 → Fin 4096 → EReal) (cK : Fin 32 → Fin 8192 → Fin 128 → EReal) (h : Fin 32) (m : Fin 16)
    (p : Fin 8192) : EReal := ∑ d : Fin 128, q m (col h d) * cK h p d

/-- The score of query row `m` of head `h` against new key `j`. -/
def scoreN (q k : Fin 16 → Fin 4096 → EReal) (h : Fin 32) (m : Fin 16) (j : Fin 16) : EReal :=
  ∑ d : Fin 128, q m (col h d) * k j (col h d)

/-- The normaliser: the sum of the exponentials of all the scores of `(h, m)`. -/
def S (q k : Fin 16 → Fin 4096 → EReal) (cK : Fin 32 → Fin 8192 → Fin 128 → EReal) (h : Fin 32) (m : Fin 16) : EReal :=
  ∑ p : Fin 8192, Ideal.exp (scoreC q cK h m p) + ∑ j : Fin 16, Ideal.exp (scoreN q k h m j)

/-- The weighted average of the cached and the new values at `(m, h, d)`. -/
def naive (q k v : Fin 16 → Fin 4096 → EReal) (cK cV : Fin 32 → Fin 8192 → Fin 128 → EReal) (h : Fin 32) (m : Fin 16)
    (d : Fin 128) : EReal :=
  ∑ p : Fin 8192, Ideal.div (Ideal.exp (scoreC q cK h m p)) (S q k cK h m) * cV h p d
    + ∑ j : Fin 16, Ideal.div (Ideal.exp (scoreN q k h m j)) (S q k cK h m) * v j (col h d)

/-- The whole computation from the six inputs, at output `(m, col h d)`. -/
def out (X : Fin 16 → Fin 4096 → EReal) (Wq Wk Wv : Fin 4096 → Fin 4096 → EReal)
    (cK cV : Fin 32 → Fin 8192 → Fin 128 → EReal) (h : Fin 32) (m : Fin 16) (d : Fin 128) : EReal :=
  naive (proj (xn X) Wq) (proj (xn X) Wk) (proj (xn X) Wv) cK cV h m d

end Cert.Proof.Spec

end
-- ==== Proof.RefValue.lean ====
/-
  The reference program's result read at an index: the plain mathematics of Spec.

  Each stage of the reference is read at coordinates: the normalised rows, the three projections, their views per
  head, the joins of the cached and the new keys and values along the key axis, the scores, the normaliser, and the
  weighted average. A sum over the 8208 joined keys splits into the sum over the 8192 cached ones and the 16 new ones.
-/
import proofs.«157200_j55740085567782_2_alg».proof.Proof.Gen.ReferenceIdeal.Read
import proofs.«157200_j55740085567782_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Proof

/-- A `16 × 4096` array as a coordinate function. -/
abbrev rd2 (x : (⟨S16x4096, .f32⟩ : BufTy).Contents (Elt Ideal)) : Fin 16 → Fin 4096 → EReal := fun m k => x (ix2 m k)
/-- A `4096 × 4096` array as a coordinate function. -/
abbrev rdW (x : (⟨S4096x4096, .f32⟩ : BufTy).Contents (Elt Ideal)) : Fin 4096 → Fin 4096 → EReal := fun n k => x (ix2 n k)
/-- A `32 × 8192 × 128` array as a coordinate function. -/
abbrev rd3 (x : (⟨S32x8192x128, .f32⟩ : BufTy).Contents (Elt Ideal)) : Fin 32 → Fin 8192 → Fin 128 → EReal :=
  fun h p d => x (ix3 h p d)

/-! ## The normalised rows -/

/-- The normalised input at `(m, k)`. -/
theorem v7_at (x0 : (⟨S16x4096, .f32⟩ : BufTy).Contents (Elt Ideal)) (m : Fin 16) (k : Fin 4096) :
    val_main_v7 (F := Ideal) x0 (ix2 m k) = Spec.xn (rd2 x0) m k := by
  have e1 : ∀ k' : Fin 4096, idx_main_v1 (idx_main_v5 (idx_main_v6 (ix2 m k))) k' = ix2 m k' := fun k' =>
    funext fun a => by match a with | ⟨0, _⟩ => rfl | ⟨1, _⟩ => rfl
  rw [val_main_v7_apply, val_main_v6_apply, val_main_v5_apply, val_main_v4_apply, val_main_v3_apply, val_main_v1_apply,
    val_main_v2_apply, val_main_cst_0_apply, val_main_cst_apply]
  simp only [val_main_v0_apply, e1, Ideal.hostDivf_def, Ideal.hostUnary_sqrt_def, Ideal.mulf_def, Ideal.ofBits_def,
    Ideal.ofBits_zero_f32, zero_add]
  rfl

/-! ## The three projections and their views per head -/

/-- A projection at `(m, n)`. -/
theorem v9_at (x0 : (⟨S16x4096, .f32⟩ : BufTy).Contents (Elt Ideal)) (x1 : (⟨S4096x4096, .f32⟩ : BufTy).Contents (Elt Ideal))
    (m : Fin 16) (n : Fin 4096) :
    val_main_v9 (F := Ideal) x0 x1 (ix2 m n) = Spec.proj (Spec.xn (rd2 x0)) (rdW x1) m n := by
  have el : ∀ k : Fin 4096, lidx_main_v9 (ix2 m n) k = ix2 m k := fun k =>
    funext fun a => by match a with | ⟨0, _⟩ => rfl | ⟨1, _⟩ => rfl
  have er : ∀ k : Fin 4096, idx_main_v8 (ridx_main_v9 (ix2 m n) k) = ix2 n k := fun k =>
    funext fun a => by match a with | ⟨0, _⟩ => rfl | ⟨1, _⟩ => rfl
  rw [val_main_v9_apply]
  simp only [val_main_v8_apply, el, er, v7_at]
  rfl

/-- The projection viewed per head, at `(h, m, d)`. -/
theorem v11_at (x0 : (⟨S16x4096, .f32⟩ : BufTy).Contents (Elt Ideal)) (x1 : (⟨S4096x4096, .f32⟩ : BufTy).Contents (Elt Ideal))
    (h : Fin 32) (m : Fin 16) (d : Fin 128) :
    val_main_v11 (F := Ideal) x0 x1 (ix3 h m d) = Spec.proj (Spec.xn (rd2 x0)) (rdW x1) m (Spec.col h d) := by
  have e : idx_main_v10 (idx_main_v11 (ix3 h m d)) = ix2 m (Spec.col h d) := funext fun a => Fin.ext (by
    have := h.isLt; have := m.isLt; have := d.isLt
    match a with
    | ⟨0, _⟩ => show ((m.val * 32 + h.val) * 128 + d.val) / 4096 = m.val; omega
    | ⟨1, _⟩ => show ((m.val * 32 + h.val) * 128 + d.val) % 4096 = h.val * 128 + d.val; omega)
  rw [val_main_v11_apply, val_main_v10_apply, e, v9_at]

/-- A projection at `(m, n)`. -/
theorem v13_at (x0 : (⟨S16x4096, .f32⟩ : BufTy).Contents (Elt Ideal)) (x2 : (⟨S4096x4096, .f32⟩ : BufTy).Contents (Elt Ideal))
    (m : Fin 16) (n : Fin 4096) :
    val_main_v13 (F := Ideal) x0 x2 (ix2 m n) = Spec.proj (Spec.xn (rd2 x0)) (rdW x2) m n := by
  have el : ∀ k : Fin 4096, lidx_main_v13 (ix2 m n) k = ix2 m k := fun k =>
    funext fun a => by match a with | ⟨0, _⟩ => rfl | ⟨1, _⟩ => rfl
  have er : ∀ k : Fin 4096, idx_main_v12 (ridx_main_v13 (ix2 m n) k) = ix2 n k := fun k =>
    funext fun a => by match a with | ⟨0, _⟩ => rfl | ⟨1, _⟩ => rfl
  rw [val_main_v13_apply]
  simp only [val_main_v12_apply, el, er, v7_at]
  rfl

/-- The projection viewed per head, at `(h, m, d)`. -/
theorem v15_at (x0 : (⟨S16x4096, .f32⟩ : BufTy).Contents (Elt Ideal)) (x2 : (⟨S4096x4096, .f32⟩ : BufTy).Contents (Elt Ideal))
    (h : Fin 32) (m : Fin 16) (d : Fin 128) :
    val_main_v15 (F := Ideal) x0 x2 (ix3 h m d) = Spec.proj (Spec.xn (rd2 x0)) (rdW x2) m (Spec.col h d) := by
  have e : idx_main_v14 (idx_main_v15 (ix3 h m d)) = ix2 m (Spec.col h d) := funext fun a => Fin.ext (by
    have := h.isLt; have := m.isLt; have := d.isLt
    match a with
    | ⟨0, _⟩ => show ((m.val * 32 + h.val) * 128 + d.val) / 4096 = m.val; omega
    | ⟨1, _⟩ => show ((m.val * 32 + h.val) * 128 + d.val) % 4096 = h.val * 128 + d.val; omega)
  rw [val_main_v15_apply, val_main_v14_apply, e, v13_at]

/-- A projection at `(m, n)`. -/
theorem v17_at (x0 : (⟨S16x4096, .f32⟩ : BufTy).Contents (Elt Ideal)) (x3 : (⟨S4096x4096, .f32⟩ : BufTy).Contents (Elt Ideal))
    (m : Fin 16) (n : Fin 4096) :
    val_main_v17 (F := Ideal) x0 x3 (ix2 m n) = Spec.proj (Spec.xn (rd2 x0)) (rdW x3) m n := by
  have el : ∀ k : Fin 4096, lidx_main_v17 (ix2 m n) k = ix2 m k := fun k =>
    funext fun a => by match a with | ⟨0, _⟩ => rfl | ⟨1, _⟩ => rfl
  have er : ∀ k : Fin 4096, idx_main_v16 (ridx_main_v17 (ix2 m n) k) = ix2 n k := fun k =>
    funext fun a => by match a with | ⟨0, _⟩ => rfl | ⟨1, _⟩ => rfl
  rw [val_main_v17_apply]
  simp only [val_main_v16_apply, el, er, v7_at]
  rfl

/-- The projection viewed per head, at `(h, m, d)`. -/
theorem v19_at (x0 : (⟨S16x4096, .f32⟩ : BufTy).Contents (Elt Ideal)) (x3 : (⟨S4096x4096, .f32⟩ : BufTy).Contents (Elt Ideal))
    (h : Fin 32) (m : Fin 16) (d : Fin 128) :
    val_main_v19 (F := Ideal) x0 x3 (ix3 h m d) = Spec.proj (Spec.xn (rd2 x0)) (rdW x3) m (Spec.col h d) := by
  have e : idx_main_v18 (idx_main_v19 (ix3 h m d)) = ix2 m (Spec.col h d) := funext fun a => Fin.ext (by
    have := h.isLt; have := m.isLt; have := d.isLt
    match a with
    | ⟨0, _⟩ => show ((m.val * 32 + h.val) * 128 + d.val) / 4096 = m.val; omega
    | ⟨1, _⟩ => show ((m.val * 32 + h.val) * 128 + d.val) % 4096 = h.val * 128 + d.val; omega)
  rw [val_main_v19_apply, val_main_v18_apply, e, v17_at]

/-! ## Two rank-3 arrays joined along the middle axis, and a sum over the joined axis -/

/-- The join along the middle axis at a coordinate inside the first piece. -/
theorem join3_left {α : Type} {A B1 B2 B C : ℕ} (x₁ : (⟨3, ![A, B1, C]⟩ : Shape).Idx → α)
    (x₂ : (⟨3, ![A, B2, C]⟩ : Shape).Idx → α)
    (hc : Shape.Concatenates [⟨3, ![A, B1, C]⟩, ⟨3, ![A, B2, C]⟩] ⟨3, ![A, B, C]⟩ 1) (a : Fin A) (b : Fin B) (c : Fin C)
    (hb : b.val < B1) :
    concatenate ⟨3, ![A, B, C]⟩ 1 [⟨⟨3, ![A, B1, C]⟩, x₁⟩, ⟨⟨3, ![A, B2, C]⟩, x₂⟩] hc (ix3 a b c)
      = x₁ (ix3 a ⟨b.val, hb⟩ c) :=
  concatenate_pair_apply_left 1 x₁ x₂ hc (ix3 a b c) rfl (ix3 a ⟨b.val, hb⟩ c) fun e => by
    match e with
    | ⟨0, _⟩ => rfl
    | ⟨1, _⟩ => rfl
    | ⟨2, _⟩ => rfl

/-- The join along the middle axis at a coordinate past the first piece. -/
theorem join3_right {α : Type} {A B1 B2 B C : ℕ} (x₁ : (⟨3, ![A, B1, C]⟩ : Shape).Idx → α)
    (x₂ : (⟨3, ![A, B2, C]⟩ : Shape).Idx → α)
    (hc : Shape.Concatenates [⟨3, ![A, B1, C]⟩, ⟨3, ![A, B2, C]⟩] ⟨3, ![A, B, C]⟩ 1) (a : Fin A) (b : Fin B) (c : Fin C)
    (hb : B1 ≤ b.val) (hb' : b.val - B1 < B2) :
    concatenate ⟨3, ![A, B, C]⟩ 1 [⟨⟨3, ![A, B1, C]⟩, x₁⟩, ⟨⟨3, ![A, B2, C]⟩, x₂⟩] hc (ix3 a b c)
      = x₂ (ix3 a ⟨b.val - B1, hb'⟩ c) :=
  concatenate_pair_apply_right 1 x₁ x₂ hc (ix3 a b c) rfl rfl (ix3 a ⟨b.val - B1, hb'⟩ c)
    (fun e he => by
      match e with
      | ⟨0, _⟩ => rfl
      | ⟨1, _⟩ => exact absurd rfl he
      | ⟨2, _⟩ => rfl)
    (by show (b.val - B1) + B1 = b.val; omega)

/-- A sum over `N = m + n` indices: the first `m`, then the last `n`. -/
theorem sum_split {M : Type} [AddCommMonoid M] {N : ℕ} (m n : ℕ) (hN : N = m + n) (f : Fin N → M) :
    ∑ k : Fin N, f k
      = ∑ k : Fin m, f ⟨k.val, by have := k.isLt; omega⟩ + ∑ k : Fin n, f ⟨m + k.val, by have := k.isLt; omega⟩ := by
  subst hN
  rw [Fin.sum_univ_add]
  rfl

/-- A cached key's position among the joined keys. -/
abbrev keyC (p : Fin 8192) : Fin 8208 := ⟨p.val, by have := p.isLt; omega⟩
/-- A new key's position among the joined keys. -/
abbrev keyN (j : Fin 16) : Fin 8208 := ⟨8192 + j.val, by have := j.isLt; omega⟩

/-- A sum over the joined keys: the cached ones, then the new ones. -/
theorem sum_keys {M : Type} [AddCommMonoid M] (f : Fin 8208 → M) :
    ∑ k : Fin 8208, f k = ∑ p : Fin 8192, f (keyC p) + ∑ j : Fin 16, f (keyN j) :=
  sum_split 8192 16 rfl f

/-! ## The joined keys and values -/

/-- The joined keys at a cached key. -/
theorem v20_cache (x0 : (⟨S16x4096, .f32⟩ : BufTy).Contents (Elt Ideal)) (x2 : (⟨S4096x4096, .f32⟩ : BufTy).Contents (Elt Ideal))
    (x4 : (⟨S32x8192x128, .f32⟩ : BufTy).Contents (Elt Ideal)) (h : Fin 32) (p : Fin 8192) (d : Fin 128) :
    val_main_v20 (F := Ideal) x0 x2 x4 (ix3 h (keyC p) d) = rd3 x4 h p d := by
  unfold val_main_v20
  exact join3_left x4 (val_main_v15 (F := Ideal) x0 x2) concatenates_S32x8192x128_S32x16x128_S32x8208x128_d1 h (keyC p) d p.isLt

/-- The joined keys at a new key. -/
theorem v20_new (x0 : (⟨S16x4096, .f32⟩ : BufTy).Contents (Elt Ideal)) (x2 : (⟨S4096x4096, .f32⟩ : BufTy).Contents (Elt Ideal))
    (x4 : (⟨S32x8192x128, .f32⟩ : BufTy).Contents (Elt Ideal)) (h : Fin 32) (j : Fin 16) (d : Fin 128) :
    val_main_v20 (F := Ideal) x0 x2 x4 (ix3 h (keyN j) d) = Spec.proj (Spec.xn (rd2 x0)) (rdW x2) j (Spec.col h d) := by
  unfold val_main_v20
  have hj : (keyN j).val - 8192 < 16 := by have := j.isLt; show 8192 + j.val - 8192 < 16; omega
  rw [join3_right x4 (val_main_v15 (F := Ideal) x0 x2) concatenates_S32x8192x128_S32x16x128_S32x8208x128_d1 h (keyN j) d
    (Nat.le_add_right _ _) hj]
  have ej : (⟨(keyN j).val - 8192, hj⟩ : Fin 16) = j := Fin.ext (by show 8192 + j.val - 8192 = j.val; omega)
  rw [ej, v15_at]

/-- The joined values at a cached key. -/
theorem v21_cache (x0 : (⟨S16x4096, .f32⟩ : BufTy).Contents (Elt Ideal)) (x3 : (⟨S4096x4096, .f32⟩ : BufTy).Contents (Elt Ideal))
    (x5 : (⟨S32x8192x128, .f32⟩ : BufTy).Contents (Elt Ideal)) (h : Fin 32) (p : Fin 8192) (d : Fin 128) :
    val_main_v21 (F := Ideal) x0 x3 x5 (ix3 h (keyC p) d) = rd3 x5 h p d := by
  unfold val_main_v21
  exact join3_left x5 (val_main_v19 (F := Ideal) x0 x3) concatenates_S32x8192x128_S32x16x128_S32x8208x128_d1 h (keyC p) d p.isLt

/-- The joined values at a new key. -/
theorem v21_new (x0 : (⟨S16x4096, .f32⟩ : BufTy).Contents (Elt Ideal)) (x3 : (⟨S4096x4096, .f32⟩ : BufTy).Contents (Elt Ideal))
    (x5 : (⟨S32x8192x128, .f32⟩ : BufTy).Contents (Elt Ideal)) (h : Fin 32) (j : Fin 16) (d : Fin 128) :
    val_main_v21 (F := Ideal) x0 x3 x5 (ix3 h (keyN j) d) = Spec.proj (Spec.xn (rd2 x0)) (rdW x3) j (Spec.col h d) := by
  unfold val_main_v21
  have hj : (keyN j).val - 8192 < 16 := by have := j.isLt; show 8192 + j.val - 8192 < 16; omega
  rw [join3_right x5 (val_main_v19 (F := Ideal) x0 x3) concatenates_S32x8192x128_S32x16x128_S32x8208x128_d1 h (keyN j) d
    (Nat.le_add_right _ _) hj]
  have ej : (⟨(keyN j).val - 8192, hj⟩ : Fin 16) = j := Fin.ext (by show 8192 + j.val - 8192 = j.val; omega)
  rw [ej, v19_at]

/-! ## The scores, the normaliser, the weighted average -/

/-- The score against a cached key. -/
theorem v22_cache (x0 : (⟨S16x4096, .f32⟩ : BufTy).Contents (Elt Ideal)) (x1 x2 : (⟨S4096x4096, .f32⟩ : BufTy).Contents (Elt Ideal)) (x4 : (⟨S32x8192x128, .f32⟩ : BufTy).Contents (Elt Ideal)) (h : Fin 32) (m : Fin 16) (p : Fin 8192) :
    val_main_v22 (F := Ideal) x0 x1 x2 x4 (ix3 h m (keyC p)) = Spec.scoreC (Spec.proj (Spec.xn (rd2 x0)) (rdW x1)) (rd3 x4) h m p := by
  have el : ∀ k : Fin 128, lidx_main_v22 (ix3 h m (keyC p)) k = ix3 h m k := fun k => funext fun a => by match a with | ⟨0, _⟩ => rfl | ⟨1, _⟩ => rfl | ⟨2, _⟩ => rfl
  have er : ∀ k : Fin 128, ridx_main_v22 (ix3 h m (keyC p)) k = ix3 h (keyC p) k := fun k => funext fun a => by match a with | ⟨0, _⟩ => rfl | ⟨1, _⟩ => rfl | ⟨2, _⟩ => rfl
  rw [val_main_v22_apply]
  simp only [el, er, v11_at, v20_cache]
  rfl

/-- The score against a new key. -/
theorem v22_new (x0 : (⟨S16x4096, .f32⟩ : BufTy).Contents (Elt Ideal)) (x1 x2 : (⟨S4096x4096, .f32⟩ : BufTy).Contents (Elt Ideal)) (x4 : (⟨S32x8192x128, .f32⟩ : BufTy).Contents (Elt Ideal)) (h : Fin 32) (m : Fin 16) (j : Fin 16) :
    val_main_v22 (F := Ideal) x0 x1 x2 x4 (ix3 h m (keyN j)) = Spec.scoreN (Spec.proj (Spec.xn (rd2 x0)) (rdW x1)) (Spec.proj (Spec.xn (rd2 x0)) (rdW x2)) h m j := by
  have el : ∀ k : Fin 128, lidx_main_v22 (ix3 h m (keyN j)) k = ix3 h m k := fun k => funext fun a => by match a with | ⟨0, _⟩ => rfl | ⟨1, _⟩ => rfl | ⟨2, _⟩ => rfl
  have er : ∀ k : Fin 128, ridx_main_v22 (ix3 h m (keyN j)) k = ix3 h (keyN j) k := fun k => funext fun a => by match a with | ⟨0, _⟩ => rfl | ⟨1, _⟩ => rfl | ⟨2, _⟩ => rfl
  rw [val_main_v22_apply]
  simp only [el, er, v11_at, v20_new]
  rfl

/-- The normaliser at `(h, m)`. -/
theorem v24_at (x0 : (⟨S16x4096, .f32⟩ : BufTy).Contents (Elt Ideal)) (x1 x2 : (⟨S4096x4096, .f32⟩ : BufTy).Contents (Elt Ideal)) (x4 : (⟨S32x8192x128, .f32⟩ : BufTy).Contents (Elt Ideal)) (h : Fin 32) (m : Fin 16) :
    val_main_v24 (F := Ideal) x0 x1 x2 x4 (ix2 h m) = Spec.S (Spec.proj (Spec.xn (rd2 x0)) (rdW x1)) (Spec.proj (Spec.xn (rd2 x0)) (rdW x2)) (rd3 x4) h m := by
  have e : ∀ k : Fin 8208, idx_main_v24 (ix2 h m) k = ix3 h m k := fun k => funext fun a => by match a with | ⟨0, _⟩ => rfl | ⟨1, _⟩ => rfl | ⟨2, _⟩ => rfl
  rw [val_main_v24_apply, val_main_cst_1_apply]
  simp only [e, val_main_v23_apply, Ideal.hostUnary_exp_def, Ideal.ofBits_def, Ideal.ofBits_zero_f32, zero_add]
  rw [sum_keys]
  simp only [v22_cache, v22_new]
  rfl

/-- The weighted average at `(h, m, d)`. -/
theorem v28_at (x0 : (⟨S16x4096, .f32⟩ : BufTy).Contents (Elt Ideal)) (x1 x2 x3 : (⟨S4096x4096, .f32⟩ : BufTy).Contents (Elt Ideal)) (x4 x5 : (⟨S32x8192x128, .f32⟩ : BufTy).Contents (Elt Ideal)) (h : Fin 32) (m : Fin 16) (d : Fin 128) :
    val_main_v28 (F := Ideal) x0 x1 x2 x3 x4 x5 (ix3 h m d) = Spec.naive (Spec.proj (Spec.xn (rd2 x0)) (rdW x1)) (Spec.proj (Spec.xn (rd2 x0)) (rdW x2)) (Spec.proj (Spec.xn (rd2 x0)) (rdW x3)) (rd3 x4) (rd3 x5) h m d := by
  have el : ∀ k : Fin 8208, lidx_main_v28 (ix3 h m d) k = ix3 h m k := fun k => funext fun a => by match a with | ⟨0, _⟩ => rfl | ⟨1, _⟩ => rfl | ⟨2, _⟩ => rfl
  have er : ∀ k : Fin 8208, ridx_main_v28 (ix3 h m d) k = ix3 h k d := fun k => funext fun a => by match a with | ⟨0, _⟩ => rfl | ⟨1, _⟩ => rfl | ⟨2, _⟩ => rfl
  have eb : ∀ k : Fin 8208, idx_main_v25 (idx_main_v26 (ix3 h m k)) = ix2 h m := fun k => funext fun a => by match a with | ⟨0, _⟩ => rfl | ⟨1, _⟩ => rfl
  rw [val_main_v28_apply]
  simp only [el, er, val_main_v27_apply, val_main_v26_apply, val_main_v25_apply, eb, v24_at, val_main_v23_apply,
    Ideal.hostDivf_def, Ideal.hostUnary_exp_def]
  rw [sum_keys]
  simp only [v22_cache, v22_new, v21_cache, v21_new]
  rfl

/-! ## The result -/

/-- Every column is coordinate `d` of a head `h`. -/
theorem col_div_mod (n : Fin 4096) :
    n = Spec.col ⟨n.val / 128, by have := n.isLt; omega⟩ ⟨n.val % 128, Nat.mod_lt _ (by decide)⟩ :=
  Fin.ext (by show n.val = n.val / 128 * 128 + n.val % 128; omega)

/-- THE REFERENCE AT `(m, col h d)`: the mathematics of Spec over the six arguments read at coordinates. -/
theorem ref_at (x0 : (⟨S16x4096, .f32⟩ : BufTy).Contents (Elt Ideal)) (x1 x2 x3 : (⟨S4096x4096, .f32⟩ : BufTy).Contents (Elt Ideal)) (x4 x5 : (⟨S32x8192x128, .f32⟩ : BufTy).Contents (Elt Ideal)) (h : Fin 32) (m : Fin 16) (d : Fin 128) :
    val_main_v30 (F := Ideal) x0 x1 x2 x3 x4 x5 (ix2 m (Spec.col h d))
      = Spec.out (rd2 x0) (rdW x1) (rdW x2) (rdW x3) (rd3 x4) (rd3 x5) h m d := by
  have e : idx_main_v29 (idx_main_v30 (ix2 m (Spec.col h d))) = ix3 h m d := funext fun a => Fin.ext (by
    have := h.isLt; have := m.isLt; have := d.isLt
    match a with
    | ⟨0, _⟩ => show (m.val * 4096 + (h.val * 128 + d.val)) / 128 % 32 = h.val; omega
    | ⟨1, _⟩ => show (m.val * 4096 + (h.val * 128 + d.val)) / 4096 = m.val; omega
    | ⟨2, _⟩ => show (m.val * 4096 + (h.val * 128 + d.val)) % 128 = d.val; omega)
  rw [val_main_v30_apply, val_main_v29_apply, e, v28_at]
  rfl

/-- The same for the result term of the reference's run, over the memory the run starts from. -/
theorem res_at (mem : (ℓ : Loc nD τ sig) → Buf (Elt Ideal) ℓ) (c : Dev nD) (h : Fin 32) (m : Fin 16) (d : Fin 128) :
    Cert.ReferenceIdeal.Value.res_main_v30 (F := Ideal) mem c (ix2 m (Spec.col h d))
      = Spec.out (rd2 (mem ((c.tc : Thread nD τ).loc main_arg0))) (rdW (mem ((c.tc : Thread nD τ).loc main_arg1)))
          (rdW (mem ((c.tc : Thread nD τ).loc main_arg2))) (rdW (mem ((c.tc : Thread nD τ).loc main_arg3)))
          (rd3 (mem ((c.tc : Thread nD τ).loc main_arg4))) (rd3 (mem ((c.tc : Thread nD τ).loc main_arg5))) h m d := by
  rw [val_main_v30_eq]
  exact ref_at _ _ _ _ _ _ h m d

/-! ## The result as a whole array -/

/-- The mathematics as a whole `16 × 4096` array: at `(m, n)`, head `n / 128` and coordinate `n % 128`. -/
def outArr (X : Fin 16 → Fin 4096 → EReal) (Wq Wk Wv : Fin 4096 → Fin 4096 → EReal)
    (cK cV : Fin 32 → Fin 8192 → Fin 128 → EReal) : (⟨2, ![16, 4096]⟩ : Shape).Idx → EReal := fun i =>
  Spec.out X Wq Wk Wv cK cV ⟨(i 1).val / 128, by have := idx2_lt1 i; omega⟩ (i 0) ⟨(i 1).val % 128, Nat.mod_lt _ (by decide)⟩

/-- The whole array at `(m, col h d)`. -/
theorem outArr_at (X : Fin 16 → Fin 4096 → EReal) (Wq Wk Wv : Fin 4096 → Fin 4096 → EReal)
    (cK cV : Fin 32 → Fin 8192 → Fin 128 → EReal) (h : Fin 32) (m : Fin 16) (d : Fin 128) :
    outArr X Wq Wk Wv cK cV (ix2 m (Spec.col h d)) = Spec.out X Wq Wk Wv cK cV h m d := by
  have eh : (⟨(Spec.col h d).val / 128, by have := (Spec.col h d).isLt; omega⟩ : Fin 32) = h :=
    Fin.ext (by have := d.isLt; show (h.val * 128 + d.val) / 128 = h.val; omega)
  have ed : (⟨(Spec.col h d).val % 128, Nat.mod_lt _ (by decide)⟩ : Fin 128) = d :=
    Fin.ext (by have := d.isLt; show (h.val * 128 + d.val) % 128 = d.val; omega)
  show Spec.out X Wq Wk Wv cK cV ⟨(Spec.col h d).val / 128, _⟩ m ⟨(Spec.col h d).val % 128, _⟩ = _
  rw [eh, ed]

/-- THE REFERENCE AS A WHOLE ARRAY. -/
theorem ref_eq (x0 : (⟨S16x4096, .f32⟩ : BufTy).Contents (Elt Ideal)) (x1 x2 x3 : (⟨S4096x4096, .f32⟩ : BufTy).Contents (Elt Ideal)) (x4 x5 : (⟨S32x8192x128, .f32⟩ : BufTy).Contents (Elt Ideal)) :
    val_main_v30 (F := Ideal) x0 x1 x2 x3 x4 x5 = outArr (rd2 x0) (rdW x1) (rdW x2) (rdW x3) (rd3 x4) (rd3 x5) := by
  funext i
  obtain ⟨m, n, rfl⟩ : ∃ m n, i = ix2 m n := ⟨i 0, i 1, eq_ix2 i⟩
  have hn := col_div_mod n
  generalize (⟨n.val / 128, by have := n.isLt; omega⟩ : Fin 32) = h at hn
  generalize (⟨n.val % 128, Nat.mod_lt _ (by decide)⟩ : Fin 128) = d at hn
  subst hn
  rw [ref_at, outArr_at]

/-- The same for the result term of the reference's run. -/
theorem res_eq (mem : (ℓ : Loc nD τ sig) → Buf (Elt Ideal) ℓ) (c : Dev nD) :
    Cert.ReferenceIdeal.Value.res_main_v30 (F := Ideal) mem c
      = outArr (rd2 (mem ((c.tc : Thread nD τ).loc main_arg0))) (rdW (mem ((c.tc : Thread nD τ).loc main_arg1)))
          (rdW (mem ((c.tc : Thread nD τ).loc main_arg2))) (rdW (mem ((c.tc : Thread nD τ).loc main_arg3)))
          (rd3 (mem ((c.tc : Thread nD τ).loc main_arg4))) (rd3 (mem ((c.tc : Thread nD τ).loc main_arg5))) := by
  rw [val_main_v30_eq]
  exact ref_eq _ _ _ _ _ _

end Cert.ReferenceIdeal.RefValue

end
-- ==== Proof.KernelHost.lean ====
/-
  The kernel program's three stretches of host operations read at coordinates: the normalisation of the rows before
  the first region, the views per head of the three projections between the regions, and the view of the result as a
  matrix after the second region.
-/
import proofs.«157200_j55740085567782_2_alg».proof.Proof.Gen.KernelIdeal.Regions
import proofs.«157200_j55740085567782_2_alg».proof.Proof.Spec
import proofs.«157200_j55740085567782_2_alg».proof.Proof.RefValue
import Idealize.ShloMosaic.Lib.StableHlo.Run
import Idealize.ShloMosaic.Lib.Pipeline.Value
import Idealize.ShloMosaic.Lib.ValueIdx

noncomputable section

open scoped BigOperators

namespace Cert.KernelIdeal.HostValue

open Cert.KernelIdeal Cert.KernelIdeal.Gen Idealize.ShloMosaic Idealize.ShloMosaic.TcCoe Idealize.ShloMosaic.ValueIdx
open Idealize.SL.Sem Idealize.ShloMosaic.StableHlo
open Cert.Proof

/-! ## Before the first region: the normalised rows -/

/-- The first stretch's result as a whole array: the normalised rows (the same operations as the reference's, so the
    same term), the change of format the identity. -/
theorem hostOps0_v8_eq (W : Valuation τ sig (Elt Ideal)) :
    @Eq (FVec Ideal S16x4096 .bf16) (StableHlo.after hostOps0 W (Proc.devRef .tc main_v8))
      (truncf (F := Ideal) .bf16
        (Cert.ReferenceIdeal.Read.val_main_v7 (F := Ideal) (W (Proc.devRef .tc main_arg0))) bitsLt_bf16_f32) := by
  after_results
  rfl

/-- The first stretch's result at `(m, k)`. -/
theorem hostOps0_v8_at (W : Valuation τ sig (Elt Ideal)) (m : Fin 16) (k : Fin 4096) :
    (StableHlo.after hostOps0 W (Proc.devRef .tc main_v8) : FVec Ideal S16x4096 .bf16) (ix2 m k)
      = Spec.xn (fun m k => (W (Proc.devRef .tc main_arg0) : FVec Ideal S16x4096 .f32) (ix2 m k)) m k := by
  rw [hostOps0_v8_eq W, truncf_apply]
  exact Cert.ReferenceIdeal.RefValue.v7_at _ m k

/-! ## Between the regions: the projections viewed per head -/

/-- A `16 × 4096` matrix viewed as `16 × 32 × 128` with its first two axes exchanged, at `(h, r, d)`: the matrix at
    `(r, h * 128 + d)`. -/
theorem heads_at {α : Type} (y : S16x4096.Idx → α) (h : Fin 32) (r : Fin 16) (d : Fin 128) :
    transpose S32x16x128 [1, 0, 2] (shapeCast S16x32x128 y shapeCasts_S16x4096_S16x32x128)
        transposes_S16x32x128_S32x16x128_1_0_2 (ix3 h r d) = y (ix2 r (Spec.col h d)) := by
  rw [transpose_apply [1, 0, 2] _ transposes_S16x32x128_S32x16x128_1_0_2 (ix3 h r d) (ix3 r h d) (fun b => by
    match b with
    | ⟨0, _⟩ => rfl
    | ⟨1, _⟩ => rfl
    | ⟨2, _⟩ => rfl)]
  exact shapeCast_apply y shapeCasts_S16x4096_S16x32x128 (ix3 r h d) (ix2 r (Spec.col h d)) (by
    rewrite [Shape.rowMajor_val_two, Shape.rowMajor_val_three]
    show r.val * 4096 + (h.val * 128 + d.val) = (r.val * 32 + h.val) * 128 + d.val
    omega)

/-- The second stretch: the first projection per head at `(h, r, d)`. -/
theorem hostOps1_v11_at (W : Valuation τ sig (Elt Ideal)) (h : Fin 32) (r : Fin 16) (d : Fin 128) :
    (StableHlo.after hostOps1 W (Proc.devRef .tc main_v11) : FVec Ideal S32x16x128 .f32) (ix3 h r d)
      = (W (Proc.devRef .tc main_v9_0) : FVec Ideal S16x4096 .f32) (ix2 r (Spec.col h d)) := by
  have e : @Eq (FVec Ideal S32x16x128 .f32) (StableHlo.after hostOps1 W (Proc.devRef .tc main_v11))
      (transpose S32x16x128 [1, 0, 2]
        (shapeCast S16x32x128 (W (Proc.devRef .tc main_v9_0) : FVec Ideal S16x4096 .f32) shapeCasts_S16x4096_S16x32x128)
        transposes_S16x32x128_S32x16x128_1_0_2) := by
    after_results
    rfl
  rw [e]
  exact heads_at _ h r d

/-- The second stretch: the second projection per head at `(h, r, d)`. -/
theorem hostOps1_v13_at (W : Valuation τ sig (Elt Ideal)) (h : Fin 32) (r : Fin 16) (d : Fin 128) :
    (StableHlo.after hostOps1 W (Proc.devRef .tc main_v13) : FVec Ideal S32x16x128 .f32) (ix3 h r d)
      = (W (Proc.devRef .tc main_v9_1) : FVec Ideal S16x4096 .f32) (ix2 r (Spec.col h d)) := by
  have e : @Eq (FVec Ideal S32x16x128 .f32) (StableHlo.after hostOps1 W (Proc.devRef .tc main_v13))
      (transpose S32x16x128 [1, 0, 2]
        (shapeCast S16x32x128 (W (Proc.devRef .tc main_v9_1) : FVec Ideal S16x4096 .f32) shapeCasts_S16x4096_S16x32x128)
        transposes_S16x32x128_S32x16x128_1_0_2) := by
    after_results
    rfl
  rw [e]
  exact heads_at _ h r d

/-- The second stretch: the third projection per head at `(h, r, d)`. -/
theorem hostOps1_v15_at (W : Valuation τ sig (Elt Ideal)) (h : Fin 32) (r : Fin 16) (d : Fin 128) :
    (StableHlo.after hostOps1 W (Proc.devRef .tc main_v15) : FVec Ideal S32x16x128 .f32) (ix3 h r d)
      = (W (Proc.devRef .tc main_v9_2) : FVec Ideal S16x4096 .f32) (ix2 r (Spec.col h d)) := by
  have e : @Eq (FVec Ideal S32x16x128 .f32) (StableHlo.after hostOps1 W (Proc.devRef .tc main_v15))
      (transpose S32x16x128 [1, 0, 2]
        (shapeCast S16x32x128 (W (Proc.devRef .tc main_v9_2) : FVec Ideal S16x4096 .f32) shapeCasts_S16x4096_S16x32x128)
        transposes_S16x32x128_S32x16x128_1_0_2) := by
    after_results
    rfl
  rw [e]
  exact heads_at _ h r d

/-! ## After the second region: the result as a matrix -/

/-- A `32 × 16 × 128` array with its first two axes exchanged, viewed as `16 × 4096`, at `(r, h * 128 + d)`: the
    array at `(h, r, d)`. -/
theorem merge_at {α : Type} (y : S32x16x128.Idx → α) (h : Fin 32) (r : Fin 16) (d : Fin 128) :
    shapeCast S16x4096 (transpose S16x32x128 [1, 0, 2] y transposes_S32x16x128_S16x32x128_1_0_2)
        shapeCasts_S16x32x128_S16x4096 (ix2 r (Spec.col h d)) = y (ix3 h r d) := by
  rw [shapeCast_apply _ shapeCasts_S16x32x128_S16x4096 (ix2 r (Spec.col h d)) (ix3 r h d) (by
    rewrite [Shape.rowMajor_val_three, Shape.rowMajor_val_two]
    show (r.val * 32 + h.val) * 128 + d.val = r.val * 4096 + (h.val * 128 + d.val)
    omega)]
  exact transpose_apply [1, 0, 2] y transposes_S32x16x128_S16x32x128_1_0_2 (ix3 r h d) (ix3 h r d) (fun b => by
    match b with
    | ⟨0, _⟩ => rfl
    | ⟨1, _⟩ => rfl
    | ⟨2, _⟩ => rfl)

/-- The third stretch: the result at `(r, h * 128 + d)`. -/
theorem hostOps2_v18_at (W : Valuation τ sig (Elt Ideal)) (h : Fin 32) (r : Fin 16) (d : Fin 128) :
    (StableHlo.after hostOps2 W (Proc.devRef .tc main_v18) : FVec Ideal S16x4096 .f32) (ix2 r (Spec.col h d))
      = (W (Proc.devRef .tc main_v16) : FVec Ideal S32x16x128 .f32) (ix3 h r d) := by
  have e : @Eq (FVec Ideal S16x4096 .f32) (StableHlo.after hostOps2 W (Proc.devRef .tc main_v18))
      (shapeCast S16x4096
        (transpose S16x32x128 [1, 0, 2] (W (Proc.devRef .tc main_v16) : FVec Ideal S32x16x128 .f32)
          transposes_S32x16x128_S16x32x128_1_0_2) shapeCasts_S16x32x128_S16x4096) := by
    after_results
    rfl
  rw [e]
  exact merge_at _ h r d

end Cert.KernelIdeal.HostValue

end
-- ==== Proof.ProjValue.lean ====
/-
  The projection region's three result arrays as whole functions of the arrays the region finds: at every grid point
  the body multiplies the normalised input by a band of 256 rows of a weight matrix, and the sixteen bands' products,
  written back side by side, fill the `16 × 4096` result — at `(r, n)` the sum over `k` of the input at `(r, k)` times
  the weight matrix at `(n, k)`.
-/
import proofs.«157200_j55740085567782_2_alg».proof.Proof.ProjDataIdeal
import proofs.«157200_j55740085567782_2_alg».proof.Proof.LibRowRowProduct
import proofs.«157200_j55740085567782_2_alg».proof.Proof.KernelHost
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof

/-! ## The body's products at an index -/

/-- The product's dimension record keeps the first operand's row coordinate … -/
theorem dot_lhs0 (j : S16x256.Idx) (k : dot_S16x4096_S256x4096_S16x256_1_1_0_0_n_n.contr.Idx) :
    (dot_S16x4096_S256x4096_S16x256_1_1_0_0_n_n.lhsIdx j k 0).val = (j 0).val := by
  unfold DotDims.lhsIdx
  rw [dif_neg (show ¬(0 : Fin S16x4096.rank) ∈ dot_S16x4096_S256x4096_S16x256_1_1_0_0_n_n.lhsBatch by decide),
    dif_pos (show (0 : Fin S16x4096.rank) ∈ dot_S16x4096_S256x4096_S16x256_1_1_0_0_n_n.lhsNonContracting by decide)]
  rfl

/-- … and pairs it with the second operand's row coordinate. -/
theorem dot_rhs0 (j : S16x256.Idx) (k : dot_S16x4096_S256x4096_S16x256_1_1_0_0_n_n.contr.Idx) :
    (dot_S16x4096_S256x4096_S16x256_1_1_0_0_n_n.rhsIdx j k 0).val = (j 1).val := by
  unfold DotDims.rhsIdx
  rw [dif_neg (show ¬(0 : Fin S256x4096.rank) ∈ dot_S16x4096_S256x4096_S16x256_1_1_0_0_n_n.rhsBatch by decide),
    dif_pos (show (0 : Fin S256x4096.rank) ∈ dot_S16x4096_S256x4096_S16x256_1_1_0_0_n_n.rhsNonContracting by decide)]
  rfl

/-- The product of the input block with a band, into a zero accumulator, at `(r, j)`: row `r` of the input against
    row `j` of the band (the changes of format and the trivial shape cast are the identity). -/
theorem band_product_at (v0 : FVec Ideal S16x4096 .bf16) (v2 : FVec Ideal S256x4096 .f32) (r : Fin 16) (j : Fin 256) :
    matmul dot_S16x4096_S256x4096_S16x256_1_1_0_0_n_n none (shapeCast S16x4096 v0 shapeCasts_S16x4096_S16x4096)
        (truncf (F := Ideal) .bf16 v2 bitsLt_bf16_f32) (constant S16x256 .f32 0x00000000#32) (ix2 r j)
      = ∑ k : Fin 4096, v0 (ix2 r k) * v2 (ix2 j k) := by
  rw [shapeCast_self]
  exact Cert.LibRowRowProduct.matmul_zero_apply dot_S16x4096_S256x4096_S16x256_1_1_0_0_n_n rfl rfl rfl rfl
    dot_lhs0 dot_rhs0 v0 (truncf (F := Ideal) .bf16 v2 bitsLt_bf16_f32) r j none

/-- The first product at `(r, j)`. -/
theorem pay2_at (v0 : Vec Ideal S16x4096 .bf16) (v2 : Vec Ideal S256x4096 .f32) (r : Fin 16) (j : Fin 256) :
    k0_pay2 (F := Ideal) v0 v2 (ix2 r j) = ∑ k : Fin 4096, (v0 : FVec Ideal S16x4096 .bf16) (ix2 r k) * (v2 : FVec Ideal S256x4096 .f32) (ix2 j k) :=
  band_product_at v0 v2 r j

/-- The second product at `(r, j)`. -/
theorem pay3_at (v0 : Vec Ideal S16x4096 .bf16) (v2 : Vec Ideal S256x4096 .f32) (r : Fin 16) (j : Fin 256) :
    k0_pay3 (F := Ideal) v0 v2 (ix2 r j) = ∑ k : Fin 4096, (v0 : FVec Ideal S16x4096 .bf16) (ix2 r k) * (v2 : FVec Ideal S256x4096 .f32) (ix2 j k) :=
  band_product_at v0 v2 r j

/-- The third product at `(r, j)`. -/
theorem pay4_at (v0 : Vec Ideal S16x4096 .bf16) (v2 : Vec Ideal S256x4096 .f32) (r : Fin 16) (j : Fin 256) :
    k0_pay4 (F := Ideal) v0 v2 (ix2 r j) = ∑ k : Fin 4096, (v0 : FVec Ideal S16x4096 .bf16) (ix2 r k) * (v2 : FVec Ideal S256x4096 .f32) (ix2 j k) :=
  band_product_at v0 v2 r j

/-- The products at any index of the `16 × 256` block. -/
theorem pay2_apply (v0 : Vec Ideal S16x4096 .bf16) (v2 : Vec Ideal S256x4096 .f32) (y : S16x256.Idx) :
    k0_pay2 (F := Ideal) v0 v2 y
      = ∑ k : Fin 4096, (v0 : FVec Ideal S16x4096 .bf16) (ix2 (y 0) k) * (v2 : FVec Ideal S256x4096 .f32) (ix2 (y 1) k) := by
  conv_lhs => rw [eq_ix2 y]
  exact pay2_at v0 v2 (y 0) (y 1)

/-- The second. -/
theorem pay3_apply (v0 : Vec Ideal S16x4096 .bf16) (v2 : Vec Ideal S256x4096 .f32) (y : S16x256.Idx) :
    k0_pay3 (F := Ideal) v0 v2 y
      = ∑ k : Fin 4096, (v0 : FVec Ideal S16x4096 .bf16) (ix2 (y 0) k) * (v2 : FVec Ideal S256x4096 .f32) (ix2 (y 1) k) := by
  conv_lhs => rw [eq_ix2 y]
  exact pay3_at v0 v2 (y 0) (y 1)

/-- The third. -/
theorem pay4_apply (v0 : Vec Ideal S16x4096 .bf16) (v2 : Vec Ideal S256x4096 .f32) (y : S16x256.Idx) :
    k0_pay4 (F := Ideal) v0 v2 y
      = ∑ k : Fin 4096, (v0 : FVec Ideal S16x4096 .bf16) (ix2 (y 0) k) * (v2 : FVec Ideal S256x4096 .f32) (ix2 (y 1) k) := by
  conv_lhs => rw [eq_ix2 y]
  exact pay4_at v0 v2 (y 0) (y 1)

theorem hz : (![0, 0] : Fin 2 → Nat) = fun _ => 0 := funext fun a => by fin_cases a <;> rfl

/-- The projection of the rows of `x` against the rows of `W`, as a whole array. -/
abbrev projArr (x : FVec Ideal S16x4096 .bf16) (W : FVec Ideal S4096x4096 .f32) : FVec Ideal S16x4096 .f32 :=
  fun i => ∑ k : Fin 4096, x (ix2 (i 0) k) * W (ix2 (i 1) k)

variable (m : (ℓ : Loc nD τ sig) → Buf (Elt Ideal) ℓ)

/-- The printed index maps, decided over the grid: the input is whole at every point, point `t` takes band `t` of
    each weight matrix and writes column block `t` of each result. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- WHAT POINT `t` WRITES BACK to result 0: block `t` of the projection of the normalised input against `main_arg1`. -/
theorem flushedQ_eq (c : Dev nD) (t : Fin cfg0.N) :
    (dats0 m c).flushed 4 t
      = ((cfg0.win 4).blk t).view.read (Elt Ideal) (projArr (VA m c main_v8) (VA m c main_arg1)) := by
  show (cfg0.win 4).cut (grid0.coords t) ((dats0 m c).after 4 t) = _
  rw [after0_4]
  unfold outQ
  rw [View.canon_unit_zero hz]
  simp only [View.ld_unit_zero (S := S16x4096) hz, View.ld_unit_zero (S := S256x4096) hz]
  funext y
  show k0_pay2 (F := Ideal) (iblk0 m c 0 t) (iblk0 m c 1 t) y
    = projArr (VA m c main_v8) (VA m c main_arg1) (((cfg0.win 4).blk t).view.emb y)
  rw [pay2_apply]
  obtain ⟨e00, e01, e10, e11, e20, e21, e30, e31, e40, e41, e50, e51, e60, e61⟩ := idx_facts t
  refine Finset.sum_congr rfl fun k _ => ?_
  have h0 : iblk0 m c 0 t (ix2 (y 0) k) = VA m c main_v8 (ix2 (((cfg0.win 4).blk t).view.emb y 0) k) := by
    show VA m c main_v8 (((cfg0.win 0).blk t).view.emb (ix2 (y 0) k)) = _
    refine congrArg (VA m c main_v8 : FVec Ideal S16x4096 .bf16) (funext fun a => Fin.ext ?_)
    match a with
    | ⟨0, _⟩ => show win0_0.index t (0 : Fin 2) * 16 + 1 * (y 0).val = win0_4.index t (0 : Fin 2) * 16 + 1 * (y 0).val; omega
    | ⟨1, _⟩ => show win0_0.index t (1 : Fin 2) * 4096 + 1 * k.val = k.val; omega
  have h1 : iblk0 m c 1 t (ix2 (y 1) k) = VA m c main_arg1 (ix2 (((cfg0.win 4).blk t).view.emb y 1) k) := by
    show VA m c main_arg1 (((cfg0.win 1).blk t).view.emb (ix2 (y 1) k)) = _
    refine congrArg (VA m c main_arg1 : FVec Ideal S4096x4096 .f32) (funext fun a => Fin.ext ?_)
    match a with
    | ⟨0, _⟩ => show win0_1.index t (0 : Fin 2) * 256 + 1 * (y 1).val = win0_4.index t (1 : Fin 2) * 256 + 1 * (y 1).val; omega
    | ⟨1, _⟩ => show win0_1.index t (1 : Fin 2) * 4096 + 1 * k.val = k.val; omega
  rw [h0, h1]

/-- WHAT POINT `t` WRITES BACK to result 1: block `t` of the projection of the normalised input against `main_arg2`. -/
theorem flushedK_eq (c : Dev nD) (t : Fin cfg0.N) :
    (dats0 m c).flushed 5 t
      = ((cfg0.win 5).blk t).view.read (Elt Ideal) (projArr (VA m c main_v8) (VA m c main_arg2)) := by
  show (cfg0.win 5).cut (grid0.coords t) ((dats0 m c).after 5 t) = _
  rw [after0_5]
  unfold outK
  rw [View.canon_unit_zero hz]
  simp only [View.ld_unit_zero (S := S16x4096) hz, View.ld_unit_zero (S := S256x4096) hz]
  funext y
  show k0_pay3 (F := Ideal) (iblk0 m c 0 t) (iblk0 m c 2 t) y
    = projArr (VA m c main_v8) (VA m c main_arg2) (((cfg0.win 5).blk t).view.emb y)
  rw [pay3_apply]
  obtain ⟨e00, e01, e10, e11, e20, e21, e30, e31, e40, e41, e50, e51, e60, e61⟩ := idx_facts t
  refine Finset.sum_congr rfl fun k _ => ?_
  have h0 : iblk0 m c 0 t (ix2 (y 0) k) = VA m c main_v8 (ix2 (((cfg0.win 5).blk t).view.emb y 0) k) := by
    show VA m c main_v8 (((cfg0.win 0).blk t).view.emb (ix2 (y 0) k)) = _
    refine congrArg (VA m c main_v8 : FVec Ideal S16x4096 .bf16) (funext fun a => Fin.ext ?_)
    match a with
    | ⟨0, _⟩ => show win0_0.index t (0 : Fin 2) * 16 + 1 * (y 0).val = win0_5.index t (0 : Fin 2) * 16 + 1 * (y 0).val; omega
    | ⟨1, _⟩ => show win0_0.index t (1 : Fin 2) * 4096 + 1 * k.val = k.val; omega
  have h1 : iblk0 m c 2 t (ix2 (y 1) k) = VA m c main_arg2 (ix2 (((cfg0.win 5).blk t).view.emb y 1) k) := by
    show VA m c main_arg2 (((cfg0.win 2).blk t).view.emb (ix2 (y 1) k)) = _
    refine congrArg (VA m c main_arg2 : FVec Ideal S4096x4096 .f32) (funext fun a => Fin.ext ?_)
    match a with
    | ⟨0, _⟩ => show win0_2.index t (0 : Fin 2) * 256 + 1 * (y 1).val = win0_5.index t (1 : Fin 2) * 256 + 1 * (y 1).val; omega
    | ⟨1, _⟩ => show win0_2.index t (1 : Fin 2) * 4096 + 1 * k.val = k.val; omega
  rw [h0, h1]

/-- WHAT POINT `t` WRITES BACK to result 2: block `t` of the projection of the normalised input against `main_arg3`. -/
theorem flushedV_eq (c : Dev nD) (t : Fin cfg0.N) :
    (dats0 m c).flushed 6 t
      = ((cfg0.win 6).blk t).view.read (Elt Ideal) (projArr (VA m c main_v8) (VA m c main_arg3)) := by
  show (cfg0.win 6).cut (grid0.coords t) ((dats0 m c).after 6 t) = _
  rw [after0_6]
  unfold outV
  rw [View.canon_unit_zero hz]
  simp only [View.ld_unit_zero (S := S16x4096) hz, View.ld_unit_zero (S := S256x4096) hz]
  funext y
  show k0_pay4 (F := Ideal) (iblk0 m c 0 t) (iblk0 m c 3 t) y
    = projArr (VA m c main_v8) (VA m c main_arg3) (((cfg0.win 6).blk t).view.emb y)
  rw [pay4_apply]
  obtain ⟨e00, e01, e10, e11, e20, e21, e30, e31, e40, e41, e50, e51, e60, e61⟩ := idx_facts t
  refine Finset.sum_congr rfl fun k _ => ?_
  have h0 : iblk0 m c 0 t (ix2 (y 0) k) = VA m c main_v8 (ix2 (((cfg0.win 6).blk t).view.emb y 0) k) := by
    show VA m c main_v8 (((cfg0.win 0).blk t).view.emb (ix2 (y 0) k)) = _
    refine congrArg (VA m c main_v8 : FVec Ideal S16x4096 .bf16) (funext fun a => Fin.ext ?_)
    match a with
    | ⟨0, _⟩ => show win0_0.index t (0 : Fin 2) * 16 + 1 * (y 0).val = win0_6.index t (0 : Fin 2) * 16 + 1 * (y 0).val; omega
    | ⟨1, _⟩ => show win0_0.index t (1 : Fin 2) * 4096 + 1 * k.val = k.val; omega
  have h1 : iblk0 m c 3 t (ix2 (y 1) k) = VA m c main_arg3 (ix2 (((cfg0.win 6).blk t).view.emb y 1) k) := by
    show VA m c main_arg3 (((cfg0.win 3).blk t).view.emb (ix2 (y 1) k)) = _
    refine congrArg (VA m c main_arg3 : FVec Ideal S4096x4096 .f32) (funext fun a => Fin.ext ?_)
    match a with
    | ⟨0, _⟩ => show win0_3.index t (0 : Fin 2) * 256 + 1 * (y 1).val = win0_6.index t (1 : Fin 2) * 256 + 1 * (y 1).val; omega
    | ⟨1, _⟩ => show win0_3.index t (1 : Fin 2) * 4096 + 1 * k.val = k.val; omega
  rw [h0, h1]

/-- An index of result 0's array is in point `t`'s block iff each coordinate is in the block's range on its axis. -/
theorem mem_blk4 (t : Fin cfg0.N) (i : S16x4096.Idx) :
    i ∈ ((cfg0.win 4).blk t).view.set ↔ ∀ a : Fin 2, win0_4.index t a * S16x256.size a ≤ (i a).val
      ∧ (i a).val < win0_4.index t a * S16x256.size a + S16x256.size a := by
  show i ∈ ((View.whole main_v9_0).slice (win0_4.rect t)).set ↔ _
  rw [View.set_slice_whole, Rect.mem_set_unit]
  exact Iff.rfl

/-- Column `n` is in the block of point `n / 256`: the sixteen blocks fill the array. -/
theorem coverQ (i : S16x4096.Idx) :
    ∃ t : Fin cfg0.N, (cfg0.win 4).flush t = true ∧ i ∈ ((cfg0.win 4).blk t).view.set := by
  have hi0 : (i 0).val < 16 := (i 0).isLt
  have hi1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  refine ⟨t, flush0_4 t, ?_⟩
  rw [mem_blk4]
  obtain ⟨e00, e01, e10, e11, e20, e21, e30, e31, e40, e41, e50, e51, e60, e61⟩ := idx_facts t
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 256 ≤ (i 1).val ∧ (i 1).val < win0_4.index t (1 : Fin 2) * 256 + 256; omega

/-- RESULT 0 AFTER THE REGION: the projection of the normalised input against `main_arg1`, whole. -/
theorem final_Q (c : Dev nD) :
    ((dats0 m c).arrAt 4 cfg0.N : FVec Ideal S16x4096 .f32) = projArr (VA m c main_v8) (VA m c main_arg1) :=
  (dats0 m c).arrAt_eq_of_cover 4 (projArr (VA m c main_v8) (VA m c main_arg1)) (fun t _ => flushedQ_eq m c t) coverQ

/-- An index of result 1's array is in point `t`'s block iff each coordinate is in the block's range on its axis. -/
theorem mem_blk5 (t : Fin cfg0.N) (i : S16x4096.Idx) :
    i ∈ ((cfg0.win 5).blk t).view.set ↔ ∀ a : Fin 2, win0_5.index t a * S16x256.size a ≤ (i a).val
      ∧ (i a).val < win0_5.index t a * S16x256.size a + S16x256.size a := by
  show i ∈ ((View.whole main_v9_1).slice (win0_5.rect t)).set ↔ _
  rw [View.set_slice_whole, Rect.mem_set_unit]
  exact Iff.rfl

/-- Column `n` is in the block of point `n / 256`: the sixteen blocks fill the array. -/
theorem coverK (i : S16x4096.Idx) :
    ∃ t : Fin cfg0.N, (cfg0.win 5).flush t = true ∧ i ∈ ((cfg0.win 5).blk t).view.set := by
  have hi0 : (i 0).val < 16 := (i 0).isLt
  have hi1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  refine ⟨t, flush0_5 t, ?_⟩
  rw [mem_blk5]
  obtain ⟨e00, e01, e10, e11, e20, e21, e30, e31, e40, e41, e50, e51, e60, e61⟩ := idx_facts t
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 256 ≤ (i 1).val ∧ (i 1).val < win0_5.index t (1 : Fin 2) * 256 + 256; omega

/-- RESULT 1 AFTER THE REGION: the projection of the normalised input against `main_arg2`, whole. -/
theorem final_K (c : Dev nD) :
    ((dats0 m c).arrAt 5 cfg0.N : FVec Ideal S16x4096 .f32) = projArr (VA m c main_v8) (VA m c main_arg2) :=
  (dats0 m c).arrAt_eq_of_cover 5 (projArr (VA m c main_v8) (VA m c main_arg2)) (fun t _ => flushedK_eq m c t) coverK

/-- An index of result 2's array is in point `t`'s block iff each coordinate is in the block's range on its axis. -/
theorem mem_blk6 (t : Fin cfg0.N) (i : S16x4096.Idx) :
    i ∈ ((cfg0.win 6).blk t).view.set ↔ ∀ a : Fin 2, win0_6.index t a * S16x256.size a ≤ (i a).val
      ∧ (i a).val < win0_6.index t a * S16x256.size a + S16x256.size a := by
  show i ∈ ((View.whole main_v9_2).slice (win0_6.rect t)).set ↔ _
  rw [View.set_slice_whole, Rect.mem_set_unit]
  exact Iff.rfl

/-- Column `n` is in the block of point `n / 256`: the sixteen blocks fill the array. -/
theorem coverV (i : S16x4096.Idx) :
    ∃ t : Fin cfg0.N, (cfg0.win 6).flush t = true ∧ i ∈ ((cfg0.win 6).blk t).view.set := by
  have hi0 : (i 0).val < 16 := (i 0).isLt
  have hi1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  refine ⟨t, flush0_6 t, ?_⟩
  rw [mem_blk6]
  obtain ⟨e00, e01, e10, e11, e20, e21, e30, e31, e40, e41, e50, e51, e60, e61⟩ := idx_facts t
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 256 ≤ (i 1).val ∧ (i 1).val < win0_6.index t (1 : Fin 2) * 256 + 256; omega

/-- RESULT 2 AFTER THE REGION: the projection of the normalised input against `main_arg3`, whole. -/
theorem final_V (c : Dev nD) :
    ((dats0 m c).arrAt 6 cfg0.N : FVec Ideal S16x4096 .f32) = projArr (VA m c main_v8) (VA m c main_arg3) :=
  (dats0 m c).arrAt_eq_of_cover 6 (projArr (VA m c main_v8) (VA m c main_arg3)) (fun t _ => flushedV_eq m c t) coverV

/-! ## The three results in the terms of the launch memory -/

/-- The whole-array projection at `(r, n)`, its operands read at coordinates. -/
theorem projArr_at (x : FVec Ideal S16x4096 .bf16) (W : FVec Ideal S4096x4096 .f32) (r : Fin 16) (n : Fin 4096)
    (x' : Fin 16 → Fin 4096 → EReal) (W' : Fin 4096 → Fin 4096 → EReal) (hx : ∀ k, x (ix2 r k) = x' r k)
    (hW : ∀ k, W (ix2 n k) = W' n k) : projArr x W (ix2 r n) = Spec.proj x' W' r n :=
  Finset.sum_congr rfl fun k _ => by
    show x (ix2 r k) * W (ix2 n k) = x' r k * W' n k
    rw [hx k, hW k]

/-- The normalised input the region finds, at `(r, k)`. -/
theorem VA_v8_at (c : Dev nD) (r : Fin 16) (k : Fin 4096) :
    (VA m c main_v8 : FVec Ideal S16x4096 .bf16) (ix2 r k)
      = Spec.xn (fun r k => (m ((c : Thread nD τ).loc main_arg0) : FVec Ideal S16x4096 .f32) (ix2 r k)) r k :=
  Cert.KernelIdeal.HostValue.hostOps0_v8_at (V0 m c) r k

/-- A buffer the first host stretch does not write is found as launched. -/
theorem VA_weight (c : Dev nD) (b : Ref sig .tc) (hb : b ∉ hostOps0_W) :
    VA m c b = m ((c : Thread nD τ).loc b) :=
  V1_of m c b hb

/-- Result 0 at `(r, n)`, in the terms of the launch memory. -/
theorem final_Q_at (c : Dev nD) (r : Fin 16) (n : Fin 4096) :
    ((dats0 m c).arrAt 4 cfg0.N : FVec Ideal S16x4096 .f32) (ix2 r n)
      = Spec.proj (Spec.xn (fun r k => (m ((c : Thread nD τ).loc main_arg0) : FVec Ideal S16x4096 .f32) (ix2 r k)))
          (fun n k => (m ((c : Thread nD τ).loc main_arg1) : FVec Ideal S4096x4096 .f32) (ix2 n k)) r n := by
  rw [final_Q m c]
  exact projArr_at _ _ r n _ _ (fun k => VA_v8_at m c r k) (fun k => by rw [VA_weight m c main_arg1 (by decide)])

/-- Result 1 at `(r, n)`, in the terms of the launch memory. -/
theorem final_K_at (c : Dev nD) (r : Fin 16) (n : Fin 4096) :
    ((dats0 m c).arrAt 5 cfg0.N : FVec Ideal S16x4096 .f32) (ix2 r n)
      = Spec.proj (Spec.xn (fun r k => (m ((c : Thread nD τ).loc main_arg0) : FVec Ideal S16x4096 .f32) (ix2 r k)))
          (fun n k => (m ((c : Thread nD τ).loc main_arg2) : FVec Ideal S4096x4096 .f32) (ix2 n k)) r n := by
  rw [final_K m c]
  exact projArr_at _ _ r n _ _ (fun k => VA_v8_at m c r k) (fun k => by rw [VA_weight m c main_arg2 (by decide)])

/-- Result 2 at `(r, n)`, in the terms of the launch memory. -/
theorem final_V_at (c : Dev nD) (r : Fin 16) (n : Fin 4096) :
    ((dats0 m c).arrAt 6 cfg0.N : FVec Ideal S16x4096 .f32) (ix2 r n)
      = Spec.proj (Spec.xn (fun r k => (m ((c : Thread nD τ).loc main_arg0) : FVec Ideal S16x4096 .f32) (ix2 r k)))
          (fun n k => (m ((c : Thread nD τ).loc main_arg3) : FVec Ideal S4096x4096 .f32) (ix2 n k)) r n := by
  rw [final_V m c]
  exact projArr_at _ _ r n _ _ (fun k => VA_v8_at m c r k) (fun k => by rw [VA_weight m c main_arg3 (by decide)])

end Cert.KernelIdeal.Hand

end
-- ==== Proof.PreFacts.lean ====
/-
  What the precondition says: every entry of the six arrays is a real number and every row of X has a positive sum of
  squares; and what follows for the normalised rows, the projections and the scores.
-/
import proofs.«157200_j55740085567782_2_alg».proof.Proof.Gen.Pre_finite_inputs
import proofs.«157200_j55740085567782_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

open scoped BigOperators

namespace Cert.Proof.PreFacts

open Idealize.ShloMosaic Idealize.ShloMosaic.ValueIdx Cert.Pre_finite_inputs Cert.Pre_finite_inputs.Gen
open Cert.Proof

instance : Subsingleton S_.Idx := ⟨fun a b => funext fun d => d.elim0⟩

/-! ## Reading the precondition -/

/-- An extended real whose absolute value compares below the f32 word of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- A comparison "greater than the f32 word of zero" that holds says the value is positive. -/
theorem pos_of_cmp_gt (x : EReal) (h : Ideal.cmp .ogt x (Ideal.ofBits .f32 0x00000000#32) = 1#1) : 0 < x := by
  rw [Ideal.ofBits_zero_f32] at h
  by_contra hx
  exact absurd h (by simp [Ideal.cmp, hx])

/-- THE PRECONDITION READ: every entry of the six arrays is a real, and every row of the first has a positive sum of
    squares. -/
theorem pre_read (x0 : FVec Ideal S16x4096 .f32) (x1 x2 x3 : FVec Ideal S4096x4096 .f32) (x4 x5 : FVec Ideal S32x8192x128 .f32)
    (hp : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ ∀ m : Fin 16, 0 < ∑ k : Fin 4096, x0 (ix2 m k) * x0 (ix2 m k) := by
  have h0 := congrFun hp ix0
  dsimp only [fn, fn_part1, fn_part2] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨fun i => real_of_abs_lt _ (Host.reduce_andi_all _ _ _ _ ix0 h0 i),
    fun i => real_of_abs_lt _ (Host.reduce_andi_all _ _ _ _ ix0 h1 i),
    fun i => real_of_abs_lt _ (Host.reduce_andi_all _ _ _ _ ix0 h2 i),
    fun i => real_of_abs_lt _ (Host.reduce_andi_all _ _ _ _ ix0 h3 i),
    fun i => real_of_abs_lt _ (Host.reduce_andi_all _ _ _ _ ix0 h4 i),
    fun i => real_of_abs_lt _ (Host.reduce_andi_all _ _ _ _ ix0 h5 i), fun m => ?_⟩
  have hm := pos_of_cmp_gt _ (Host.reduce_andi_all _ _ _ _ ix0 h6 (ix1 m))
  have key : ∀ (y : FVec Ideal S16x4096 .f32) (hr : S16x4096.ReducesTo [1] S16) (hs : 0 < S_.numel)
      (c0 : S_.Idx → Ideal .f32),
      Host.reduceAdd y c0 hr hs (ix1 m) = c0 (Shape.Idx.first hs) + ∑ k : Fin 4096, y (ix2 m k) := by
    intro y hr hs c0
    simp only [Host.reduceAdd, Ideal.hostReduceAdd_def]
    rw [Ideal.hostReduceAdd_single hr (by decide)]
    refine congrArg (_ + ·) (Finset.sum_congr rfl fun k _ => ?_)
    exact congrArg y (funext fun a => Fin.ext (by match a with | ⟨0, _⟩ => rfl | ⟨1, _⟩ => rfl))
  rw [key] at hm
  simp only [constant_apply, mulf_apply, Ideal.ofBits_zero_f32, zero_add] at hm
  exact hm

/-! ## Sums, products and quotients of reals -/

/-- A finite sum of reals, taken in the extended reals, is the real sum. -/
theorem sum_coe {ι : Type} (s : Finset ι) (g : ι → ℝ) :
    ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- A finite sum of reals is a real. -/
theorem sum_real {n : ℕ} (f : Fin n → EReal) (hf : ∀ k, ∃ r : ℝ, f k = (r : EReal)) :
    ∃ r : ℝ, ∑ k, f k = (r : EReal) := by
  choose g hg using hf
  exact ⟨∑ k, g k, by rw [← sum_coe]; exact Finset.sum_congr rfl fun k _ => hg k⟩

/-- A product of reals is a real. -/
theorem mul_real {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A real divided by a nonzero real is the real quotient. -/
theorem div_coe_coe (x : ℝ) {y : ℝ} (hy : y ≠ 0) : Ideal.div (x : EReal) (y : EReal) = ((x / y : ℝ) : EReal) := by
  rw [Ideal.div_coe hy, ← EReal.coe_mul, mul_one_div]

/-- The f32 word `0x45800000` is 4096. -/
theorem lit4096 : Ideal.ofBits .f32 0x45800000#32 = ((4096 : ℝ) : EReal) := by
  simp [Ideal.ofBits, Ideal.ieee]
  rw [← EReal.coe_mul]
  exact congrArg _ (by norm_num)

/-- The exponential of a real is a positive real. -/
theorem exp_real {a : EReal} (ha : ∃ r : ℝ, a = (r : EReal)) : ∃ r : ℝ, 0 < r ∧ Ideal.exp a = (r : EReal) := by
  obtain ⟨x, rfl⟩ := ha
  exact ⟨Real.exp x, Real.exp_pos x, Ideal.exp_coe x⟩

/-- A nonempty finite sum of positive reals is a positive real. -/
theorem sum_pos_real {n : ℕ} (hn : 0 < n) (f : Fin n → EReal) (hf : ∀ k, ∃ r : ℝ, 0 < r ∧ f k = (r : EReal)) :
    ∃ r : ℝ, 0 < r ∧ ∑ k, f k = (r : EReal) := by
  choose g hg0 hg using hf
  haveI : Nonempty (Fin n) := ⟨⟨0, hn⟩⟩
  exact ⟨∑ k, g k, Finset.sum_pos (fun k _ => hg0 k) Finset.univ_nonempty,
    by rw [← sum_coe]; exact Finset.sum_congr rfl fun k _ => hg k⟩

/-! ## The consequences in the terms of Spec -/

/-- The sum of squares of a row of reals is a real. -/
theorem x2_real {X : Fin 16 → Fin 4096 → EReal} (hX : ∀ m k, ∃ r : ℝ, X m k = (r : EReal)) (m : Fin 16) :
    ∃ r : ℝ, Spec.x2 X m = (r : EReal) :=
  sum_real _ fun k => mul_real (hX m k) (hX m k)

/-- A row of reals with a positive sum of squares `s`, normalised: entry `x` becomes `x / √(s / 4096)`, and the
    divisor is positive. -/
theorem xn_eq {X : Fin 16 → Fin 4096 → EReal} {m : Fin 16} {k : Fin 4096} {s x : ℝ} (hs : Spec.x2 X m = (s : EReal))
    (hs0 : 0 < s) (hx : X m k = (x : EReal)) :
    Spec.xn X m k = ((x / Real.sqrt (s / 4096) : ℝ) : EReal) ∧ 0 < Real.sqrt (s / 4096) := by
  have hq : 0 < Real.sqrt (s / 4096) := Real.sqrt_pos.2 (div_pos hs0 (by norm_num))
  refine ⟨?_, hq⟩
  unfold Spec.xn
  rw [hs, hx, lit4096, div_coe_coe s (by norm_num), Ideal.sqrt_coe,
    if_neg (not_lt.2 (div_nonneg hs0.le (by norm_num))), div_coe_coe x hq.ne']

/-- The normalised rows are reals. -/
theorem xn_real {X : Fin 16 → Fin 4096 → EReal} (hX : ∀ m k, ∃ r : ℝ, X m k = (r : EReal))
    (hpos : ∀ m, 0 < Spec.x2 X m) (m : Fin 16) (k : Fin 4096) : ∃ r : ℝ, Spec.xn X m k = (r : EReal) := by
  obtain ⟨s, hs⟩ := x2_real hX m
  obtain ⟨x, hx⟩ := hX m k
  have hs0 : 0 < s := by have := hpos m; rw [hs] at this; exact_mod_cast this
  exact ⟨_, (xn_eq hs hs0 hx).1⟩

/-- A projection of real rows against a real matrix is real. -/
theorem proj_real {xn : Fin 16 → Fin 4096 → EReal} {W : Fin 4096 → Fin 4096 → EReal}
    (hx : ∀ m k, ∃ r : ℝ, xn m k = (r : EReal)) (hW : ∀ n k, ∃ r : ℝ, W n k = (r : EReal)) (m : Fin 16) (n : Fin 4096) :
    ∃ r : ℝ, Spec.proj xn W m n = (r : EReal) :=
  sum_real _ fun k => mul_real (hx m k) (hW n k)

/-- A score against a cached key is real. -/
theorem scoreC_real {q : Fin 16 → Fin 4096 → EReal} {cK : Fin 32 → Fin 8192 → Fin 128 → EReal}
    (hq : ∀ m n, ∃ r : ℝ, q m n = (r : EReal)) (hK : ∀ h p d, ∃ r : ℝ, cK h p d = (r : EReal)) (h : Fin 32) (m : Fin 16)
    (p : Fin 8192) : ∃ r : ℝ, Spec.scoreC q cK h m p = (r : EReal) :=
  sum_real _ fun d => mul_real (hq m _) (hK h p d)

/-- A score against a new key is real. -/
theorem scoreN_real {q k : Fin 16 → Fin 4096 → EReal} (hq : ∀ m n, ∃ r : ℝ, q m n = (r : EReal))
    (hk : ∀ m n, ∃ r : ℝ, k m n = (r : EReal)) (h : Fin 32) (m j : Fin 16) :
    ∃ r : ℝ, Spec.scoreN q k h m j = (r : EReal) :=
  sum_real _ fun d => mul_real (hq m _) (hk j _)

/-- The normaliser is a positive real. -/
theorem S_real {q k : Fin 16 → Fin 4096 → EReal} {cK : Fin 32 → Fin 8192 → Fin 128 → EReal}
    (hq : ∀ m n, ∃ r : ℝ, q m n = (r : EReal)) (hk : ∀ m n, ∃ r : ℝ, k m n = (r : EReal))
    (hK : ∀ h p d, ∃ r : ℝ, cK h p d = (r : EReal)) (h : Fin 32) (m : Fin 16) :
    ∃ r : ℝ, 0 < r ∧ Spec.S q k cK h m = (r : EReal) := by
  obtain ⟨a, ha0, ha⟩ := sum_pos_real (by norm_num : 0 < 8192) _ fun p => exp_real (scoreC_real hq hK h m p)
  obtain ⟨b, hb0, hb⟩ := sum_pos_real (by norm_num : 0 < 16) _ fun j => exp_real (scoreN_real hq hk h m j)
  exact ⟨a + b, add_pos ha0 hb0, by unfold Spec.S; rw [ha, hb, EReal.coe_add]⟩

/-- The weighted average is a real. -/
theorem naive_real {q k v : Fin 16 → Fin 4096 → EReal} {cK cV : Fin 32 → Fin 8192 → Fin 128 → EReal}
    (hq : ∀ m n, ∃ r : ℝ, q m n = (r : EReal)) (hk : ∀ m n, ∃ r : ℝ, k m n = (r : EReal))
    (hv : ∀ m n, ∃ r : ℝ, v m n = (r : EReal)) (hK : ∀ h p d, ∃ r : ℝ, cK h p d = (r : EReal))
    (hV : ∀ h p d, ∃ r : ℝ, cV h p d = (r : EReal)) (h : Fin 32) (m : Fin 16) (d : Fin 128) :
    ∃ r : ℝ, Spec.naive q k v cK cV h m d = (r : EReal) := by
  obtain ⟨s, hs0, hs⟩ := S_real hq hk hK h m
  have hw : ∀ {a : EReal}, (∃ r : ℝ, a = (r : EReal)) → ∃ r : ℝ, Ideal.div (Ideal.exp a) (Spec.S q k cK h m) = (r : EReal) := by
    intro a ha
    obtain ⟨e, _, he⟩ := exp_real ha
    exact ⟨e / s, by rw [he, hs, div_coe_coe e hs0.ne']⟩
  obtain ⟨a, ha⟩ := sum_real (fun p : Fin 8192 =>
    Ideal.div (Ideal.exp (Spec.scoreC q cK h m p)) (Spec.S q k cK h m) * cV h p d)
    fun p => mul_real (hw (scoreC_real hq hK h m p)) (hV h p d)
  obtain ⟨b, hb⟩ := sum_real (fun j : Fin 16 =>
    Ideal.div (Ideal.exp (Spec.scoreN q k h m j)) (Spec.S q k cK h m) * v j (Spec.col h d))
    fun j => mul_real (hw (scoreN_real hq hk h m j)) (hv j _)
  exact ⟨a + b, by unfold Spec.naive; rw [ha, hb, EReal.coe_add]⟩

/-! ## From the precondition to the terms of Spec -/

/-- Under the precondition: the six arrays read at coordinates are real, and the rows of the first have a positive
    sum of squares in the form Spec states it. -/
theorem coords_of_pre (x0 : FVec Ideal S16x4096 .f32) (x1 x2 x3 : FVec Ideal S4096x4096 .f32) (x4 x5 : FVec Ideal S32x8192x128 .f32)
    (hp : Cert.Pre_finite_inputs.fn (F := Ideal) x0 x1 x2 x3 x4 x5 = fun _ => 1#1) :
    (∀ (m : Fin 16) (k : Fin 4096), ∃ r : ℝ, x0 (ix2 m k) = (r : EReal))
      ∧ (∀ n k : Fin 4096, ∃ r : ℝ, x1 (ix2 n k) = (r : EReal))
      ∧ (∀ n k : Fin 4096, ∃ r : ℝ, x2 (ix2 n k) = (r : EReal))
      ∧ (∀ n k : Fin 4096, ∃ r : ℝ, x3 (ix2 n k) = (r : EReal))
      ∧ (∀ (h : Fin 32) (p : Fin 8192) (d : Fin 128), ∃ r : ℝ, x4 (ix3 h p d) = (r : EReal))
      ∧ (∀ (h : Fin 32) (p : Fin 8192) (d : Fin 128), ∃ r : ℝ, x5 (ix3 h p d) = (r : EReal))
      ∧ ∀ m : Fin 16, 0 < Spec.x2 (fun m k => x0 (ix2 m k)) m := by
  obtain ⟨h0, h1, h2, h3, h4, h5, h6⟩ := pre_read x0 x1 x2 x3 x4 x5 hp
  exact ⟨fun m k => h0 _, fun n k => h1 _, fun n k => h2 _, fun n k => h3 _, fun h p d => h4 _, fun h p d => h5 _, h6⟩

/-- Under the precondition the three projections of the normalised rows are real. -/
theorem projs_of_pre (x0 : FVec Ideal S16x4096 .f32) (x1 x2 x3 : FVec Ideal S4096x4096 .f32) (x4 x5 : FVec Ideal S32x8192x128 .f32)
    (hp : Cert.Pre_finite_inputs.fn (F := Ideal) x0 x1 x2 x3 x4 x5 = fun _ => 1#1) :
    (∀ m k, ∃ r : ℝ, Spec.xn (fun m k => x0 (ix2 m k)) m k = (r : EReal))
      ∧ (∀ m n, ∃ r : ℝ, Spec.proj (Spec.xn (fun m k => x0 (ix2 m k))) (fun n k => x1 (ix2 n k)) m n = (r : EReal))
      ∧ (∀ m n, ∃ r : ℝ, Spec.proj (Spec.xn (fun m k => x0 (ix2 m k))) (fun n k => x2 (ix2 n k)) m n = (r : EReal))
      ∧ (∀ m n, ∃ r : ℝ, Spec.proj (Spec.xn (fun m k => x0 (ix2 m k))) (fun n k => x3 (ix2 n k)) m n = (r : EReal)) := by
  obtain ⟨h0, h1, h2, h3, _, _, h6⟩ := coords_of_pre x0 x1 x2 x3 x4 x5 hp
  have hx := xn_real h0 h6
  exact ⟨hx, proj_real hx h1, proj_real hx h2, proj_real hx h3⟩

end Cert.Proof.PreFacts

end
-- ==== Proof.KernelValue.lean ====
/-
  The kernel program's result as the whole array of the mathematics. The three projections the first region leaves,
  viewed per head by the host, are what the attention region reads; what it leaves, viewed back as a matrix by the host,
  is the result. With the attention region's array at the weighted average of Spec, the result is the array the
  reference computes.
-/
import proofs.«157200_j55740085567782_2_alg».proof.Proof.FrameIdeal
import proofs.«157200_j55740085567782_2_alg».proof.Proof.ProjValue
import proofs.«157200_j55740085567782_2_alg».proof.Proof.KernelHost
import proofs.«157200_j55740085567782_2_alg».proof.Proof.RefValue
import proofs.«157200_j55740085567782_2_alg».proof.Proof.PreFacts
import proofs.«157200_j55740085567782_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Proof

variable (m : (ℓ : Loc nD τ sig) → Buf (Elt Ideal) ℓ)

/-! ## The launch arrays at coordinates -/

/-- The input at `(r, k)`. -/
abbrev lX (c : Dev nD) : Fin 16 → Fin 4096 → EReal :=
  fun r k => (m ((c : Thread nD τ).loc main_arg0) : FVec Ideal S16x4096 .f32) (ix2 r k)
/-- The three weight matrices at `(n, k)`. -/
abbrev lWq (c : Dev nD) : Fin 4096 → Fin 4096 → EReal :=
  fun n k => (m ((c : Thread nD τ).loc main_arg1) : FVec Ideal S4096x4096 .f32) (ix2 n k)
abbrev lWk (c : Dev nD) : Fin 4096 → Fin 4096 → EReal :=
  fun n k => (m ((c : Thread nD τ).loc main_arg2) : FVec Ideal S4096x4096 .f32) (ix2 n k)
abbrev lWv (c : Dev nD) : Fin 4096 → Fin 4096 → EReal :=
  fun n k => (m ((c : Thread nD τ).loc main_arg3) : FVec Ideal S4096x4096 .f32) (ix2 n k)
/-- The cached keys and values at `(h, p, d)`. -/
abbrev lcK (c : Dev nD) : Fin 32 → Fin 8192 → Fin 128 → EReal :=
  fun h p d => (m ((c : Thread nD τ).loc main_arg4) : FVec Ideal S32x8192x128 .f32) (ix3 h p d)
abbrev lcV (c : Dev nD) : Fin 32 → Fin 8192 → Fin 128 → EReal :=
  fun h p d => (m ((c : Thread nD τ).loc main_arg5) : FVec Ideal S32x8192x128 .f32) (ix3 h p d)

/-! ## What the attention region finds -/

/-- The queries per head, at `(h, r, d)`. -/
theorem V3_v11_at (c : Dev nD) (h : Fin 32) (r : Fin 16) (d : Fin 128) :
    (V3 m c main_v11 : FVec Ideal S32x16x128 .f32) (ix3 h r d)
      = Spec.proj (Spec.xn (lX m c)) (lWq m c) r (Spec.col h d) := by
  refine (Cert.KernelIdeal.HostValue.hostOps1_v11_at (W2 m c) h r d).trans ?_
  have e : @Eq (FVec Ideal S16x4096 .f32) (W2 m c (Proc.devRef .tc main_v9_0)) ((dats0 m c).arrAt 4 cfg0.N) :=
    W2_arr m c 4
  rw [e]
  exact final_Q_at m c r (Spec.col h d)

/-- The new keys per head, at `(h, r, d)`. -/
theorem V3_v13_at (c : Dev nD) (h : Fin 32) (r : Fin 16) (d : Fin 128) :
    (V3 m c main_v13 : FVec Ideal S32x16x128 .f32) (ix3 h r d)
      = Spec.proj (Spec.xn (lX m c)) (lWk m c) r (Spec.col h d) := by
  refine (Cert.KernelIdeal.HostValue.hostOps1_v13_at (W2 m c) h r d).trans ?_
  have e : @Eq (FVec Ideal S16x4096 .f32) (W2 m c (Proc.devRef .tc main_v9_1)) ((dats0 m c).arrAt 5 cfg0.N) :=
    W2_arr m c 5
  rw [e]
  exact final_K_at m c r (Spec.col h d)

/-- The new values per head, at `(h, r, d)`. -/
theorem V3_v15_at (c : Dev nD) (h : Fin 32) (r : Fin 16) (d : Fin 128) :
    (V3 m c main_v15 : FVec Ideal S32x16x128 .f32) (ix3 h r d)
      = Spec.proj (Spec.xn (lX m c)) (lWv m c) r (Spec.col h d) := by
  refine (Cert.KernelIdeal.HostValue.hostOps1_v15_at (W2 m c) h r d).trans ?_
  have e : @Eq (FVec Ideal S16x4096 .f32) (W2 m c (Proc.devRef .tc main_v9_2)) ((dats0 m c).arrAt 6 cfg0.N) :=
    W2_arr m c 6
  rw [e]
  exact final_V_at m c r (Spec.col h d)

/-- The cached keys are found as launched. -/
theorem V3_arg4 (c : Dev nD) : V3 m c main_arg4 = m ((c : Thread nD τ).loc main_arg4) :=
  calc V3 m c main_arg4
    _ = W2 m c (Proc.devRef .tc main_arg4) := StableHlo.after_of_writes_sub hostOps1 _ hostOps1_writes (by decide)
    _ = W1 m c (Proc.devRef .tc main_arg4) := W2_of_ne m c main_arg4 (by decide)
    _ = m ((c : Thread nD τ).loc main_arg4) := (V1_of m c main_arg4 (by decide)).trans rfl

/-- The cached values are found as launched. -/
theorem V3_arg5 (c : Dev nD) : V3 m c main_arg5 = m ((c : Thread nD τ).loc main_arg5) :=
  calc V3 m c main_arg5
    _ = W2 m c (Proc.devRef .tc main_arg5) := StableHlo.after_of_writes_sub hostOps1 _ hostOps1_writes (by decide)
    _ = W1 m c (Proc.devRef .tc main_arg5) := W2_of_ne m c main_arg5 (by decide)
    _ = m ((c : Thread nD τ).loc main_arg5) := (V1_of m c main_arg5 (by decide)).trans rfl

/-! ## The result -/

/-- THE KERNEL'S RESULT: with the attention region's array at the weighted average of the projections, the result
    array is the whole array of the mathematics. -/
theorem kernel_value_of (c : Dev nD)
    (hp : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1)
    (hattn : ((dats1 (V3 m) c).arrAt 5 cfg1.N : FVec Ideal S32x16x128 .f32) = fun i =>
      Spec.naive (Spec.proj (Spec.xn (lX m c)) (lWq m c)) (Spec.proj (Spec.xn (lX m c)) (lWk m c))
        (Spec.proj (Spec.xn (lX m c)) (lWv m c)) (lcK m c) (lcV m c) (i 0) (i 1) (i 2)) :
    (W5 m c (Proc.devRef .tc main_v18) : FVec Ideal S16x4096 .f32)
      = Cert.ReferenceIdeal.RefValue.outArr (lX m c) (lWq m c) (lWk m c) (lWv m c) (lcK m c) (lcV m c) := by
  funext i
  obtain ⟨r, n, rfl⟩ : ∃ (r : Fin 16) (n : Fin 4096), i = ix2 r n := ⟨i 0, i 1, eq_ix2 i⟩
  have hn := Cert.ReferenceIdeal.RefValue.col_div_mod n
  generalize (⟨n.val / 128, by have := n.isLt; omega⟩ : Fin 32) = h at hn
  generalize (⟨n.val % 128, Nat.mod_lt _ (by decide)⟩ : Fin 128) = d at hn
  subst hn
  rw [Cert.ReferenceIdeal.RefValue.outArr_at]
  refine (Cert.KernelIdeal.HostValue.hostOps2_v18_at (W4 m c) h r d).trans ?_
  have e : @Eq (FVec Ideal S32x16x128 .f32) (W4 m c (Proc.devRef .tc main_v16)) ((dats1 (V3 m) c).arrAt 5 cfg1.N) :=
    W4_arr m c 5
  rw [e, hattn]
  rfl

/-! ## What the precondition gives the attention region -/

/-- Under the precondition the three projections and the cached keys and values are real. -/
theorem reals_of_pre (c : Dev nD)
    (hp : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    (∀ r n, ∃ x : ℝ, Spec.proj (Spec.xn (lX m c)) (lWq m c) r n = (x : EReal))
      ∧ (∀ r n, ∃ x : ℝ, Spec.proj (Spec.xn (lX m c)) (lWk m c) r n = (x : EReal))
      ∧ (∀ r n, ∃ x : ℝ, Spec.proj (Spec.xn (lX m c)) (lWv m c) r n = (x : EReal))
      ∧ (∀ h p d, ∃ x : ℝ, lcK m c h p d = (x : EReal)) ∧ (∀ h p d, ∃ x : ℝ, lcV m c h p d = (x : EReal)) := by
  obtain ⟨-, hq, hk, hv⟩ := Cert.Proof.PreFacts.projs_of_pre _ _ _ _ _ _ hp
  obtain ⟨-, -, -, -, h4, h5, -⟩ := Cert.Proof.PreFacts.coords_of_pre _ _ _ _ _ _ hp
  exact ⟨hq, hk, hv, h4, h5⟩

end Cert.KernelIdeal.Hand

end
-- ==== Proof.AttnBlocks.lean ====
/-
  Where the attention region's blocks sit in their arrays. Grid point t serves head t / 2 and half t % 2 of the cached
  keys. The query block, the new keys' and new values' blocks and the output block are head t / 2's [16, 128] slab; the
  cached keys' and values' blocks are rows (t % 2) * 4096 .. (t % 2) * 4096 + 4095 of head t / 2. The output's blocks,
  written back at the odd points, tile the [32, 16, 128] result array.
-/
import proofs.«157200_j55740085567782_2_alg».proof.Proof.Gen.KernelIdeal.Launch
import proofs.«157200_j55740085567782_2_alg».proof.Proof.Gen.KernelIdeal.Skeleton
import proofs.«157200_j55740085567782_2_alg».proof.Proof.Gen.KernelIdeal.Points
import proofs.«157200_j55740085567782_2_alg».proof.Proof.Gen.KernelIdeal.Regions
import proofs.«157200_j55740085567782_2_alg».proof.Proof.AttnDataIdeal
import Idealize.ShloMosaic.Lib.ValueIdx
import Idealize.ShloMosaic.Lib.Pipeline.Value
import Idealize.ShloMosaic.Lib.Pipeline.FrameBody
import Idealize.ShloMosaic.Lib.Pipeline.FrameSuffix
import Idealize.ShloMosaic.Lib.Ring
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The printed index maps in closed form, decided over the grid. -/
theorem idx1_facts : ∀ t : Fin cfg1.N,
    win1_0.index t (0 : Fin 3) = t.val / 2 ∧ win1_0.index t (1 : Fin 3) = 0 ∧ win1_0.index t (2 : Fin 3) = 0
    ∧ win1_1.index t (0 : Fin 3) = t.val / 2 ∧ win1_1.index t (1 : Fin 3) = t.val % 2 ∧ win1_1.index t (2 : Fin 3) = 0
    ∧ win1_2.index t (0 : Fin 3) = t.val / 2 ∧ win1_2.index t (1 : Fin 3) = t.val % 2 ∧ win1_2.index t (2 : Fin 3) = 0
    ∧ win1_3.index t (0 : Fin 3) = t.val / 2 ∧ win1_3.index t (1 : Fin 3) = 0 ∧ win1_3.index t (2 : Fin 3) = 0
    ∧ win1_4.index t (0 : Fin 3) = t.val / 2 ∧ win1_4.index t (1 : Fin 3) = 0 ∧ win1_4.index t (2 : Fin 3) = 0
    ∧ win1_5.index t (0 : Fin 3) = t.val / 2 ∧ win1_5.index t (1 : Fin 3) = 0 ∧ win1_5.index t (2 : Fin 3) = 0 :=
  (by decide +kernel : ∀ t : Fin grid1.N, _)

/-- The query block at a point is its head's slab of the per-head queries. -/
theorem blk0_at (c : Dev nD) (t : Fin cfg1.N) (hh : Fin 32) (ht : hh.val = t.val / 2) (r : Fin 16) (d : Fin 128) :
    iblk1 V c 0 t (ix3 (0 : Fin 1) r d) = (V c main_v11 : FVec Ideal S32x16x128 .f32) (ix3 hh r d) := by
  obtain ⟨e0, e1, e2, -⟩ := idx1_facts t
  show (V c main_v11 : FVec Ideal S32x16x128 .f32) (((cfg1.win 0).blk t).view.emb (ix3 (0 : Fin 1) r d)) = _
  refine congrArg _ ?_
  funext a; apply Fin.ext
  match a with
  | ⟨0, _⟩ => show win1_0.index t (0 : Fin 3) * 1 + 1 * (0 : Fin 1).val = hh.val; rw [e0, ht]; simp
  | ⟨1, _⟩ => show win1_0.index t (1 : Fin 3) * 16 + 1 * r.val = r.val; rw [e1]; omega
  | ⟨2, _⟩ => show win1_0.index t (2 : Fin 3) * 128 + 1 * d.val = d.val; rw [e2]; omega

/-- The cached keys' block at a point is its half of its head's rows. -/
theorem blk1_at (c : Dev nD) (t : Fin cfg1.N) (hh : Fin 32) (ht : hh.val = t.val / 2) (j : Fin 4096) (pp : Fin 8192)
    (hp : pp.val = (t.val % 2) * 4096 + j.val) (d : Fin 128) :
    iblk1 V c 1 t (ix3 (0 : Fin 1) j d) = (V c main_arg4 : FVec Ideal S32x8192x128 .f32) (ix3 hh pp d) := by
  obtain ⟨-, -, -, e0, e1, e2, -⟩ := idx1_facts t
  show (V c main_arg4 : FVec Ideal S32x8192x128 .f32) (((cfg1.win 1).blk t).view.emb (ix3 (0 : Fin 1) j d)) = _
  refine congrArg _ ?_
  funext a; apply Fin.ext
  match a with
  | ⟨0, _⟩ => show win1_1.index t (0 : Fin 3) * 1 + 1 * (0 : Fin 1).val = hh.val; rw [e0, ht]; simp
  | ⟨1, _⟩ => show win1_1.index t (1 : Fin 3) * 4096 + 1 * j.val = pp.val; rw [e1, hp]; omega
  | ⟨2, _⟩ => show win1_1.index t (2 : Fin 3) * 128 + 1 * d.val = d.val; rw [e2]; omega

/-- The cached values' block likewise. -/
theorem blk2_at (c : Dev nD) (t : Fin cfg1.N) (hh : Fin 32) (ht : hh.val = t.val / 2) (j : Fin 4096) (pp : Fin 8192)
    (hp : pp.val = (t.val % 2) * 4096 + j.val) (d : Fin 128) :
    iblk1 V c 2 t (ix3 (0 : Fin 1) j d) = (V c main_arg5 : FVec Ideal S32x8192x128 .f32) (ix3 hh pp d) := by
  obtain ⟨-, -, -, -, -, -, e0, e1, e2, -⟩ := idx1_facts t
  show (V c main_arg5 : FVec Ideal S32x8192x128 .f32) (((cfg1.win 2).blk t).view.emb (ix3 (0 : Fin 1) j d)) = _
  refine congrArg _ ?_
  funext a; apply Fin.ext
  match a with
  | ⟨0, _⟩ => show win1_2.index t (0 : Fin 3) * 1 + 1 * (0 : Fin 1).val = hh.val; rw [e0, ht]; simp
  | ⟨1, _⟩ => show win1_2.index t (1 : Fin 3) * 4096 + 1 * j.val = pp.val; rw [e1, hp]; omega
  | ⟨2, _⟩ => show win1_2.index t (2 : Fin 3) * 128 + 1 * d.val = d.val; rw [e2]; omega

/-- The new keys' block at a point is its head's slab. -/
theorem blk3_at (c : Dev nD) (t : Fin cfg1.N) (hh : Fin 32) (ht : hh.val = t.val / 2) (r : Fin 16) (d : Fin 128) :
    iblk1 V c 3 t (ix3 (0 : Fin 1) r d) = (V c main_v13 : FVec Ideal S32x16x128 .f32) (ix3 hh r d) := by
  obtain ⟨-, -, -, -, -, -, -, -, -, e0, e1, e2, -⟩ := idx1_facts t
  show (V c main_v13 : FVec Ideal S32x16x128 .f32) (((cfg1.win 3).blk t).view.emb (ix3 (0 : Fin 1) r d)) = _
  refine congrArg _ ?_
  funext a; apply Fin.ext
  match a with
  | ⟨0, _⟩ => show win1_3.index t (0 : Fin 3) * 1 + 1 * (0 : Fin 1).val = hh.val; rw [e0, ht]; simp
  | ⟨1, _⟩ => show win1_3.index t (1 : Fin 3) * 16 + 1 * r.val = r.val; rw [e1]; omega
  | ⟨2, _⟩ => show win1_3.index t (2 : Fin 3) * 128 + 1 * d.val = d.val; rw [e2]; omega

/-- The new values' block likewise. -/
theorem blk4_at (c : Dev nD) (t : Fin cfg1.N) (hh : Fin 32) (ht : hh.val = t.val / 2) (r : Fin 16) (d : Fin 128) :
    iblk1 V c 4 t (ix3 (0 : Fin 1) r d) = (V c main_v15 : FVec Ideal S32x16x128 .f32) (ix3 hh r d) := by
  obtain ⟨-, -, -, -, -, -, -, -, -, -, -, -, e0, e1, e2, -⟩ := idx1_facts t
  show (V c main_v15 : FVec Ideal S32x16x128 .f32) (((cfg1.win 4).blk t).view.emb (ix3 (0 : Fin 1) r d)) = _
  refine congrArg _ ?_
  funext a; apply Fin.ext
  match a with
  | ⟨0, _⟩ => show win1_4.index t (0 : Fin 3) * 1 + 1 * (0 : Fin 1).val = hh.val; rw [e0, ht]; simp
  | ⟨1, _⟩ => show win1_4.index t (1 : Fin 3) * 16 + 1 * r.val = r.val; rw [e1]; omega
  | ⟨2, _⟩ => show win1_4.index t (2 : Fin 3) * 128 + 1 * d.val = d.val; rw [e2]; omega

/-- An index of the result array is in a point's output block iff each coordinate is in the block's range. -/
theorem mem_resultBlock (t : Fin cfg1.N) (i : S32x16x128.Idx) :
    i ∈ ((cfg1.win 5).blk t).view.set ↔ ∀ a : Fin 3, win1_5.index t a * S1x16x128.size a ≤ (i a).val ∧ (i a).val < win1_5.index t a * S1x16x128.size a + S1x16x128.size a := by
  show i ∈ ((View.whole main_v16).slice (win1_5.rect t)).set ↔ _
  rw [View.set_slice_whole, Rect.mem_set_unit]
  exact Iff.rfl

/-- Where an element of a point's output block sits in the result array. -/
theorem emb5_at (t : Fin cfg1.N) (hh : Fin 32) (ht : hh.val = t.val / 2) (r : Fin 16) (d : Fin 128) :
    ((cfg1.win 5).blk t).view.emb (ix3 (0 : Fin 1) r d) = (ix3 hh r d : S32x16x128.Idx) := by
  obtain ⟨-, -, -, -, -, -, -, -, -, -, -, -, -, -, -, e0, e1, e2⟩ := idx1_facts t
  funext a; apply Fin.ext
  match a with
  | ⟨0, _⟩ => show win1_5.index t (0 : Fin 3) * 1 + 1 * (0 : Fin 1).val = hh.val; rw [e0, ht]; simp
  | ⟨1, _⟩ => show win1_5.index t (1 : Fin 3) * 16 + 1 * r.val = r.val; rw [e1]; omega
  | ⟨2, _⟩ => show win1_5.index t (2 : Fin 3) * 128 + 1 * d.val = d.val; rw [e2]; omega

/-- Every index of the result array is in the output block of its head's odd point, which is written back. -/
theorem cover5 (i : S32x16x128.Idx) :
    ∃ t : Fin cfg1.N, (cfg1.win 5).flush t = true ∧ i ∈ ((cfg1.win 5).blk t).view.set := by
  have h0 : (i 0).val < 32 := (i 0).isLt
  have h1 : (i 1).val < 16 := (i 1).isLt
  have h2 : (i 2).val < 128 := (i 2).isLt
  have hN : cfg1.N = 64 := N_1
  have hlt : 2 * (i 0).val + 1 < cfg1.N := by rw [hN]; omega
  refine ⟨⟨2 * (i 0).val + 1, hlt⟩, (flush1_5 _).mpr (by show (2 * (i 0).val + 1) % 2 = 1; omega), ?_⟩
  rw [mem_resultBlock]
  obtain ⟨-, -, -, -, -, -, -, -, -, -, -, -, -, -, -, e0, e1, e2⟩ := idx1_facts ⟨2 * (i 0).val + 1, hlt⟩
  have e0' : win1_5.index ⟨2 * (i 0).val + 1, hlt⟩ (0 : Fin 3) = (i 0).val := by rw [e0]; show (2 * (i 0).val + 1) / 2 = _; omega
  intro a
  match a with
  | ⟨0, _⟩ => show win1_5.index _ (0 : Fin 3) * 1 ≤ (i 0).val ∧ (i 0).val < win1_5.index _ (0 : Fin 3) * 1 + 1; rw [e0']; omega
  | ⟨1, _⟩ => show win1_5.index _ (1 : Fin 3) * 16 ≤ (i 1).val ∧ (i 1).val < win1_5.index _ (1 : Fin 3) * 16 + 16; rw [e1]; omega
  | ⟨2, _⟩ => show win1_5.index _ (2 : Fin 3) * 128 ≤ (i 2).val ∧ (i 2).val < win1_5.index _ (2 : Fin 3) * 128 + 128; rw [e2]; omega

end Cert.KernelIdeal.Hand

end
-- ==== Proof.AttnPayloads.lean ====
/-
  The attention kernel's pure values, read at one coordinate, at the ideal instance.

  One row m of one head: the scores of a block of keys are the inner products of the query row with the key rows
  (a batched matrix product whose batch axis has extent one, contracting the last axis of both operands); the block
  maximum is the fold of max from −∞ over the block's scores; the running maximum is the maximum of the old one and
  the block maximum; the rescaling factor is exp (old − new), the weights are exp (score − new); the running
  denominator is factor · old + Σ weights and the running numerator is factor · old + Σ weight · value (a second
  batched product, contracting the key axis). Format changes are the identity on extended reals, a shape cast to the
  same shape is the identity, the cast [1,a] → [1,a,1] and the broadcast [1,a,1] → [1,a,b] read the row's one entry.
-/
import proofs.«157200_j55740085567782_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Proof.AttnPayloads

open Cert.KernelIdeal Cert.KernelIdeal.Gen Idealize.ShloMosaic Idealize.ShloMosaic.ValueIdx

/-! ### Layout operations at coordinates -/

section Layout
variable {α : Type}

/-- A [1, a] array cast to [1, a, 1] reads, at (u, i, w), the operand at (0, i). -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_three, Shape.rowMajor_val_two]
    show 0 * a + i.val = (u.val * a + i.val) * 1 + w.val
    rw [hu, hw, Nat.zero_mul, Nat.zero_add, Nat.mul_one, Nat.add_zero])

/-- A [1, a, 1] array broadcast to [1, a, b] reads, at (u, p, c), the operand's entry of row p. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (p : Fin a) (c : Fin b) :
    broadcastTo ⟨3, ![1, a, b]⟩ v h (ix3 u p c) = v (ix3 (0 : Fin 1) p (0 : Fin 1)) := by
  refine broadcastTo_apply v h (ix3 u p c) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

end Layout

/-! ### The four batched matrix products at coordinates -/

/-- The scores of a cache block: query rows against 4096 key rows, contracting the 128 features. -/
abbrev DS : DotDims S1x16x128 S1x4096x128 S1x16x4096 := dot_S1x16x128_S1x4096x128_S1x16x4096_2_2_1_1_0_0
theorem lhsS_0 (i : S1x16x4096.Idx) (q : DS.contr.Idx) : (DS.lhsIdx i q 0).val = (i 0).val := by
  unfold DotDims.lhsIdx
  rw [dif_pos (show (0 : Fin S1x16x128.rank) ∈ DS.lhsBatch by decide)]
  rfl
theorem lhsS_1 (i : S1x16x4096.Idx) (q : DS.contr.Idx) : (DS.lhsIdx i q 1).val = (i 1).val := by
  unfold DotDims.lhsIdx
  rw [dif_neg (show ¬(1 : Fin S1x16x128.rank) ∈ DS.lhsBatch by decide), dif_pos (show (1 : Fin S1x16x128.rank) ∈ DS.lhsNonContracting by decide)]
  rfl
theorem lhsS_2 (i : S1x16x4096.Idx) (q : DS.contr.Idx) : (DS.lhsIdx i q 2).val = (q ⟨0, by decide⟩).val :=
  DS.lhsIdx_val_of_single rfl i q
theorem rhsS_0 (i : S1x16x4096.Idx) (q : DS.contr.Idx) : (DS.rhsIdx i q 0).val = (i 0).val := by
  unfold DotDims.rhsIdx
  rw [dif_pos (show (0 : Fin S1x4096x128.rank) ∈ DS.rhsBatch by decide)]
  rfl
theorem rhsS_1 (i : S1x16x4096.Idx) (q : DS.contr.Idx) : (DS.rhsIdx i q 1).val = (i 2).val := by
  unfold DotDims.rhsIdx
  rw [dif_neg (show ¬(1 : Fin S1x4096x128.rank) ∈ DS.rhsBatch by decide), dif_pos (show (1 : Fin S1x4096x128.rank) ∈ DS.rhsNonContracting by decide)]
  rfl
theorem rhsS_2 (i : S1x16x4096.Idx) (q : DS.contr.Idx) : (DS.rhsIdx i q 2).val = (q ⟨0, by decide⟩).val :=
  DS.rhsIdx_val_of_single rfl i q
theorem matmulS_apply (lhs : FVec Ideal S1x16x128 .bf16) (rhs : FVec Ideal S1x4096x128 .bf16) (m : Fin 16) (c : Fin 4096) :
    matmul (F := Ideal) DS none lhs rhs (constant (F := Ideal) S1x16x4096 .f32 0x00000000#32) (ix3 (0 : Fin 1) m c)
      = ∑ k : Fin 128, lhs (ix3 (0 : Fin 1) m k) * rhs (ix3 (0 : Fin 1) c k) := by
  show FloatOps.matmul DS none lhs rhs (constant (F := Ideal) S1x16x4096 .f32 0x00000000#32) (ix3 (0 : Fin 1) m c) = _
  rw [Ideal.matmul_constant_zero_apply, ← Equiv.sum_comp (contrEquiv1 DS 128 rfl rfl).symm]
  refine Finset.sum_congr rfl fun k _ => ?_
  have hk := contrEquiv1_symm_val DS 128 rfl rfl k
  have el : DS.lhsIdx (ix3 (0 : Fin 1) m c) ((contrEquiv1 DS 128 rfl rfl).symm k) = ix3 (0 : Fin 1) m k :=
    funext fun a => Fin.ext (by
      match a with
      | ⟨0, _⟩ => exact lhsS_0 _ _
      | ⟨1, _⟩ => exact lhsS_1 _ _
      | ⟨2, _⟩ => exact (lhsS_2 _ _).trans hk)
  have er : DS.rhsIdx (ix3 (0 : Fin 1) m c) ((contrEquiv1 DS 128 rfl rfl).symm k) = ix3 (0 : Fin 1) c k :=
    funext fun a => Fin.ext (by
      match a with
      | ⟨0, _⟩ => exact rhsS_0 _ _
      | ⟨1, _⟩ => exact rhsS_1 _ _
      | ⟨2, _⟩ => exact (rhsS_2 _ _).trans hk)
  rw [el, er]

/-- The scores of the new keys: query rows against 16 key rows, contracting the 128 features. -/
abbrev DT : DotDims S1x16x128 S1x16x128 S1x16x16 := dot_S1x16x128_S1x16x128_S1x16x16_2_2_1_1_0_0
theorem lhsT_0 (i : S1x16x16.Idx) (q : DT.contr.Idx) : (DT.lhsIdx i q 0).val = (i 0).val := by
  unfold DotDims.lhsIdx
  rw [dif_pos (show (0 : Fin S1x16x128.rank) ∈ DT.lhsBatch by decide)]
  rfl
theorem lhsT_1 (i : S1x16x16.Idx) (q : DT.contr.Idx) : (DT.lhsIdx i q 1).val = (i 1).val := by
  unfold DotDims.lhsIdx
  rw [dif_neg (show ¬(1 : Fin S1x16x128.rank) ∈ DT.lhsBatch by decide), dif_pos (show (1 : Fin S1x16x128.rank) ∈ DT.lhsNonContracting by decide)]
  rfl
theorem lhsT_2 (i : S1x16x16.Idx) (q : DT.contr.Idx) : (DT.lhsIdx i q 2).val = (q ⟨0, by decide⟩).val :=
  DT.lhsIdx_val_of_single rfl i q
theorem rhsT_0 (i : S1x16x16.Idx) (q : DT.contr.Idx) : (DT.rhsIdx i q 0).val = (i 0).val := by
  unfold DotDims.rhsIdx
  rw [dif_pos (show (0 : Fin S1x16x128.rank) ∈ DT.rhsBatch by decide)]
  rfl
theorem rhsT_1 (i : S1x16x16.Idx) (q : DT.contr.Idx) : (DT.rhsIdx i q 1).val = (i 2).val := by
  unfold DotDims.rhsIdx
  rw [dif_neg (show ¬(1 : Fin S1x16x128.rank) ∈ DT.rhsBatch by decide), dif_pos (show (1 : Fin S1x16x128.rank) ∈ DT.rhsNonContracting by decide)]
  rfl
theorem rhsT_2 (i : S1x16x16.Idx) (q : DT.contr.Idx) : (DT.rhsIdx i q 2).val = (q ⟨0, by decide⟩).val :=
  DT.rhsIdx_val_of_single rfl i q
theorem matmulT_apply (lhs : FVec Ideal S1x16x128 .bf16) (rhs : FVec Ideal S1x16x128 .bf16) (m : Fin 16) (c : Fin 16) :
    matmul (F := Ideal) DT none lhs rhs (constant (F := Ideal) S1x16x16 .f32 0x00000000#32) (ix3 (0 : Fin 1) m c)
      = ∑ k : Fin 128, lhs (ix3 (0 : Fin 1) m k) * rhs (ix3 (0 : Fin 1) c k) := by
  show FloatOps.matmul DT none lhs rhs (constant (F := Ideal) S1x16x16 .f32 0x00000000#32) (ix3 (0 : Fin 1) m c) = _
  rw [Ideal.matmul_constant_zero_apply, ← Equiv.sum_comp (contrEquiv1 DT 128 rfl rfl).symm]
  refine Finset.sum_congr rfl fun k _ => ?_
  have hk := contrEquiv1_symm_val DT 128 rfl rfl k
  have el : DT.lhsIdx (ix3 (0 : Fin 1) m c) ((contrEquiv1 DT 128 rfl rfl).symm k) = ix3 (0 : Fin 1) m k :=
    funext fun a => Fin.ext (by
      match a with
      | ⟨0, _⟩ => exact lhsT_0 _ _
      | ⟨1, _⟩ => exact lhsT_1 _ _
      | ⟨2, _⟩ => exact (lhsT_2 _ _).trans hk)
  have er : DT.rhsIdx (ix3 (0 : Fin 1) m c) ((contrEquiv1 DT 128 rfl rfl).symm k) = ix3 (0 : Fin 1) c k :=
    funext fun a => Fin.ext (by
      match a with
      | ⟨0, _⟩ => exact rhsT_0 _ _
      | ⟨1, _⟩ => exact rhsT_1 _ _
      | ⟨2, _⟩ => exact (rhsT_2 _ _).trans hk)
  rw [el, er]

/-- Weights times values over a cache block: contracting the 4096 keys. -/
abbrev DV : DotDims S1x16x4096 S1x4096x128 S1x16x128 := dot_S1x16x4096_S1x4096x128_S1x16x128_2_1_1_2_0_0
theorem lhsV_0 (i : S1x16x128.Idx) (q : DV.contr.Idx) : (DV.lhsIdx i q 0).val = (i 0).val := by
  unfold DotDims.lhsIdx
  rw [dif_pos (show (0 : Fin S1x16x4096.rank) ∈ DV.lhsBatch by decide)]
  rfl
theorem lhsV_1 (i : S1x16x128.Idx) (q : DV.contr.Idx) : (DV.lhsIdx i q 1).val = (i 1).val := by
  unfold DotDims.lhsIdx
  rw [dif_neg (show ¬(1 : Fin S1x16x4096.rank) ∈ DV.lhsBatch by decide), dif_pos (show (1 : Fin S1x16x4096.rank) ∈ DV.lhsNonContracting by decide)]
  rfl
theorem lhsV_2 (i : S1x16x128.Idx) (q : DV.contr.Idx) : (DV.lhsIdx i q 2).val = (q ⟨0, by decide⟩).val :=
  DV.lhsIdx_val_of_single rfl i q
theorem rhsV_0 (i : S1x16x128.Idx) (q : DV.contr.Idx) : (DV.rhsIdx i q 0).val = (i 0).val := by
  unfold DotDims.rhsIdx
  rw [dif_pos (show (0 : Fin S1x4096x128.rank) ∈ DV.rhsBatch by decide)]
  rfl
theorem rhsV_1 (i : S1x16x128.Idx) (q : DV.contr.Idx) : (DV.rhsIdx i q 1).val = (q ⟨0, by decide⟩).val :=
  DV.rhsIdx_val_of_single rfl i q
theorem rhsV_2 (i : S1x16x128.Idx) (q : DV.contr.Idx) : (DV.rhsIdx i q 2).val = (i 2).val := by
  unfold DotDims.rhsIdx
  rw [dif_neg (show ¬(2 : Fin S1x4096x128.rank) ∈ DV.rhsBatch by decide), dif_pos (show (2 : Fin S1x4096x128.rank) ∈ DV.rhsNonContracting by decide)]
  rfl
theorem matmulV_apply (lhs : FVec Ideal S1x16x4096 .bf16) (rhs : FVec Ideal S1x4096x128 .bf16) (m : Fin 16) (c : Fin 128) :
    matmul (F := Ideal) DV none lhs rhs (constant (F := Ideal) S1x16x128 .f32 0x00000000#32) (ix3 (0 : Fin 1) m c)
      = ∑ k : Fin 4096, lhs (ix3 (0 : Fin 1) m k) * rhs (ix3 (0 : Fin 1) k c) := by
  show FloatOps.matmul DV none lhs rhs (constant (F := Ideal) S1x16x128 .f32 0x00000000#32) (ix3 (0 : Fin 1) m c) = _
  rw [Ideal.matmul_constant_zero_apply, ← Equiv.sum_comp (contrEquiv1 DV 4096 rfl rfl).symm]
  refine Finset.sum_congr rfl fun k _ => ?_
  have hk := contrEquiv1_symm_val DV 4096 rfl rfl k
  have el : DV.lhsIdx (ix3 (0 : Fin 1) m c) ((contrEquiv1 DV 4096 rfl rfl).symm k) = ix3 (0 : Fin 1) m k :=
    funext fun a => Fin.ext (by
      match a with
      | ⟨0, _⟩ => exact lhsV_0 _ _
      | ⟨1, _⟩ => exact lhsV_1 _ _
      | ⟨2, _⟩ => exact (lhsV_2 _ _).trans hk)
  have er : DV.rhsIdx (ix3 (0 : Fin 1) m c) ((contrEquiv1 DV 4096 rfl rfl).symm k) = ix3 (0 : Fin 1) k c :=
    funext fun a => Fin.ext (by
      match a with
      | ⟨0, _⟩ => exact rhsV_0 _ _
      | ⟨1, _⟩ => exact (rhsV_1 _ _).trans hk
      | ⟨2, _⟩ => exact rhsV_2 _ _)
  rw [el, er]

/-- Weights times values over the new keys: contracting the 16 keys. -/
abbrev DW : DotDims S1x16x16 S1x16x128 S1x16x128 := dot_S1x16x16_S1x16x128_S1x16x128_2_1_1_2_0_0
theorem lhsW_0 (i : S1x16x128.Idx) (q : DW.contr.Idx) : (DW.lhsIdx i q 0).val = (i 0).val := by
  unfold DotDims.lhsIdx
  rw [dif_pos (show (0 : Fin S1x16x16.rank) ∈ DW.lhsBatch by decide)]
  rfl
theorem lhsW_1 (i : S1x16x128.Idx) (q : DW.contr.Idx) : (DW.lhsIdx i q 1).val = (i 1).val := by
  unfold DotDims.lhsIdx
  rw [dif_neg (show ¬(1 : Fin S1x16x16.rank) ∈ DW.lhsBatch by decide), dif_pos (show (1 : Fin S1x16x16.rank) ∈ DW.lhsNonContracting by decide)]
  rfl
theorem lhsW_2 (i : S1x16x128.Idx) (q : DW.contr.Idx) : (DW.lhsIdx i q 2).val = (q ⟨0, by decide⟩).val :=
  DW.lhsIdx_val_of_single rfl i q
theorem rhsW_0 (i : S1x16x128.Idx) (q : DW.contr.Idx) : (DW.rhsIdx i q 0).val = (i 0).val := by
  unfold DotDims.rhsIdx
  rw [dif_pos (show (0 : Fin S1x16x128.rank) ∈ DW.rhsBatch by decide)]
  rfl
theorem rhsW_1 (i : S1x16x128.Idx) (q : DW.contr.Idx) : (DW.rhsIdx i q 1).val = (q ⟨0, by decide⟩).val :=
  DW.rhsIdx_val_of_single rfl i q
theorem rhsW_2 (i : S1x16x128.Idx) (q : DW.contr.Idx) : (DW.rhsIdx i q 2).val = (i 2).val := by
  unfold DotDims.rhsIdx
  rw [dif_neg (show ¬(2 : Fin S1x16x128.rank) ∈ DW.rhsBatch by decide), dif_pos (show (2 : Fin S1x16x128.rank) ∈ DW.rhsNonContracting by decide)]
  rfl
theorem matmulW_apply (lhs : FVec Ideal S1x16x16 .bf16) (rhs : FVec Ideal S1x16x128 .bf16) (m : Fin 16) (c : Fin 128) :
    matmul (F := Ideal) DW none lhs rhs (constant (F := Ideal) S1x16x128 .f32 0x00000000#32) (ix3 (0 : Fin 1) m c)
      = ∑ k : Fin 16, lhs (ix3 (0 : Fin 1) m k) * rhs (ix3 (0 : Fin 1) k c) := by
  show FloatOps.matmul DW none lhs rhs (constant (F := Ideal) S1x16x128 .f32 0x00000000#32) (ix3 (0 : Fin 1) m c) = _
  rw [Ideal.matmul_constant_zero_apply, ← Equiv.sum_comp (contrEquiv1 DW 16 rfl rfl).symm]
  refine Finset.sum_congr rfl fun k _ => ?_
  have hk := contrEquiv1_symm_val DW 16 rfl rfl k
  have el : DW.lhsIdx (ix3 (0 : Fin 1) m c) ((contrEquiv1 DW 16 rfl rfl).symm k) = ix3 (0 : Fin 1) m k :=
    funext fun a => Fin.ext (by
      match a with
      | ⟨0, _⟩ => exact lhsW_0 _ _
      | ⟨1, _⟩ => exact lhsW_1 _ _
      | ⟨2, _⟩ => exact (lhsW_2 _ _).trans hk)
  have er : DW.rhsIdx (ix3 (0 : Fin 1) m c) ((contrEquiv1 DW 16 rfl rfl).symm k) = ix3 (0 : Fin 1) k c :=
    funext fun a => Fin.ext (by
      match a with
      | ⟨0, _⟩ => exact rhsW_0 _ _
      | ⟨1, _⟩ => exact (rhsW_1 _ _).trans hk
      | ⟨2, _⟩ => exact rhsW_2 _ _)
  rw [el, er]

/-! ### Constants -/

/-- The word 0xFF800000 is minus infinity. -/
theorem ofBits_neg_inf_f32 : Ideal.ofBits .f32 0xFF800000#32 = ⊥ := by simp [Ideal.ofBits, Ideal.ieee]

/-! ### Reductions along the last axis at coordinates -/

/-- The source index over (0, m) with coordinate j on the reduced last axis is (0, m, j). -/
theorem lift_ix2 {b : ℕ} (h : (⟨3, ![1, 16, b]⟩ : Shape).Reduces [2] ⟨2, ![1, 16]⟩) (m : Fin 16)
    (j : Fin ((⟨3, ![1, 16, b]⟩ : Shape).size 2)) :
    h.lift (ix2 (0 : Fin 1) m) j = ix3 (0 : Fin 1) m (j : Fin b) :=
  funext fun c => Fin.ext (by
    match c with
    | ⟨0, _⟩ => rfl
    | ⟨1, _⟩ => rfl
    | ⟨2, _⟩ => rfl)

/-- A maximum-reduction along the last axis from −∞, at row m: the fold of max from −∞ over the row. -/
theorem rowMax_apply {b : ℕ} (src : FVec Ideal ⟨3, ![1, 16, b]⟩ .f32)
    (h : (⟨3, ![1, 16, b]⟩ : Shape).Reduces [2] ⟨2, ![1, 16]⟩) (m : Fin 16) :
    multiReduction (F := Ideal) .maximumf [2] ⟨2, ![1, 16]⟩ src 0xFF800000#32 h (.inl rfl) rfl (ix2 (0 : Fin 1) m)
      = (Finset.univ : Finset (Fin b)).fold max (⊥ : EReal) (fun j => src (ix3 (0 : Fin 1) m j)) := by
  refine (Ideal.multiReduction_maximumf_single src 0xFF800000#32 h (.inl rfl) rfl (ix2 (0 : Fin 1) m)).trans ?_
  have e : (src ∘ h.lift (ix2 (0 : Fin 1) m)) = fun j : Fin b => src (ix3 (0 : Fin 1) m j) :=
    funext fun j => congrArg src (lift_ix2 h m j)
  rw [e]
  exact congrArg (fun t => (Finset.univ : Finset (Fin b)).fold max t (fun j => src (ix3 (0 : Fin 1) m j)))
    ofBits_neg_inf_f32

/-- A sum-reduction along the last axis, at row m: the sum over the row. -/
theorem rowSum_apply {b : ℕ} (src : FVec Ideal ⟨3, ![1, 16, b]⟩ .f32)
    (h : (⟨3, ![1, 16, b]⟩ : Shape).Reduces [2] ⟨2, ![1, 16]⟩) (m : Fin 16) :
    multiReduction (F := Ideal) .add [2] ⟨2, ![1, 16]⟩ src 0x00000000#32 h (.inl rfl) rfl (ix2 (0 : Fin 1) m)
      = ∑ j : Fin b, src (ix3 (0 : Fin 1) m j) := by
  refine (Ideal.multiReduction_add_single src 0x00000000#32 h (.inl rfl) rfl (ix2 (0 : Fin 1) m)).trans ?_
  exact Finset.sum_congr rfl fun j _ => congrArg src (lift_ix2 h m j)

/-! ### The pointwise payloads -/

theorem pay2_eq (v14 : FVec Ideal S1x16x1 .f32) : k1_pay2 (F := Ideal) v14 = v14 :=
  shapeCast_self _ _

theorem pay4_eq : k1_pay4 (F := Ideal) = fun _ => (⊥ : EReal) :=
  (shapeCast_self _ _).trans (funext fun _ => ofBits_neg_inf_f32)

theorem pay5_eq : k1_pay5 (F := Ideal) = fun _ => (0 : EReal) :=
  (shapeCast_self _ _).trans (funext fun _ => Ideal.ofBits_zero_f32)

theorem pay6_eq : k1_pay6 (F := Ideal) = fun _ => (0 : EReal) :=
  (shapeCast_self _ _).trans (funext fun _ => Ideal.ofBits_zero_f32)

theorem pay7_eq (v3 : FVec Ideal S1x16x128 .f32) : k1_pay7 (F := Ideal) v3 = v3 :=
  shapeCast_self v3 _

theorem pay8_eq (v8 : FVec Ideal S1x4096x128 .f32) : k1_pay8 (F := Ideal) v8 = v8 := rfl

/-! ### The payloads of a cache block, at coordinates -/

/-- The scores of a cache block. -/
theorem pay9_apply (v3 : FVec Ideal S1x16x128 .f32) (v6 : FVec Ideal S1x4096x128 .f32) (m : Fin 16) (j : Fin 4096) :
    k1_pay9 (F := Ideal) v3 v6 (ix3 (0 : Fin 1) m j)
      = ∑ d : Fin 128, v3 (ix3 (0 : Fin 1) m d) * v6 (ix3 (0 : Fin 1) j d) :=
  (matmulS_apply (k1_pay7 (F := Ideal) v3) (truncf .bf16 v6 bitsLt_bf16_f32) m j).trans
    (Finset.sum_congr rfl fun d _ =>
      congrArg (· * v6 (ix3 (0 : Fin 1) j d)) (congrFun (pay7_eq v3) (ix3 (0 : Fin 1) m d)))

/-- The new running maximum: the old one against the block's maximum. -/
theorem pay10_apply (v3 : FVec Ideal S1x16x128 .f32) (v6 : FVec Ideal S1x4096x128 .f32) (v11 : FVec Ideal S1x16x1 .f32)
    (m : Fin 16) :
    k1_pay10 (F := Ideal) v3 v6 v11 (ix3 (0 : Fin 1) m (0 : Fin 1))
      = max (v11 (ix3 (0 : Fin 1) m (0 : Fin 1)))
          ((Finset.univ : Finset (Fin 4096)).fold max (⊥ : EReal)
            (fun j => k1_pay9 (F := Ideal) v3 v6 (ix3 (0 : Fin 1) m j))) := by
  unfold k1_pay10
  refine congrArg (max (v11 (ix3 (0 : Fin 1) m (0 : Fin 1)))) ?_
  refine (shapeCast_1a_1a1_apply _ _ (0 : Fin 1) m (0 : Fin 1)).trans ?_
  exact rowMax_apply (k1_pay9 (F := Ideal) v3 v6) _ m

/-- The rescaling factor exp (old maximum − new maximum). -/
theorem pay11_apply (v3 : FVec Ideal S1x16x128 .f32) (v6 : FVec Ideal S1x4096x128 .f32) (v11 v15 : FVec Ideal S1x16x1 .f32)
    (m : Fin 16) :
    k1_pay11 (F := Ideal) v3 v6 v11 v15 (ix3 (0 : Fin 1) m (0 : Fin 1))
      = Ideal.exp (v15 (ix3 (0 : Fin 1) m (0 : Fin 1)) - k1_pay10 (F := Ideal) v3 v6 v11 (ix3 (0 : Fin 1) m (0 : Fin 1))) :=
  rfl

/-- The weights exp (score − new maximum). -/
theorem pay12_apply (v3 : FVec Ideal S1x16x128 .f32) (v6 : FVec Ideal S1x4096x128 .f32) (v11 : FVec Ideal S1x16x1 .f32)
    (m : Fin 16) (j : Fin 4096) :
    k1_pay12 (F := Ideal) v3 v6 v11 (ix3 (0 : Fin 1) m j)
      = Ideal.exp (k1_pay9 (F := Ideal) v3 v6 (ix3 (0 : Fin 1) m j)
          - k1_pay10 (F := Ideal) v3 v6 v11 (ix3 (0 : Fin 1) m (0 : Fin 1))) := by
  unfold k1_pay12
  exact congrArg (fun t => Ideal.exp (k1_pay9 (F := Ideal) v3 v6 (ix3 (0 : Fin 1) m j) - t))
    (broadcastTo_1a1_1ab_apply (k1_pay10 (F := Ideal) v3 v6 v11) _ (0 : Fin 1) m j)

/-- The new running denominator: factor · old + the sum of the weights. -/
theorem pay13_apply (v3 : FVec Ideal S1x16x128 .f32) (v6 : FVec Ideal S1x4096x128 .f32)
    (v11 v15 v21 : FVec Ideal S1x16x1 .f32) (m : Fin 16) :
    k1_pay13 (F := Ideal) v3 v6 v11 v15 v21 (ix3 (0 : Fin 1) m (0 : Fin 1))
      = k1_pay11 (F := Ideal) v3 v6 v11 v15 (ix3 (0 : Fin 1) m (0 : Fin 1)) * v21 (ix3 (0 : Fin 1) m (0 : Fin 1))
        + ∑ j : Fin 4096, k1_pay12 (F := Ideal) v3 v6 v11 (ix3 (0 : Fin 1) m j) := by
  unfold k1_pay13
  refine (congrFun (shapeCast_self _ _) (ix3 (0 : Fin 1) m (0 : Fin 1))).trans ?_
  refine congrArg (k1_pay11 (F := Ideal) v3 v6 v11 v15 (ix3 (0 : Fin 1) m (0 : Fin 1)) * v21 (ix3 (0 : Fin 1) m (0 : Fin 1)) + ·) ?_
  refine (shapeCast_1a_1a1_apply _ _ (0 : Fin 1) m (0 : Fin 1)).trans ?_
  exact rowSum_apply (k1_pay12 (F := Ideal) v3 v6 v11) _ m

/-- The new running numerator: factor · old + Σ weight · value. -/
theorem pay1_apply (v9 : FVec Ideal S1x4096x128 .bf16) (v17 : FVec Ideal S1x16x1 .f32) (v20 : FVec Ideal S1x16x4096 .f32)
    (v29 : FVec Ideal S1x16x128 .f32) (m : Fin 16) (d : Fin 128) :
    k1_pay1 (F := Ideal) v9 v17 v20 v29 (ix3 (0 : Fin 1) m d)
      = v17 (ix3 (0 : Fin 1) m (0 : Fin 1)) * v29 (ix3 (0 : Fin 1) m d)
        + ∑ j : Fin 4096, v20 (ix3 (0 : Fin 1) m j) * v9 (ix3 (0 : Fin 1) j d) := by
  unfold k1_pay1
  refine (congrFun (shapeCast_self _ _) (ix3 (0 : Fin 1) m d)).trans ?_
  show broadcastTo S1x16x128 v17 _ (ix3 (0 : Fin 1) m d) * v29 (ix3 (0 : Fin 1) m d)
      + matmul (F := Ideal) DV none (truncf .bf16 v20 bitsLt_bf16_f32) v9
          (constant (F := Ideal) S1x16x128 .f32 0x00000000#32) (ix3 (0 : Fin 1) m d) = _
  rw [broadcastTo_1a1_1ab_apply v17 _ (0 : Fin 1) m d, matmulV_apply]
  rfl

/-! ### The last step, over the new keys, and the final quotient -/

/-- The scores of the new keys: the inner products of query row m with the 16 new key rows. -/
def s2 (v5 : FVec Ideal S1x16x128 .bf16) (v44 : FVec Ideal S1x16x128 .f32) (m j : Fin 16) : EReal :=
  ∑ d : Fin 128, v5 (ix3 (0 : Fin 1) m d) * v44 (ix3 (0 : Fin 1) j d)

/-- The final maximum: the old running maximum against the new keys' maximum. -/
def mf (v5 : FVec Ideal S1x16x128 .bf16) (v44 : FVec Ideal S1x16x128 .f32) (v51 : FVec Ideal S1x16x1 .f32)
    (m : Fin 16) : EReal :=
  max (v51 (ix3 (0 : Fin 1) m (0 : Fin 1)))
    ((Finset.univ : Finset (Fin 16)).fold max (⊥ : EReal) (fun j => s2 v5 v44 m j))

/-- The last rescaling factor. -/
def a2 (v5 : FVec Ideal S1x16x128 .bf16) (v44 : FVec Ideal S1x16x128 .f32) (v51 v55 : FVec Ideal S1x16x1 .f32)
    (m : Fin 16) : EReal :=
  Ideal.exp (v55 (ix3 (0 : Fin 1) m (0 : Fin 1)) - mf v5 v44 v51 m)

/-- The weights of the new keys. -/
def p2 (v5 : FVec Ideal S1x16x128 .bf16) (v44 : FVec Ideal S1x16x128 .f32) (v51 : FVec Ideal S1x16x1 .f32)
    (m j : Fin 16) : EReal :=
  Ideal.exp (s2 v5 v44 m j - mf v5 v44 v51 m)

/-- The same quantities as vectors, in the kernel's own operations. -/
def sc3 (v5 : FVec Ideal S1x16x128 .bf16) (v44 : FVec Ideal S1x16x128 .f32) : FVec Ideal S1x16x16 .f32 :=
  matmul (F := Ideal) DT none v5
    (truncf .bf16 (shapeCast S1x16x128 v44 shapeCasts_S1x16x128_S1x16x128) bitsLt_bf16_f32)
    (constant (F := Ideal) S1x16x16 .f32 0x00000000#32)

def mx3 (v5 : FVec Ideal S1x16x128 .bf16) (v44 : FVec Ideal S1x16x128 .f32) (v51 : FVec Ideal S1x16x1 .f32) :
    FVec Ideal S1x16x1 .f32 :=
  maximumf v51 (shapeCast S1x16x1
    (multiReduction (F := Ideal) .maximumf [2] S1x16 (sc3 v5 v44) 0xFF800000#32 reduces_S1x16x16_S1x16 (.inl rfl) rfl)
    shapeCasts_S1x16_S1x16x1)

def al3 (v5 : FVec Ideal S1x16x128 .bf16) (v44 : FVec Ideal S1x16x128 .f32) (v51 v55 : FVec Ideal S1x16x1 .f32) :
    FVec Ideal S1x16x1 .f32 :=
  exp (subf v55 (mx3 v5 v44 v51))

def pw3 (v5 : FVec Ideal S1x16x128 .bf16) (v44 : FVec Ideal S1x16x128 .f32) (v51 : FVec Ideal S1x16x1 .f32) :
    FVec Ideal S1x16x16 .f32 :=
  exp (subf (sc3 v5 v44) (broadcastTo S1x16x16 (mx3 v5 v44 v51) broadcasts_S1x16x1_S1x16x16))

def dn3 (v5 : FVec Ideal S1x16x128 .bf16) (v44 : FVec Ideal S1x16x128 .f32) (v51 v55 v61 : FVec Ideal S1x16x1 .f32) :
    FVec Ideal S1x16x1 .f32 :=
  addf (mulf (al3 v5 v44 v51 v55) v61) (shapeCast S1x16x1
    (multiReduction (F := Ideal) .add [2] S1x16 (pw3 v5 v44 v51) 0x00000000#32 reduces_S1x16x16_S1x16 (.inl rfl) rfl)
    shapeCasts_S1x16_S1x16x1)

def nm3 (v5 : FVec Ideal S1x16x128 .bf16) (v44 v47 : FVec Ideal S1x16x128 .f32) (v51 v55 : FVec Ideal S1x16x1 .f32)
    (v66 : FVec Ideal S1x16x128 .f32) : FVec Ideal S1x16x128 .f32 :=
  addf (mulf (broadcastTo S1x16x128 (al3 v5 v44 v51 v55) broadcasts_S1x16x1_S1x16x128) v66)
    (matmul (F := Ideal) DW none (truncf .bf16 (pw3 v5 v44 v51) bitsLt_bf16_f32)
      (truncf .bf16 (shapeCast S1x16x128 v47 shapeCasts_S1x16x128_S1x16x128) bitsLt_bf16_f32)
      (constant (F := Ideal) S1x16x128 .f32 0x00000000#32))

/-- The final payload is the quotient of the numerator vector by the broadcast denominator vector. -/
theorem pay3_eq (v5 : FVec Ideal S1x16x128 .bf16) (v44 v47 : FVec Ideal S1x16x128 .f32)
    (v51 v55 v61 : FVec Ideal S1x16x1 .f32) (v66 : FVec Ideal S1x16x128 .f32) :
    k1_pay3 (F := Ideal) v5 v44 v47 v51 v55 v61 v66
      = divf (nm3 v5 v44 v47 v51 v55 v66)
          (broadcastTo S1x16x128 (dn3 v5 v44 v51 v55 v61) broadcasts_S1x16x1_S1x16x128) := rfl

theorem sc3_apply (v5 : FVec Ideal S1x16x128 .bf16) (v44 : FVec Ideal S1x16x128 .f32) (m j : Fin 16) :
    sc3 v5 v44 (ix3 (0 : Fin 1) m j) = s2 v5 v44 m j := by
  unfold sc3 s2
  refine (matmulT_apply v5 _ m j).trans ?_
  refine Finset.sum_congr rfl fun d _ => congrArg (v5 (ix3 (0 : Fin 1) m d) * ·) ?_
  exact congrFun (shapeCast_self v44 _) (ix3 (0 : Fin 1) j d)

theorem mx3_apply (v5 : FVec Ideal S1x16x128 .bf16) (v44 : FVec Ideal S1x16x128 .f32) (v51 : FVec Ideal S1x16x1 .f32)
    (m : Fin 16) : mx3 v5 v44 v51 (ix3 (0 : Fin 1) m (0 : Fin 1)) = mf v5 v44 v51 m := by
  unfold mx3 mf
  refine congrArg (max (v51 (ix3 (0 : Fin 1) m (0 : Fin 1)))) ?_
  refine (shapeCast_1a_1a1_apply _ _ (0 : Fin 1) m (0 : Fin 1)).trans ?_
  refine (rowMax_apply (sc3 v5 v44) _ m).trans ?_
  exact congrArg (fun f => (Finset.univ : Finset (Fin 16)).fold max (⊥ : EReal) f)
    (funext fun j => sc3_apply v5 v44 m j)

theorem al3_apply (v5 : FVec Ideal S1x16x128 .bf16) (v44 : FVec Ideal S1x16x128 .f32) (v51 v55 : FVec Ideal S1x16x1 .f32)
    (m : Fin 16) : al3 v5 v44 v51 v55 (ix3 (0 : Fin 1) m (0 : Fin 1)) = a2 v5 v44 v51 v55 m := by
  unfold al3 a2
  exact congrArg (fun t => Ideal.exp (v55 (ix3 (0 : Fin 1) m (0 : Fin 1)) - t)) (mx3_apply v5 v44 v51 m)

theorem pw3_apply (v5 : FVec Ideal S1x16x128 .bf16) (v44 : FVec Ideal S1x16x128 .f32) (v51 : FVec Ideal S1x16x1 .f32)
    (m j : Fin 16) : pw3 v5 v44 v51 (ix3 (0 : Fin 1) m j) = p2 v5 v44 v51 m j := by
  unfold pw3 p2
  show Ideal.exp (sc3 v5 v44 (ix3 (0 : Fin 1) m j)
    - broadcastTo S1x16x16 (mx3 v5 v44 v51) broadcasts_S1x16x1_S1x16x16 (ix3 (0 : Fin 1) m j)) = _
  rw [broadcastTo_1a1_1ab_apply (mx3 v5 v44 v51) _ (0 : Fin 1) m j, sc3_apply, mx3_apply]

theorem dn3_apply (v5 : FVec Ideal S1x16x128 .bf16) (v44 : FVec Ideal S1x16x128 .f32) (v51 v55 v61 : FVec Ideal S1x16x1 .f32)
    (m : Fin 16) :
    dn3 v5 v44 v51 v55 v61 (ix3 (0 : Fin 1) m (0 : Fin 1))
      = a2 v5 v44 v51 v55 m * v61 (ix3 (0 : Fin 1) m (0 : Fin 1)) + ∑ j : Fin 16, p2 v5 v44 v51 m j := by
  unfold dn3
  refine congrArg₂ (· + ·) (congrArg (· * v61 (ix3 (0 : Fin 1) m (0 : Fin 1))) (al3_apply v5 v44 v51 v55 m)) ?_
  refine (shapeCast_1a_1a1_apply _ _ (0 : Fin 1) m (0 : Fin 1)).trans ?_
  refine (rowSum_apply (pw3 v5 v44 v51) _ m).trans ?_
  exact Finset.sum_congr rfl fun j _ => pw3_apply v5 v44 v51 m j

theorem nm3_apply (v5 : FVec Ideal S1x16x128 .bf16) (v44 v47 : FVec Ideal S1x16x128 .f32) (v51 v55 : FVec Ideal S1x16x1 .f32)
    (v66 : FVec Ideal S1x16x128 .f32) (m : Fin 16) (d : Fin 128) :
    nm3 v5 v44 v47 v51 v55 v66 (ix3 (0 : Fin 1) m d)
      = a2 v5 v44 v51 v55 m * v66 (ix3 (0 : Fin 1) m d)
        + ∑ j : Fin 16, p2 v5 v44 v51 m j * v47 (ix3 (0 : Fin 1) j d) := by
  unfold nm3
  refine congrArg₂ (· + ·) ?_ ?_
  · refine congrArg (· * v66 (ix3 (0 : Fin 1) m d)) ?_
    exact (broadcastTo_1a1_1ab_apply (al3 v5 v44 v51 v55) _ (0 : Fin 1) m d).trans (al3_apply v5 v44 v51 v55 m)
  · refine (matmulW_apply _ _ m d).trans ?_
    refine Finset.sum_congr rfl fun j _ => congrArg₂ (· * ·) (pw3_apply v5 v44 v51 m j) ?_
    exact congrFun (shapeCast_self v47 _) (ix3 (0 : Fin 1) j d)

/-- The final payload at (0, m, d): the running numerator over the running denominator after the new keys. -/
theorem pay3_apply (v5 : FVec Ideal S1x16x128 .bf16) (v44 v47 : FVec Ideal S1x16x128 .f32)
    (v51 v55 v61 : FVec Ideal S1x16x1 .f32) (v66 : FVec Ideal S1x16x128 .f32) (m : Fin 16) (d : Fin 128) :
    k1_pay3 (F := Ideal) v5 v44 v47 v51 v55 v61 v66 (ix3 (0 : Fin 1) m d)
      = Ideal.div
          (a2 v5 v44 v51 v55 m * v66 (ix3 (0 : Fin 1) m d)
            + ∑ j : Fin 16, p2 v5 v44 v51 m j * v47 (ix3 (0 : Fin 1) j d))
          (a2 v5 v44 v51 v55 m * v61 (ix3 (0 : Fin 1) m (0 : Fin 1)) + ∑ j : Fin 16, p2 v5 v44 v51 m j) :=
  (congrFun (pay3_eq v5 v44 v47 v51 v55 v61 v66) (ix3 (0 : Fin 1) m d)).trans
    (congrArg₂ Ideal.div (nm3_apply v5 v44 v47 v51 v55 v66 m d)
      ((broadcastTo_1a1_1ab_apply (dn3 v5 v44 v51 v55 v61) _ (0 : Fin 1) m d).trans
        (dn3_apply v5 v44 v51 v55 v61 m)))

end Cert.Proof.AttnPayloads

end
-- ==== Proof.LibOnlineSoftmax.lean ====
/-
  Softmax weights against a real level, on the extended reals.

  A softmax over scores that may be −∞ (a masked position) is computed against a level m, a real number such as the
  maximum of the scores seen so far: a real score x weighs exp (x − m) and a score −∞ weighs 0. This file names that
  real weight, ew x m, and proves the three facts a running ("online") softmax rests on, for any scores and levels:

  * the extended exponential of (x − m) IS the weight ew x m, for every score x other than +∞ (exp_sub_coe);
  * moving the level from m to m' multiplies every weight by the one factor exp (m − m') (ew_rescale), which is why a
    running sum of weights kept against an old maximum is carried to a new maximum by one multiplication;
  * the inclusion of the reals in the extended reals commutes with finite sums (coe_sum), so a sum of such weights, or
    of weights times real values, is the inclusion of a real sum.
-/
import Mathlib.Data.EReal.Operations
import Mathlib.Analysis.SpecialFunctions.Exp
import Idealize.ShloMosaic.PureOps.Ideal

noncomputable section

open scoped BigOperators

namespace Cert.OnlineSoftmax

open Idealize.ShloMosaic

/-- The weight of an extended score x against a real level m: exp (x − m) for a real x, 0 for −∞. -/
def ew (x : EReal) (m : ℝ) : ℝ := if x = ⊥ then 0 else Real.exp (x.toReal - m)

theorem ew_bot (m : ℝ) : ew ⊥ m = 0 := if_pos rfl

theorem ew_coe (r m : ℝ) : ew (r : EReal) m = Real.exp (r - m) := by
  rw [ew, if_neg (EReal.coe_ne_bot r), EReal.toReal_coe]

theorem ew_nonneg (x : EReal) (m : ℝ) : 0 ≤ ew x m := by
  unfold ew
  split_ifs
  · exact le_rfl
  · exact (Real.exp_pos _).le

/-- The extended exponential of (score − real level) is the real weight, for every score other than +∞. -/
theorem exp_sub_coe {x : EReal} (hx : x ≠ ⊤) (m : ℝ) :
    Ideal.exp (x - (m : EReal)) = ((ew x m : ℝ) : EReal) := by
  induction x using EReal.rec with
  | bot => rw [EReal.bot_sub, Ideal.exp_bot, ew_bot, EReal.coe_zero]
  | coe r => rw [← EReal.coe_sub, Ideal.exp_coe, ew_coe]
  | top => exact absurd rfl hx

/-- Changing the level from m to m' multiplies the weight by exp (m − m'). -/
theorem ew_rescale (x : EReal) (m m' : ℝ) : Real.exp (m - m') * ew x m = ew x m' := by
  unfold ew
  split_ifs
  · exact mul_zero _
  · rw [← Real.exp_add]; congr 1; ring

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.OnlineSoftmax

end
-- ==== Proof.OnlineRow.lean ====
/-
  The running ("online") softmax of one row, in three blocks, equals the plain softmax-weighted sum.

  A row of real scores is cut into three finite blocks (s0, s1, s2) with real values (v0, v1, v2). The running
  computation keeps, against a real level c, the sum l of the weights exp (s − c) seen so far and the sum acc of
  weight × value; moving the level from c to c' multiplies both by the one factor exp (c − c'). After the three
  blocks acc / l is the softmax-weighted mean of the values, whatever the three levels were: the common factor
  exp (−c3) cancels. All quantities are real numbers included in the extended reals, so the algebra is done in ℝ.

  Also here: the maximum of −∞ and a real, and of two reals, is a real; the maximum of finitely many (at least one)
  reals, taken in the extended reals starting from −∞, is the inclusion of a real.
-/
import Mathlib.Data.EReal.Operations
import Mathlib.Data.EReal.Inv
import Mathlib.Analysis.SpecialFunctions.Exp
import Idealize.ShloMosaic.PureOps.Ideal
import proofs.«157200_j55740085567782_2_alg».proof.Proof.LibOnlineSoftmax

noncomputable section

open scoped BigOperators

namespace Cert.Proof.OnlineRow

open Idealize.ShloMosaic
open Cert.OnlineSoftmax

/-! ### Exponentials and sums of reals, read in the extended reals -/

theorem exp_coe_sub (x c : ℝ) :
    Ideal.exp ((x : EReal) - (c : EReal)) = ((Real.exp (x - c) : ℝ) : EReal) := by
  rw [← EReal.coe_sub, Ideal.exp_coe]

theorem exp_bot_sub (c : ℝ) : Ideal.exp ((⊥ : EReal) - (c : EReal)) = 0 := by
  rw [EReal.bot_sub, Ideal.exp_bot]

theorem sum_exp {ι : Type} [Fintype ι] (s : ι → ℝ) :
    ∑ j, Ideal.exp ((s j : ℝ) : EReal) = ((∑ j, Real.exp (s j) : ℝ) : EReal) := by
  rw [coe_sum]
  exact Finset.sum_congr rfl fun j _ => Ideal.exp_coe (s j)

theorem sum_exp_sub {ι : Type} [Fintype ι] (s : ι → ℝ) (c : ℝ) :
    ∑ j, Ideal.exp ((s j : EReal) - (c : EReal)) = ((∑ j, Real.exp (s j - c) : ℝ) : EReal) := by
  rw [coe_sum]
  exact Finset.sum_congr rfl fun j _ => exp_coe_sub (s j) c

theorem sum_exp_sub_mul {ι : Type} [Fintype ι] (s v : ι → ℝ) (c : ℝ) :
    ∑ j, Ideal.exp ((s j : EReal) - (c : EReal)) * (v j : EReal)
      = ((∑ j, Real.exp (s j - c) * v j : ℝ) : EReal) := by
  rw [coe_sum]
  refine Finset.sum_congr rfl fun j _ => ?_
  rw [exp_coe_sub, ← EReal.coe_mul]

/-- Division of a real by a nonzero real, in the extended reals, is the real quotient. -/
theorem div_coe_coe (a : ℝ) {l : ℝ} (hl : l ≠ 0) :
    Ideal.div (a : EReal) (l : EReal) = ((a / l : ℝ) : EReal) := by
  rw [Ideal.div_coe hl, ← EReal.coe_mul, mul_one_div]

theorem sum_div_exp_mul {ι : Type} [Fintype ι] (s v : ι → ℝ) {T : ℝ} (hT : T ≠ 0) :
    ∑ j, Ideal.div (Ideal.exp ((s j : ℝ) : EReal)) (T : EReal) * (v j : EReal)
      = ((∑ j, Real.exp (s j) / T * v j : ℝ) : EReal) := by
  rw [coe_sum]
  refine Finset.sum_congr rfl fun j _ => ?_
  rw [Ideal.exp_coe, div_coe_coe _ hT, ← EReal.coe_mul]

/-! ### The real identities -/

/-- A sum of weights against the level c is exp (−c) times the sum of the plain exponentials. -/
theorem real_sum_exp_sub {ι : Type} [Fintype ι] (s : ι → ℝ) (c : ℝ) :
    ∑ j, Real.exp (s j - c) = Real.exp (-c) * ∑ j, Real.exp (s j) := by
  rw [Finset.mul_sum]
  refine Finset.sum_congr rfl fun j _ => ?_
  rw [← Real.exp_add]; congr 1; ring

theorem real_sum_exp_sub_mul {ι : Type} [Fintype ι] (s v : ι → ℝ) (c : ℝ) :
    ∑ j, Real.exp (s j - c) * v j = Real.exp (-c) * ∑ j, Real.exp (s j) * v j := by
  rw [Finset.mul_sum]
  refine Finset.sum_congr rfl fun j _ => ?_
  rw [← mul_assoc, ← Real.exp_add]; congr 2; ring

/-- Carrying a quantity exp (−c) · E from the level c to the level c'. -/
theorem real_rescale (c c' E : ℝ) :
    Real.exp (c - c') * (Real.exp (-c) * E) = Real.exp (-c') * E := by
  rw [← mul_assoc, ← Real.exp_add]; congr 2; ring

/-- The three-block running sum against the levels c1, c2, c3 is exp (−c3) times the plain total. -/
theorem real_three (c1 c2 c3 E0 E1 E2 : ℝ) :
    Real.exp (c2 - c3) * (Real.exp (c1 - c2) * (Real.exp (-c1) * E0) + Real.exp (-c2) * E1)
        + Real.exp (-c3) * E2
      = Real.exp (-c3) * (E0 + E1 + E2) := by
  rw [real_rescale c1 c2 E0, ← mul_add, real_rescale c2 c3 (E0 + E1), ← mul_add]

/-! ### Three running steps, each block sum already known as a real -/

/-- Three steps of a running sum, started from 0 at the level −∞ and carried through the real levels c1, c2, c3,
    when the block sums B0, B1, B2 are the reals exp (−c1) · E0, exp (−c2) · E1, exp (−c3) · E2: the result is the
    real exp (−c3) · (E0 + E1 + E2). -/
theorem three_coe (c1 c2 c3 E0 E1 E2 : ℝ) {x1 x2 x3 B0 B1 B2 : EReal}
    (hB0 : B0 = ((Real.exp (-c1) * E0 : ℝ) : EReal))
    (hB1 : B1 = ((Real.exp (-c2) * E1 : ℝ) : EReal))
    (hB2 : B2 = ((Real.exp (-c3) * E2 : ℝ) : EReal))
    (h1 : x1 = Ideal.exp ((⊥ : EReal) - (c1 : EReal)) * 0 + B0)
    (h2 : x2 = Ideal.exp ((c1 : EReal) - (c2 : EReal)) * x1 + B1)
    (h3 : x3 = Ideal.exp ((c2 : EReal) - (c3 : EReal)) * x2 + B2) :
    x3 = ((Real.exp (-c3) * (E0 + E1 + E2) : ℝ) : EReal) := by
  have e1 : x1 = ((Real.exp (-c1) * E0 : ℝ) : EReal) := by
    rw [h1, exp_bot_sub, mul_zero, zero_add, hB0]
  have e2 : x2 = ((Real.exp (c1 - c2) * (Real.exp (-c1) * E0) + Real.exp (-c2) * E1 : ℝ) : EReal) := by
    rw [h2, e1, hB1, exp_coe_sub, ← EReal.coe_mul, ← EReal.coe_add]
  rw [h3, e2, hB2, exp_coe_sub, ← EReal.coe_mul, ← EReal.coe_add, real_three]

/-- The softmax-weighted sum of one block, as a real: Σ (exp s / T) · v = (Σ exp s · v) / T. -/
theorem real_sum_div_mul {ι : Type} [Fintype ι] (s v : ι → ℝ) (T : ℝ) :
    ∑ j, Real.exp (s j) / T * v j = (∑ j, Real.exp (s j) * v j) / T := by
  rw [Finset.sum_div]
  exact Finset.sum_congr rfl fun j _ => div_mul_eq_mul_div _ _ _

theorem real_sum_exp_pos {ι : Type} [Fintype ι] [Nonempty ι] (s : ι → ℝ) : 0 < ∑ j, Real.exp (s j) :=
  Finset.sum_pos (fun j _ => Real.exp_pos (s j)) Finset.univ_nonempty

theorem real_sum_exp_nonneg {ι : Type} [Fintype ι] (s : ι → ℝ) : 0 ≤ ∑ j, Real.exp (s j) :=
  Finset.sum_nonneg fun j _ => (Real.exp_pos (s j)).le

/-! ### The main identity -/

/-- The running softmax of one row over three blocks, against arbitrary real levels c1, c2, c3, is the plain
    softmax-weighted sum of the values. The last block is nonempty, so the normaliser is positive. -/
theorem online_eq {ι0 ι1 ι2 : Type} [Fintype ι0] [Fintype ι1] [Fintype ι2] [Nonempty ι2]
    (s0 v0 : ι0 → ℝ) (s1 v1 : ι1 → ℝ) (s2 v2 : ι2 → ℝ) (c1 c2 c3 : ℝ)
    {l1 l2 l3 a1 a2 a3 S : EReal}
    (hl1 : l1 = Ideal.exp ((⊥ : EReal) - (c1 : EReal)) * 0
              + ∑ j, Ideal.exp ((s0 j : EReal) - (c1 : EReal)))
    (ha1 : a1 = Ideal.exp ((⊥ : EReal) - (c1 : EReal)) * 0
              + ∑ j, Ideal.exp ((s0 j : EReal) - (c1 : EReal)) * (v0 j : EReal))
    (hl2 : l2 = Ideal.exp ((c1 : EReal) - (c2 : EReal)) * l1
              + ∑ j, Ideal.exp ((s1 j : EReal) - (c2 : EReal)))
    (ha2 : a2 = Ideal.exp ((c1 : EReal) - (c2 : EReal)) * a1
              + ∑ j, Ideal.exp ((s1 j : EReal) - (c2 : EReal)) * (v1 j : EReal))
    (hl3 : l3 = Ideal.exp ((c2 : EReal) - (c3 : EReal)) * l2
              + ∑ j, Ideal.exp ((s2 j : EReal) - (c3 : EReal)))
    (ha3 : a3 = Ideal.exp ((c2 : EReal) - (c3 : EReal)) * a2
              + ∑ j, Ideal.exp ((s2 j : EReal) - (c3 : EReal)) * (v2 j : EReal))
    (hS : S = ∑ j, Ideal.exp ((s0 j : ℝ) : EReal) + ∑ j, Ideal.exp ((s1 j : ℝ) : EReal)
              + ∑ j, Ideal.exp ((s2 j : ℝ) : EReal)) :
    Ideal.div a3 l3
      = ∑ j, Ideal.div (Ideal.exp ((s0 j : ℝ) : EReal)) S * (v0 j : EReal)
        + ∑ j, Ideal.div (Ideal.exp ((s1 j : ℝ) : EReal)) S * (v1 j : EReal)
        + ∑ j, Ideal.div (Ideal.exp ((s2 j : ℝ) : EReal)) S * (v2 j : EReal) := by
  have hl : l3 = ((Real.exp (-c3) * (∑ j, Real.exp (s0 j) + ∑ j, Real.exp (s1 j) + ∑ j, Real.exp (s2 j)) : ℝ)
      : EReal) :=
    three_coe c1 c2 c3 _ _ _
      (by rw [sum_exp_sub, real_sum_exp_sub]) (by rw [sum_exp_sub, real_sum_exp_sub])
      (by rw [sum_exp_sub, real_sum_exp_sub]) hl1 hl2 hl3
  have ha : a3 = ((Real.exp (-c3) * (∑ j, Real.exp (s0 j) * v0 j + ∑ j, Real.exp (s1 j) * v1 j
      + ∑ j, Real.exp (s2 j) * v2 j) : ℝ) : EReal) :=
    three_coe c1 c2 c3 _ _ _
      (by rw [sum_exp_sub_mul, real_sum_exp_sub_mul]) (by rw [sum_exp_sub_mul, real_sum_exp_sub_mul])
      (by rw [sum_exp_sub_mul, real_sum_exp_sub_mul]) ha1 ha2 ha3
  have hT : 0 < ∑ j, Real.exp (s0 j) + ∑ j, Real.exp (s1 j) + ∑ j, Real.exp (s2 j) :=
    add_pos_of_nonneg_of_pos (add_nonneg (real_sum_exp_nonneg s0) (real_sum_exp_nonneg s1))
      (real_sum_exp_pos s2)
  have hS' : S = ((∑ j, Real.exp (s0 j) + ∑ j, Real.exp (s1 j) + ∑ j, Real.exp (s2 j) : ℝ) : EReal) := by
    rw [hS, sum_exp, sum_exp, sum_exp, ← EReal.coe_add, ← EReal.coe_add]
  rw [hl, ha, hS', div_coe_coe _ (mul_pos (Real.exp_pos _) hT).ne',
    sum_div_exp_mul s0 v0 hT.ne', sum_div_exp_mul s1 v1 hT.ne', sum_div_exp_mul s2 v2 hT.ne',
    ← EReal.coe_add, ← EReal.coe_add, real_sum_div_mul, real_sum_div_mul, real_sum_div_mul,
    mul_div_mul_left _ _ (Real.exp_pos (-c3)).ne', add_div, add_div]

/-- The main identity with every product written in the other order. -/
theorem online_eq_comm {ι0 ι1 ι2 : Type} [Fintype ι0] [Fintype ι1] [Fintype ι2] [Nonempty ι2]
    (s0 v0 : ι0 → ℝ) (s1 v1 : ι1 → ℝ) (s2 v2 : ι2 → ℝ) (c1 c2 c3 : ℝ)
    {l1 l2 l3 a1 a2 a3 S : EReal}
    (hl1 : l1 = 0 * Ideal.exp ((⊥ : EReal) - (c1 : EReal))
              + ∑ j, Ideal.exp ((s0 j : EReal) - (c1 : EReal)))
    (ha1 : a1 = 0 * Ideal.exp ((⊥ : EReal) - (c1 : EReal))
              + ∑ j, (v0 j : EReal) * Ideal.exp ((s0 j : EReal) - (c1 : EReal)))
    (hl2 : l2 = l1 * Ideal.exp ((c1 : EReal) - (c2 : EReal))
              + ∑ j, Ideal.exp ((s1 j : EReal) - (c2 : EReal)))
    (ha2 : a2 = a1 * Ideal.exp ((c1 : EReal) - (c2 : EReal))
              + ∑ j, (v1 j : EReal) * Ideal.exp ((s1 j : EReal) - (c2 : EReal)))
    (hl3 : l3 = l2 * Ideal.exp ((c2 : EReal) - (c3 : EReal))
              + ∑ j, Ideal.exp ((s2 j : EReal) - (c3 : EReal)))
    (ha3 : a3 = a2 * Ideal.exp ((c2 : EReal) - (c3 : EReal))
              + ∑ j, (v2 j : EReal) * Ideal.exp ((s2 j : EReal) - (c3 : EReal)))
    (hS : S = ∑ j, Ideal.exp ((s0 j : ℝ) : EReal) + ∑ j, Ideal.exp ((s1 j : ℝ) : EReal)
              + ∑ j, Ideal.exp ((s2 j : ℝ) : EReal)) :
    Ideal.div a3 l3
      = ∑ j, (v0 j : EReal) * Ideal.div (Ideal.exp ((s0 j : ℝ) : EReal)) S
        + ∑ j, (v1 j : EReal) * Ideal.div (Ideal.exp ((s1 j : ℝ) : EReal)) S
        + ∑ j, (v2 j : EReal) * Ideal.div (Ideal.exp ((s2 j : ℝ) : EReal)) S := by
  rw [online_eq s0 v0 s1 v1 s2 v2 c1 c2 c3
    (hl1.trans (by rw [mul_comm])) (ha1.trans (by simp only [mul_comm]))
    (hl2.trans (by rw [mul_comm])) (ha2.trans (by simp only [mul_comm]))
    (hl3.trans (by rw [mul_comm])) (ha3.trans (by simp only [mul_comm])) hS]
  simp only [mul_comm]

/-! ### Maxima of reals in the extended reals -/

/-- The maximum of −∞ and a real is that real. -/
theorem max_bot_coe (r : ℝ) : max (⊥ : EReal) (r : EReal) = (r : EReal) := max_bot_left _

theorem max_coe_bot (r : ℝ) : max (r : EReal) (⊥ : EReal) = (r : EReal) := max_bot_right _

/-- The maximum of two reals, taken in the extended reals, is the real maximum. -/
theorem max_coe_coe (a b : ℝ) : max (a : EReal) (b : EReal) = ((max a b : ℝ) : EReal) :=
  (EReal.coe_strictMono.monotone.map_max).symm

/-- The maximum of finitely many (at least one) reals, folded in the extended reals from −∞, is the real maximum. -/
theorem fold_max_coe {ι : Type} (s : Finset ι) (hs : s.Nonempty) (f : ι → ℝ) :
    s.fold max (⊥ : EReal) (fun j => (f j : EReal)) = ((s.sup' hs f : ℝ) : EReal) := by
  induction hs using Finset.Nonempty.cons_induction with
  | singleton a => rw [Finset.fold_singleton, Finset.sup'_singleton, max_coe_bot]
  | cons a s ha hs ih => rw [Finset.fold_cons, ih, Finset.sup'_cons hs, max_coe_coe]

/-- The same when the folded family is only known to agree with real numbers on the set. -/
theorem fold_max_eq_coe {ι : Type} (s : Finset ι) (hs : s.Nonempty) (g : ι → EReal) (f : ι → ℝ)
    (hg : ∀ j ∈ s, g j = (f j : EReal)) :
    s.fold max (⊥ : EReal) g = ((s.sup' hs f : ℝ) : EReal) := by
  rw [← fold_max_coe s hs f]
  exact Finset.fold_congr hg

theorem exists_real_fold_max {ι : Type} (s : Finset ι) (hs : s.Nonempty) (g : ι → EReal) (f : ι → ℝ)
    (hg : ∀ j ∈ s, g j = (f j : EReal)) : ∃ r : ℝ, s.fold max (⊥ : EReal) g = (r : EReal) :=
  ⟨_, fold_max_eq_coe s hs g f hg⟩

/-- The supremum form of the same fact. -/
theorem sup_coe {ι : Type} (s : Finset ι) (hs : s.Nonempty) (f : ι → ℝ) :
    s.sup (fun j => (f j : EReal)) = ((s.sup' hs f : ℝ) : EReal) := by
  induction hs using Finset.Nonempty.cons_induction with
  | singleton a => rw [Finset.sup_singleton, Finset.sup'_singleton]
  | cons a s ha hs ih => rw [Finset.sup_cons, ih, Finset.sup'_cons hs]; exact max_coe_coe _ _

theorem univ_fold_max_coe {ι : Type} [Fintype ι] [Nonempty ι] (f : ι → ℝ) :
    Finset.univ.fold max (⊥ : EReal) (fun j => (f j : EReal))
      = ((Finset.univ.sup' Finset.univ_nonempty f : ℝ) : EReal) :=
  fold_max_coe _ _ f

theorem univ_sup_coe {ι : Type} [Fintype ι] [Nonempty ι] (f : ι → ℝ) :
    Finset.univ.sup (fun j => (f j : EReal)) = ((Finset.univ.sup' Finset.univ_nonempty f : ℝ) : EReal) :=
  sup_coe _ _ f

/-- A running maximum that starts at −∞ or at a real and meets a real block maximum is a real. -/
theorem exists_real_max_bot {ι : Type} (s : Finset ι) (hs : s.Nonempty) (f : ι → ℝ) :
    max (⊥ : EReal) (s.fold max (⊥ : EReal) (fun j => (f j : EReal))) = ((s.sup' hs f : ℝ) : EReal) := by
  rw [fold_max_coe s hs f, max_bot_coe]

theorem max_coe_fold {ι : Type} (m : ℝ) (s : Finset ι) (hs : s.Nonempty) (f : ι → ℝ) :
    max (m : EReal) (s.fold max (⊥ : EReal) (fun j => (f j : EReal)))
      = ((max m (s.sup' hs f) : ℝ) : EReal) := by
  rw [fold_max_coe s hs f, max_coe_coe]

end Cert.Proof.OnlineRow

end
-- ==== Proof.AttnPieces.lean ====
/-
  What the attention kernel's body leaves behind, as values. On the first half of a head the three kept buffers end
  with the running maximum, the normaliser and the accumulator over the half's 4096 cached keys, computed from the
  reset values (minus infinity, zero, zero): every load of a kept buffer comes after the reset's store into it. On the
  second half they are updated from what the first half left, and the output is the final quotient over the 16 new
  keys, computed from the updated values: the last step loads the kept buffers after this point's stores.
  Each is the payload of the one covering store, with every load read through the whole buffer.
-/
import proofs.«157200_j55740085567782_2_alg».proof.Proof.AttnDataIdeal
import proofs.«157200_j55740085567782_2_alg».proof.Proof.AttnPayloads
import proofs.«157200_j55740085567782_2_alg».proof.Proof.OnlineRow
import Idealize.ShloMosaic.Lib.Pipeline.Value
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz3 : (![0, 0, 0] : Fin 3 → Nat) = fun _ => 0 := funext fun a => by fin_cases a <;> rfl

/-! ### One value per store the body's run found (read back through any view over junk) -/

theorem pieceA_M (v : View sig .tc .vmem S1x16x1 .f32) (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) :
    v.read (Elt F) (v.writes (Elt F) v.junk (kernelRun1_A c i arg2 harg2 arg3 harg3 arg4 harg4 arg5 harg5 arg6 harg6 arg7 harg7 arg8 harg8 arg9 harg9 arg10 harg10 hc0 hc1 x0 x1 x2 x3 x4).1)
      = k1_pay2 (k1_pay10 x0 x1 k1_pay4) := by
  rw [View.read_writes_junk_eq_canon]
  unfold kernelRun1_A
  dsimp only
  sl_unfold_words
  rw [View.canon_cons_unit_zero (S := S1x16x1) hz3]
  simp only [View.readCov_unit_zero (S := S1x16x1) arg8.view hz3, View.readCov_unit_zero (S := S1x16x1) arg9.view hz3, View.readCov_unit_zero (S := S1x16x128) arg10.view hz3, View.readAt_eq_ld, harg2.read_unread, harg3.read_unread, harg4.read_unread, harg5.read_unread, harg6.read_unread, View.ld_unit_zero (S := S1x16x128) hz3, View.ld_unit_zero (S := S1x4096x128) hz3, View.ld_unit_zero (S := S1x16x1) hz3]

theorem pieceA_L (v : View sig .tc .vmem S1x16x1 .f32) (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) :
    v.read (Elt F) (v.writes (Elt F) v.junk (kernelRun1_A c i arg2 harg2 arg3 harg3 arg4 harg4 arg5 harg5 arg6 harg6 arg7 harg7 arg8 harg8 arg9 harg9 arg10 harg10 hc0 hc1 x0 x1 x2 x3 x4).2.1)
      = k1_pay13 x0 x1 k1_pay4 k1_pay4 k1_pay5 := by
  rw [View.read_writes_junk_eq_canon]
  unfold kernelRun1_A
  dsimp only
  sl_unfold_words
  rw [View.canon_cons_unit_zero (S := S1x16x1) hz3]
  simp only [View.readCov_unit_zero (S := S1x16x1) arg8.view hz3, View.readCov_unit_zero (S := S1x16x1) arg9.view hz3, View.readCov_unit_zero (S := S1x16x128) arg10.view hz3, View.readAt_eq_ld, harg2.read_unread, harg3.read_unread, harg4.read_unread, harg5.read_unread, harg6.read_unread, View.ld_unit_zero (S := S1x16x128) hz3, View.ld_unit_zero (S := S1x4096x128) hz3, View.ld_unit_zero (S := S1x16x1) hz3]

theorem pieceA_A (v : View sig .tc .vmem S1x16x128 .f32) (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : cond1_0 i) (hc1 : ¬cond1_1 i) (x0 : Vec F S1x16x128 .f32) (x1 x2 : Vec F S1x4096x128 .f32) (x3 x4 : Vec F S1x16x128 .f32) :
    v.read (Elt F) (v.writes (Elt F) v.junk (kernelRun1_A c i arg2 harg2 arg3 harg3 arg4 harg4 arg5 harg5 arg6 harg6 arg7 harg7 arg8 harg8 arg9 harg9 arg10 harg10 hc0 hc1 x0 x1 x2 x3 x4).2.2.1)
      = k1_pay1 (k1_pay8 x2) (k1_pay11 x0 x1 k1_pay4 k1_pay4) (k1_pay12 x0 x1 k1_pay4) k1_pay6 := by
  rw [View.read_writes_junk_eq_canon]
  unfold kernelRun1_A
  dsimp only
  sl_unfold_words
  rw [View.canon_cons_unit_zero (S := S1x16x128) hz3]
  simp only [View.readCov_unit_zero (S := S1x16x1) arg8.view hz3, View.readCov_unit_zero (S := S1x16x1) arg9.view hz3, View.readCov_unit_zero (S := S1x16x128) arg10.view hz3, View.readAt_eq_ld, harg2.read_unread, harg3.read_unread, harg4.read_unread, harg5.read_unread, harg6.read_unread, View.ld_unit_zero (S := S1x16x128) hz3, View.ld_unit_zero (S := S1x4096x128) hz3, View.ld_unit_zero (S := S1x16x1) hz3]

theorem pieceB_M (v : View sig .tc .vmem S1x16x1 .f32) (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) :
    v.read (Elt F) (v.writes (Elt F) v.junk (kernelRun1_B c i arg2 harg2 arg3 harg3 arg4 harg4 arg5 harg5 arg6 harg6 arg7 harg7 arg8 harg8 arg9 harg9 arg10 harg10 hc0 hc1 x0 x1 x2 x3 x4 xs0 xs1 xs2).2.1)
      = k1_pay2 (k1_pay10 x0 x1 xs0) := by
  rw [View.read_writes_junk_eq_canon]
  unfold kernelRun1_B
  dsimp only
  sl_unfold_words
  rw [View.canon_cons_unit_zero (S := S1x16x1) hz3]
  simp only [View.readCov_unit_zero (S := S1x16x1) arg8.view hz3, View.readCov_unit_zero (S := S1x16x1) arg9.view hz3, View.readCov_unit_zero (S := S1x16x128) arg10.view hz3, View.readAt_eq_ld, harg2.read_unread, harg3.read_unread, harg4.read_unread, harg5.read_unread, harg6.read_unread, harg8.read_unread, harg9.read_unread, harg10.read_unread, View.ld_unit_zero (S := S1x16x128) hz3, View.ld_unit_zero (S := S1x4096x128) hz3, View.ld_unit_zero (S := S1x16x1) hz3]

theorem pieceB_L (v : View sig .tc .vmem S1x16x1 .f32) (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) :
    v.read (Elt F) (v.writes (Elt F) v.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1)
      = k1_pay13 x0 x1 xs0 xs0 xs1 := by
  rw [View.read_writes_junk_eq_canon]
  unfold kernelRun1_B
  dsimp only
  sl_unfold_words
  rw [View.canon_cons_unit_zero (S := S1x16x1) hz3]
  simp only [View.readCov_unit_zero (S := S1x16x1) arg8.view hz3, View.readCov_unit_zero (S := S1x16x1) arg9.view hz3, View.readCov_unit_zero (S := S1x16x128) arg10.view hz3, View.readAt_eq_ld, harg2.read_unread, harg3.read_unread, harg4.read_unread, harg5.read_unread, harg6.read_unread, harg8.read_unread, harg9.read_unread, harg10.read_unread, View.ld_unit_zero (S := S1x16x128) hz3, View.ld_unit_zero (S := S1x4096x128) hz3, View.ld_unit_zero (S := S1x16x1) hz3]

theorem pieceB_A (v : View sig .tc .vmem S1x16x128 .f32) (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) :
    v.read (Elt F) (v.writes (Elt F) v.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1)
      = k1_pay1 (k1_pay8 x2) (k1_pay11 x0 x1 xs0 xs0) (k1_pay12 x0 x1 xs0) xs2 := by
  rw [View.read_writes_junk_eq_canon]
  unfold kernelRun1_B
  dsimp only
  sl_unfold_words
  rw [View.canon_cons_unit_zero (S := S1x16x128) hz3]
  simp only [View.readCov_unit_zero (S := S1x16x1) arg8.view hz3, View.readCov_unit_zero (S := S1x16x1) arg9.view hz3, View.readCov_unit_zero (S := S1x16x128) arg10.view hz3, View.readAt_eq_ld, harg2.read_unread, harg3.read_unread, harg4.read_unread, harg5.read_unread, harg6.read_unread, harg8.read_unread, harg9.read_unread, harg10.read_unread, View.ld_unit_zero (S := S1x16x128) hz3, View.ld_unit_zero (S := S1x4096x128) hz3, View.ld_unit_zero (S := S1x16x1) hz3]

theorem pieceB_O (v : View sig .tc .vmem S1x16x128 .f32) (c : Dev nD) (i : grid1.Coords) (arg2 : Memref sig .tc .vmem S1x16x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x16x128 .f32) (harg5 : arg5.IsWhole) (arg6 : Memref sig .tc .vmem S1x16x128 .f32) (harg6 : arg6.IsWhole) (arg7 : Memref sig .tc .vmem S1x16x128 .f32) (harg7 : arg7.IsWhole) (arg8 : Memref sig .tc .vmem S1x16x1 .f32) (harg8 : arg8.IsWhole) (arg9 : Memref sig .tc .vmem S1x16x1 .f32) (harg9 : arg9.IsWhole) (arg10 : Memref sig .tc .vmem S1x16x128 .f32) (harg10 : arg10.IsWhole) (hc0 : ¬cond1_0 i) (hc1 : cond1_1 i) (x0 : Vec F S1x16x128 .f32) (x1 x2 : Vec F S1x4096x128 .f32) (x3 x4 : Vec F S1x16x128 .f32) (xs0 xs1 : Vec F S1x16x1 .f32) (xs2 : Vec F S1x16x128 .f32) :
    v.read (Elt F) (v.writes (Elt F) v.junk (kernelRun1_B c i arg2 harg2 arg3 harg3 arg4 harg4 arg5 harg5 arg6 harg6 arg7 harg7 arg8 harg8 arg9 harg9 arg10 harg10 hc0 hc1 x0 x1 x2 x3 x4 xs0 xs1 xs2).1)
      = k1_pay3 (k1_pay7 x0) x3 x4 (k1_pay2 (k1_pay10 x0 x1 xs0)) (k1_pay2 (k1_pay10 x0 x1 xs0))
          (k1_pay13 x0 x1 xs0 xs0 xs1) (k1_pay1 (k1_pay8 x2) (k1_pay11 x0 x1 xs0 xs0) (k1_pay12 x0 x1 xs0) xs2) := by
  rw [View.read_writes_junk_eq_canon]
  unfold kernelRun1_B
  dsimp only
  sl_unfold_words
  rw [View.canon_cons_unit_zero (S := S1x16x128) hz3]
  simp only [View.readCov_unit_zero (S := S1x16x1) arg8.view hz3, View.readCov_unit_zero (S := S1x16x1) arg9.view hz3, View.readCov_unit_zero (S := S1x16x128) arg10.view hz3, View.readAt_eq_ld, harg2.read_unread, harg3.read_unread, harg4.read_unread, harg5.read_unread, harg6.read_unread, harg8.read_unread, harg9.read_unread, harg10.read_unread, View.ld_unit_zero (S := S1x16x128) hz3, View.ld_unit_zero (S := S1x4096x128) hz3, View.ld_unit_zero (S := S1x16x1) hz3]

/-! ### The two cases of a head, as payload terms of the point's input blocks -/

section Cases
variable (V : (c : Dev nD) → (b : Ref sig .tc) → Buf (Elt F) ((c : Thread nD τ).loc b))

/-- A first half leaves the running maximum, the normaliser and the accumulator of its 4096 keys, from the reset values. -/
theorem caseA_eq (c : Dev nD) (t : Fin cfg1.N) (h0 : t.val % 2 = 0) :
    caseA V c t h0
      = (k1_pay2 (k1_pay10 (iblk1 V c 0 t) (iblk1 V c 1 t) k1_pay4),
         k1_pay13 (iblk1 V c 0 t) (iblk1 V c 1 t) k1_pay4 k1_pay4 k1_pay5,
         k1_pay1 (k1_pay8 (iblk1 V c 2 t)) (k1_pay11 (iblk1 V c 0 t) (iblk1 V c 1 t) k1_pay4 k1_pay4)
           (k1_pay12 (iblk1 V c 0 t) (iblk1 V c 1 t) k1_pay4) k1_pay6) := by
  unfold caseA
  rw [pieceA_M VSM c (grid1.coords t) (ms1_0 t) (hs1_0 t) (ms1_1 t) (hs1_1 t) (ms1_2 t) (hs1_2 t) (ms1_3 t) (hs1_3 t)
    (ms1_4 t) (hs1_4 t) (ms1_5 t) (hs1_5 t) scM (Memref.isWhole_whole _) scL (Memref.isWhole_whole _) scA
    (Memref.isWhole_whole _) ((hcond1_0 t).mpr h0) (fun h => by have := (hcond1_1 t).mp h; omega)
    (iblk1 V c 0 t) (iblk1 V c 1 t) (iblk1 V c 2 t) (iblk1 V c 3 t) (iblk1 V c 4 t),
    pieceA_L VSL c (grid1.coords t) (ms1_0 t) (hs1_0 t) (ms1_1 t) (hs1_1 t) (ms1_2 t) (hs1_2 t) (ms1_3 t) (hs1_3 t)
    (ms1_4 t) (hs1_4 t) (ms1_5 t) (hs1_5 t) scM (Memref.isWhole_whole _) scL (Memref.isWhole_whole _) scA
    (Memref.isWhole_whole _) ((hcond1_0 t).mpr h0) (fun h => by have := (hcond1_1 t).mp h; omega)
    (iblk1 V c 0 t) (iblk1 V c 1 t) (iblk1 V c 2 t) (iblk1 V c 3 t) (iblk1 V c 4 t),
    pieceA_A VSA c (grid1.coords t) (ms1_0 t) (hs1_0 t) (ms1_1 t) (hs1_1 t) (ms1_2 t) (hs1_2 t) (ms1_3 t) (hs1_3 t)
    (ms1_4 t) (hs1_4 t) (ms1_5 t) (hs1_5 t) scM (Memref.isWhole_whole _) scL (Memref.isWhole_whole _) scA
    (Memref.isWhole_whole _) ((hcond1_0 t).mpr h0) (fun h => by have := (hcond1_1 t).mp h; omega)
    (iblk1 V c 0 t) (iblk1 V c 1 t) (iblk1 V c 2 t) (iblk1 V c 3 t) (iblk1 V c 4 t)]

/-- A second half updates the three kept values from what it finds, and stores the final quotient over the new keys. -/
theorem caseB_eq (c : Dev nD) (t : Fin cfg1.N) (h1 : t.val % 2 = 1) (s : Kept F) :
    caseB V c t h1 s
      = (k1_pay3 (k1_pay7 (iblk1 V c 0 t)) (iblk1 V c 3 t) (iblk1 V c 4 t)
          (k1_pay2 (k1_pay10 (iblk1 V c 0 t) (iblk1 V c 1 t) s.1))
          (k1_pay2 (k1_pay10 (iblk1 V c 0 t) (iblk1 V c 1 t) s.1))
          (k1_pay13 (iblk1 V c 0 t) (iblk1 V c 1 t) s.1 s.1 s.2.1)
          (k1_pay1 (k1_pay8 (iblk1 V c 2 t)) (k1_pay11 (iblk1 V c 0 t) (iblk1 V c 1 t) s.1 s.1)
            (k1_pay12 (iblk1 V c 0 t) (iblk1 V c 1 t) s.1) s.2.2),
         k1_pay2 (k1_pay10 (iblk1 V c 0 t) (iblk1 V c 1 t) s.1),
         k1_pay13 (iblk1 V c 0 t) (iblk1 V c 1 t) s.1 s.1 s.2.1,
         k1_pay1 (k1_pay8 (iblk1 V c 2 t)) (k1_pay11 (iblk1 V c 0 t) (iblk1 V c 1 t) s.1 s.1)
           (k1_pay12 (iblk1 V c 0 t) (iblk1 V c 1 t) s.1) s.2.2) := by
  unfold caseB
  rw [pieceB_O VO5 c (grid1.coords t) (ms1_0 t) (hs1_0 t) (ms1_1 t) (hs1_1 t) (ms1_2 t) (hs1_2 t) (ms1_3 t) (hs1_3 t)
    (ms1_4 t) (hs1_4 t) (ms1_5 t) (hs1_5 t) scM (Memref.isWhole_whole _) scL (Memref.isWhole_whole _) scA
    (Memref.isWhole_whole _) (fun h => by have := (hcond1_0 t).mp h; omega) ((hcond1_1 t).mpr h1)
    (iblk1 V c 0 t) (iblk1 V c 1 t) (iblk1 V c 2 t) (iblk1 V c 3 t) (iblk1 V c 4 t) s.1 s.2.1 s.2.2,
    pieceB_M VSM c (grid1.coords t) (ms1_0 t) (hs1_0 t) (ms1_1 t) (hs1_1 t) (ms1_2 t) (hs1_2 t) (ms1_3 t) (hs1_3 t)
    (ms1_4 t) (hs1_4 t) (ms1_5 t) (hs1_5 t) scM (Memref.isWhole_whole _) scL (Memref.isWhole_whole _) scA
    (Memref.isWhole_whole _) (fun h => by have := (hcond1_0 t).mp h; omega) ((hcond1_1 t).mpr h1)
    (iblk1 V c 0 t) (iblk1 V c 1 t) (iblk1 V c 2 t) (iblk1 V c 3 t) (iblk1 V c 4 t) s.1 s.2.1 s.2.2,
    pieceB_L VSL c (grid1.coords t) (ms1_0 t) (hs1_0 t) (ms1_1 t) (hs1_1 t) (ms1_2 t) (hs1_2 t) (ms1_3 t) (hs1_3 t)
    (ms1_4 t) (hs1_4 t) (ms1_5 t) (hs1_5 t) scM (Memref.isWhole_whole _) scL (Memref.isWhole_whole _) scA
    (Memref.isWhole_whole _) (fun h => by have := (hcond1_0 t).mp h; omega) ((hcond1_1 t).mpr h1)
    (iblk1 V c 0 t) (iblk1 V c 1 t) (iblk1 V c 2 t) (iblk1 V c 3 t) (iblk1 V c 4 t) s.1 s.2.1 s.2.2,
    pieceB_A VSA c (grid1.coords t) (ms1_0 t) (hs1_0 t) (ms1_1 t) (hs1_1 t) (ms1_2 t) (hs1_2 t) (ms1_3 t) (hs1_3 t)
    (ms1_4 t) (hs1_4 t) (ms1_5 t) (hs1_5 t) scM (Memref.isWhole_whole _) scL (Memref.isWhole_whole _) scA
    (Memref.isWhole_whole _) (fun h => by have := (hcond1_0 t).mp h; omega) ((hcond1_1 t).mpr h1)
    (iblk1 V c 0 t) (iblk1 V c 1 t) (iblk1 V c 2 t) (iblk1 V c 3 t) (iblk1 V c 4 t) s.1 s.2.1 s.2.2]

end Cases

end Cert.KernelIdeal.Hand

end
-- ==== Proof.AttnRow.lean ====
/-
  One row of one head, from real-valued rows to the softmax-weighted sum.

  When the query row and the key rows are real, every score is the real inner product; the running maximum after a
  block is the real maximum of the old one and the block's scores; the normaliser and the accumulator follow the
  rescaling recurrence against those real maxima. After the two cache halves and the new keys, the quotient of the
  accumulator by the normaliser is the plain softmax-weighted sum of the values over all keys.
-/
import proofs.«157200_j55740085567782_2_alg».proof.Proof.AttnPayloads
import proofs.«157200_j55740085567782_2_alg».proof.Proof.OnlineRow

noncomputable section

open scoped BigOperators

namespace Cert.Proof.AttnRow

open Cert.KernelIdeal Cert.KernelIdeal.Gen Idealize.ShloMosaic Idealize.ShloMosaic.ValueIdx
open Cert.Proof.AttnPayloads Cert.Proof.OnlineRow Cert.OnlineSoftmax

/-- The score of key row j against the query row: the real inner product over the 128 features. -/
def rscore {ι : Type} (q : Fin 128 → ℝ) (k : ι → Fin 128 → ℝ) (j : ι) : ℝ := ∑ d' : Fin 128, q d' * k j d'

/-- The largest score of a nonempty block. -/
def rmax {ι : Type} [Fintype ι] [Nonempty ι] (q : Fin 128 → ℝ) (k : ι → Fin 128 → ℝ) : ℝ :=
  Finset.univ.sup' Finset.univ_nonempty (rscore q k)

theorem sum_coe_mul (q k : Fin 128 → ℝ) :
    ∑ d' : Fin 128, ((q d' : ℝ) : EReal) * ((k d' : ℝ) : EReal) = ((∑ d' : Fin 128, q d' * k d' : ℝ) : EReal) := by
  rw [coe_sum]
  exact Finset.sum_congr rfl fun d' _ => (EReal.coe_mul _ _).symm

section CacheBlock

variable (x0 : FVec Ideal S1x16x128 .f32) (x1 x2 : FVec Ideal S1x4096x128 .f32) (r : Fin 16)
  (q : Fin 128 → ℝ) (k : Fin 4096 → Fin 128 → ℝ)
  (hq : ∀ d', x0 (ix3 (0 : Fin 1) r d') = ((q d' : ℝ) : EReal))
  (hk : ∀ j d', x1 (ix3 (0 : Fin 1) j d') = ((k j d' : ℝ) : EReal))

include hq hk

/-- A cache block's scores are the real inner products. -/
theorem pay9_coe (j : Fin 4096) :
    k1_pay9 (F := Ideal) x0 x1 (ix3 (0 : Fin 1) r j) = ((rscore q k j : ℝ) : EReal) := by
  refine (pay9_apply x0 x1 r j).trans ?_
  unfold rscore
  rw [← sum_coe_mul]
  exact Finset.sum_congr rfl fun d' _ => by rw [hq, hk]

/-- The new running maximum is the old one against the block's real maximum. -/
theorem pay10_val (m : FVec Ideal S1x16x1 .f32) :
    k1_pay10 (F := Ideal) x0 x1 m (ix3 (0 : Fin 1) r (0 : Fin 1))
      = max (m (ix3 (0 : Fin 1) r (0 : Fin 1))) ((rmax q k : ℝ) : EReal) :=
  (pay10_apply x0 x1 m r).trans (congrArg (max (m (ix3 (0 : Fin 1) r (0 : Fin 1))))
    (fold_max_eq_coe Finset.univ Finset.univ_nonempty _ (rscore q k) fun j _ => pay9_coe x0 x1 r q k hq hk j))

/-- The new normaliser, against the new maximum M. -/
theorem pay13_val (m l : FVec Ideal S1x16x1 .f32) {M : EReal}
    (hM : k1_pay10 (F := Ideal) x0 x1 m (ix3 (0 : Fin 1) r (0 : Fin 1)) = M) :
    k1_pay13 (F := Ideal) x0 x1 m m l (ix3 (0 : Fin 1) r (0 : Fin 1))
      = Ideal.exp (m (ix3 (0 : Fin 1) r (0 : Fin 1)) - M) * l (ix3 (0 : Fin 1) r (0 : Fin 1))
        + ∑ j : Fin 4096, Ideal.exp (((rscore q k j : ℝ) : EReal) - M) := by
  refine (pay13_apply x0 x1 m m l r).trans ?_
  rw [pay11_apply, hM]
  refine congrArg (Ideal.exp (m (ix3 (0 : Fin 1) r (0 : Fin 1)) - M) * l (ix3 (0 : Fin 1) r (0 : Fin 1)) + ·) ?_
  exact Finset.sum_congr rfl fun j _ => by rw [pay12_apply, pay9_coe x0 x1 r q k hq hk j, hM]

/-- The new accumulator at feature d, against the new maximum M. -/
theorem pay1_val (m : FVec Ideal S1x16x1 .f32) (acc : FVec Ideal S1x16x128 .f32) (d : Fin 128) (v : Fin 4096 → ℝ)
    (hv : ∀ j, x2 (ix3 (0 : Fin 1) j d) = ((v j : ℝ) : EReal)) {M : EReal}
    (hM : k1_pay10 (F := Ideal) x0 x1 m (ix3 (0 : Fin 1) r (0 : Fin 1)) = M) :
    k1_pay1 (F := Ideal) (k1_pay8 (F := Ideal) x2) (k1_pay11 (F := Ideal) x0 x1 m m) (k1_pay12 (F := Ideal) x0 x1 m) acc
        (ix3 (0 : Fin 1) r d)
      = Ideal.exp (m (ix3 (0 : Fin 1) r (0 : Fin 1)) - M) * acc (ix3 (0 : Fin 1) r d)
        + ∑ j : Fin 4096, Ideal.exp (((rscore q k j : ℝ) : EReal) - M) * ((v j : ℝ) : EReal) := by
  refine (pay1_apply _ _ _ acc r d).trans ?_
  rw [pay11_apply, hM]
  refine congrArg (Ideal.exp (m (ix3 (0 : Fin 1) r (0 : Fin 1)) - M) * acc (ix3 (0 : Fin 1) r d) + ·) ?_
  refine Finset.sum_congr rfl fun j _ => ?_
  rw [pay12_apply, pay9_coe x0 x1 r q k hq hk j, hM]
  exact congrArg (Ideal.exp (((rscore q k j : ℝ) : EReal) - M) * ·) (hv j)

end CacheBlock

/-! ### One step of the recurrence over a cache block, and the final step over the new keys -/

/-- The running maximum after a cache block. -/
abbrev stepM (x0 : FVec Ideal S1x16x128 .f32) (x1 : FVec Ideal S1x4096x128 .f32) (m : FVec Ideal S1x16x1 .f32) :
    FVec Ideal S1x16x1 .f32 :=
  k1_pay2 (F := Ideal) (k1_pay10 (F := Ideal) x0 x1 m)

/-- The normaliser after a cache block. -/
abbrev stepL (x0 : FVec Ideal S1x16x128 .f32) (x1 : FVec Ideal S1x4096x128 .f32) (m l : FVec Ideal S1x16x1 .f32) :
    FVec Ideal S1x16x1 .f32 :=
  k1_pay13 (F := Ideal) x0 x1 m m l

/-- The accumulator after a cache block. -/
abbrev stepA (x0 : FVec Ideal S1x16x128 .f32) (x1 x2 : FVec Ideal S1x4096x128 .f32) (m : FVec Ideal S1x16x1 .f32)
    (acc : FVec Ideal S1x16x128 .f32) : FVec Ideal S1x16x128 .f32 :=
  k1_pay1 (F := Ideal) (k1_pay8 (F := Ideal) x2) (k1_pay11 (F := Ideal) x0 x1 m m) (k1_pay12 (F := Ideal) x0 x1 m) acc

/-- The output: the quotient after the new keys. -/
abbrev outQ (x0 x3 x4 : FVec Ideal S1x16x128 .f32) (m l : FVec Ideal S1x16x1 .f32) (acc : FVec Ideal S1x16x128 .f32) :
    FVec Ideal S1x16x128 .f32 :=
  k1_pay3 (F := Ideal) (k1_pay7 (F := Ideal) x0) x3 x4 m m l acc

theorem p4 (i : S1x16x1.Idx) : k1_pay4 (F := Ideal) i = (⊥ : EReal) := congrFun pay4_eq i
theorem p5 (i : S1x16x1.Idx) : k1_pay5 (F := Ideal) i = (0 : EReal) := congrFun pay5_eq i
theorem p6 (i : S1x16x128.Idx) : k1_pay6 (F := Ideal) i = (0 : EReal) := congrFun pay6_eq i

section StepValues

variable (x0 : FVec Ideal S1x16x128 .f32) (x1 x2 : FVec Ideal S1x4096x128 .f32) (r : Fin 16)
  (q : Fin 128 → ℝ) (k : Fin 4096 → Fin 128 → ℝ)
  (hq : ∀ d', x0 (ix3 (0 : Fin 1) r d') = ((q d' : ℝ) : EReal))
  (hk : ∀ j d', x1 (ix3 (0 : Fin 1) j d') = ((k j d' : ℝ) : EReal))

include hq hk

theorem stepM_val (m : FVec Ideal S1x16x1 .f32) {mo M : EReal} (hm : m (ix3 (0 : Fin 1) r (0 : Fin 1)) = mo)
    (hM : max mo ((rmax q k : ℝ) : EReal) = M) :
    stepM x0 x1 m (ix3 (0 : Fin 1) r (0 : Fin 1)) = M :=
  (congrFun (pay2_eq _) _).trans ((pay10_val x0 x1 r q k hq hk m).trans (by rw [hm, hM]))

theorem stepL_val (m l : FVec Ideal S1x16x1 .f32) {mo M L : EReal} (hm : m (ix3 (0 : Fin 1) r (0 : Fin 1)) = mo)
    (hM : max mo ((rmax q k : ℝ) : EReal) = M) (hl : l (ix3 (0 : Fin 1) r (0 : Fin 1)) = L) :
    stepL x0 x1 m l (ix3 (0 : Fin 1) r (0 : Fin 1))
      = Ideal.exp (mo - M) * L + ∑ j : Fin 4096, Ideal.exp (((rscore q k j : ℝ) : EReal) - M) := by
  have h10 : k1_pay10 (F := Ideal) x0 x1 m (ix3 (0 : Fin 1) r (0 : Fin 1)) = M :=
    (pay10_val x0 x1 r q k hq hk m).trans (by rw [hm, hM])
  refine (pay13_val x0 x1 r q k hq hk m l h10).trans ?_
  rw [hm, hl]

theorem stepA_val (m : FVec Ideal S1x16x1 .f32) (acc : FVec Ideal S1x16x128 .f32) (d : Fin 128) (v : Fin 4096 → ℝ)
    (hv : ∀ j, x2 (ix3 (0 : Fin 1) j d) = ((v j : ℝ) : EReal)) {mo M A : EReal}
    (hm : m (ix3 (0 : Fin 1) r (0 : Fin 1)) = mo) (hM : max mo ((rmax q k : ℝ) : EReal) = M)
    (ha : acc (ix3 (0 : Fin 1) r d) = A) :
    stepA x0 x1 x2 m acc (ix3 (0 : Fin 1) r d)
      = Ideal.exp (mo - M) * A
        + ∑ j : Fin 4096, Ideal.exp (((rscore q k j : ℝ) : EReal) - M) * ((v j : ℝ) : EReal) := by
  have h10 : k1_pay10 (F := Ideal) x0 x1 m (ix3 (0 : Fin 1) r (0 : Fin 1)) = M :=
    (pay10_val x0 x1 r q k hq hk m).trans (by rw [hm, hM])
  refine (pay1_val x0 x1 x2 r q k hq hk m acc d v hv h10).trans ?_
  rw [hm, ha]

end StepValues

section NewKeys

variable (x0 x3 x4 : FVec Ideal S1x16x128 .f32) (r : Fin 16) (q : Fin 128 → ℝ) (kn : Fin 16 → Fin 128 → ℝ)
  (hq : ∀ d', x0 (ix3 (0 : Fin 1) r d') = ((q d' : ℝ) : EReal))
  (hkn : ∀ j d', x3 (ix3 (0 : Fin 1) j d') = ((kn j d' : ℝ) : EReal))

include hq hkn

/-- The new keys' scores are the real inner products. -/
theorem s2_coe (j : Fin 16) : s2 (k1_pay7 (F := Ideal) x0) x3 r j = ((rscore q kn j : ℝ) : EReal) := by
  unfold s2 rscore
  rw [← sum_coe_mul, pay7_eq]
  exact Finset.sum_congr rfl fun d' _ => by rw [hq, hkn]

theorem mf_val (m : FVec Ideal S1x16x1 .f32) {mo M : EReal} (hm : m (ix3 (0 : Fin 1) r (0 : Fin 1)) = mo)
    (hM : max mo ((rmax q kn : ℝ) : EReal) = M) : mf (k1_pay7 (F := Ideal) x0) x3 m r = M := by
  unfold mf
  rw [hm, fold_max_eq_coe Finset.univ Finset.univ_nonempty _ (rscore q kn) fun j _ => s2_coe x0 x3 r q kn hq hkn j]
  exact hM

/-- The output at (r, d): the rescaled accumulator plus the new keys' weighted values, over the rescaled normaliser
    plus the new keys' weights. -/
theorem outQ_val (m l : FVec Ideal S1x16x1 .f32) (acc : FVec Ideal S1x16x128 .f32) (d : Fin 128) (vn : Fin 16 → ℝ)
    (hvn : ∀ j, x4 (ix3 (0 : Fin 1) j d) = ((vn j : ℝ) : EReal)) {mo M L A : EReal}
    (hm : m (ix3 (0 : Fin 1) r (0 : Fin 1)) = mo) (hM : max mo ((rmax q kn : ℝ) : EReal) = M)
    (hl : l (ix3 (0 : Fin 1) r (0 : Fin 1)) = L) (ha : acc (ix3 (0 : Fin 1) r d) = A) :
    outQ x0 x3 x4 m l acc (ix3 (0 : Fin 1) r d)
      = Ideal.div
          (Ideal.exp (mo - M) * A + ∑ j : Fin 16, Ideal.exp (((rscore q kn j : ℝ) : EReal) - M) * ((vn j : ℝ) : EReal))
          (Ideal.exp (mo - M) * L + ∑ j : Fin 16, Ideal.exp (((rscore q kn j : ℝ) : EReal) - M)) := by
  have hmf := mf_val x0 x3 r q kn hq hkn m hm hM
  refine (pay3_apply (k1_pay7 (F := Ideal) x0) x3 x4 m m l acc r d).trans ?_
  have ha2 : a2 (k1_pay7 (F := Ideal) x0) x3 m m r = Ideal.exp (mo - M) := by unfold a2; rw [hm, hmf]
  have hp2 : ∀ j, p2 (k1_pay7 (F := Ideal) x0) x3 m r j = Ideal.exp (((rscore q kn j : ℝ) : EReal) - M) := fun j => by
    unfold p2; rw [s2_coe x0 x3 r q kn hq hkn j, hmf]
  rw [ha2, hl, ha]
  refine congrArg₂ Ideal.div (congrArg (Ideal.exp (mo - M) * A + ·) ?_) (congrArg (Ideal.exp (mo - M) * L + ·) ?_)
  · exact Finset.sum_congr rfl fun j _ => by rw [hp2 j, hvn j]
  · exact Finset.sum_congr rfl fun j _ => hp2 j

end NewKeys

/-! ### The whole row -/

/-- One row r and feature d of one head. From real query, key and value rows, the kernel's output — the reset, the
    two cache halves, the new keys, the final quotient — is the softmax-weighted sum of the values over all keys. -/
theorem attn_row (x0a x0b : FVec Ideal S1x16x128 .f32) (x1a x2a x1b x2b : FVec Ideal S1x4096x128 .f32)
    (x3 x4 : FVec Ideal S1x16x128 .f32) (r : Fin 16) (d : Fin 128)
    (q : Fin 128 → ℝ) (k0 k1 : Fin 4096 → Fin 128 → ℝ) (kn : Fin 16 → Fin 128 → ℝ)
    (v0 v1 : Fin 4096 → ℝ) (vn : Fin 16 → ℝ)
    (hqa : ∀ d', x0a (ix3 (0 : Fin 1) r d') = ((q d' : ℝ) : EReal))
    (hqb : ∀ d', x0b (ix3 (0 : Fin 1) r d') = ((q d' : ℝ) : EReal))
    (hk0 : ∀ j d', x1a (ix3 (0 : Fin 1) j d') = ((k0 j d' : ℝ) : EReal))
    (hk1 : ∀ j d', x1b (ix3 (0 : Fin 1) j d') = ((k1 j d' : ℝ) : EReal))
    (hkn : ∀ j d', x3 (ix3 (0 : Fin 1) j d') = ((kn j d' : ℝ) : EReal))
    (hv0 : ∀ j, x2a (ix3 (0 : Fin 1) j d) = ((v0 j : ℝ) : EReal))
    (hv1 : ∀ j, x2b (ix3 (0 : Fin 1) j d) = ((v1 j : ℝ) : EReal))
    (hvn : ∀ j, x4 (ix3 (0 : Fin 1) j d) = ((vn j : ℝ) : EReal))
    {S : EReal}
    (hS : S = ∑ j : Fin 4096, Ideal.exp ((rscore q k0 j : ℝ) : EReal)
            + ∑ j : Fin 4096, Ideal.exp ((rscore q k1 j : ℝ) : EReal)
            + ∑ j : Fin 16, Ideal.exp ((rscore q kn j : ℝ) : EReal)) :
    outQ x0b x3 x4
        (stepM x0b x1b (stepM x0a x1a (k1_pay4 (F := Ideal))))
        (stepL x0b x1b (stepM x0a x1a (k1_pay4 (F := Ideal))) (stepL x0a x1a (k1_pay4 (F := Ideal)) (k1_pay5 (F := Ideal))))
        (stepA x0b x1b x2b (stepM x0a x1a (k1_pay4 (F := Ideal)))
          (stepA x0a x1a x2a (k1_pay4 (F := Ideal)) (k1_pay6 (F := Ideal))))
        (ix3 (0 : Fin 1) r d)
      = ∑ j : Fin 4096, Ideal.div (Ideal.exp ((rscore q k0 j : ℝ) : EReal)) S * ((v0 j : ℝ) : EReal)
        + ∑ j : Fin 4096, Ideal.div (Ideal.exp ((rscore q k1 j : ℝ) : EReal)) S * ((v1 j : ℝ) : EReal)
        + ∑ j : Fin 16, Ideal.div (Ideal.exp ((rscore q kn j : ℝ) : EReal)) S * ((vn j : ℝ) : EReal) := by
  -- the three real levels: the running maxima after each block
  have hc1 : max (⊥ : EReal) ((rmax q k0 : ℝ) : EReal) = ((rmax q k0 : ℝ) : EReal) := max_bot_coe _
  have hc2 : max ((rmax q k0 : ℝ) : EReal) ((rmax q k1 : ℝ) : EReal)
      = ((max (rmax q k0) (rmax q k1) : ℝ) : EReal) := max_coe_coe _ _
  have hc3 : max ((max (rmax q k0) (rmax q k1) : ℝ) : EReal) ((rmax q kn : ℝ) : EReal)
      = ((max (max (rmax q k0) (rmax q k1)) (rmax q kn) : ℝ) : EReal) := max_coe_coe _ _
  -- after the first half
  have hmA := stepM_val x0a x1a r q k0 hqa hk0 (k1_pay4 (F := Ideal)) (p4 _) hc1
  have hlA := stepL_val x0a x1a r q k0 hqa hk0 (k1_pay4 (F := Ideal)) (k1_pay5 (F := Ideal)) (p4 _) hc1 (p5 _)
  have haA := stepA_val x0a x1a x2a r q k0 hqa hk0 (k1_pay4 (F := Ideal)) (k1_pay6 (F := Ideal)) d v0 hv0 (p4 _) hc1
    (p6 _)
  -- after the second half
  have hmB := stepM_val x0b x1b r q k1 hqb hk1 _ hmA hc2
  have hlB := stepL_val x0b x1b r q k1 hqb hk1 _
    (stepL x0a x1a (k1_pay4 (F := Ideal)) (k1_pay5 (F := Ideal))) hmA hc2 rfl
  have haB := stepA_val x0b x1b x2b r q k1 hqb hk1 _
    (stepA x0a x1a x2a (k1_pay4 (F := Ideal)) (k1_pay6 (F := Ideal))) d v1 hv1 hmA hc2 rfl
  -- the output
  refine (outQ_val x0b x3 x4 r q kn hqb hkn _ _ _ d vn hvn hmB hc3 rfl rfl).trans ?_
  exact online_eq (rscore q k0) v0 (rscore q k1) v1 (rscore q kn) vn (rmax q k0) (max (rmax q k0) (rmax q k1))
    (max (max (rmax q k0) (rmax q k1)) (rmax q kn)) hlA haA hlB haB rfl rfl hS

end Cert.Proof.AttnRow

end
-- ==== Proof.AttnValue.lean ====
/-
  The attention region's result array. Each head takes two grid points; the second writes the head's [16, 128] slab
  of the result, which is, row by row and feature by feature, the softmax-weighted average of the cached and the new
  values: the kernel's running computation over the two halves of the cache and the new keys equals the plain weighted
  sum (the row theorem), the halves' rows are rows p and 4096 + p of the cache, and the heads' slabs tile the array.
-/
import proofs.«157200_j55740085567782_2_alg».proof.Proof.AttnBlocks
import proofs.«157200_j55740085567782_2_alg».proof.Proof.AttnPieces
import proofs.«157200_j55740085567782_2_alg».proof.Proof.AttnRow
import proofs.«157200_j55740085567782_2_alg».proof.Proof.Spec
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Proof Cert.Proof.AttnRow Cert.Proof.AttnPayloads Cert.OnlineSoftmax

/-! ### The plain weighted average, from real rows -/

/-- An extended real that is a real is the inclusion of its real part. -/
theorem coe_toReal_of_exists {a : EReal} (h : ∃ x : ℝ, a = (x : EReal)) : ((a.toReal : ℝ) : EReal) = a := by
  obtain ⟨x, rfl⟩ := h
  rw [EReal.toReal_coe]

/-- A sum over the 8192 cached keys: the first half, then the second half. -/
theorem sum_halves {M : Type} [AddCommMonoid M] (f : Fin 8192 → M) :
    ∑ p : Fin 8192, f p
      = ∑ j : Fin 4096, f ⟨j.val, by have := j.isLt; omega⟩
        + ∑ j : Fin 4096, f ⟨4096 + j.val, by have := j.isLt; omega⟩ := by
  rw [show (∑ p : Fin 8192, f p) = ∑ p : Fin (4096 + 4096), f p from rfl, Fin.sum_univ_add]
  rfl

/-- Row p of the first half of the cache. -/
abbrev lo (j : Fin 4096) : Fin 8192 := ⟨j.val, by have := j.isLt; omega⟩
/-- Row p of the second half of the cache. -/
abbrev hi (j : Fin 4096) : Fin 8192 := ⟨4096 + j.val, by have := j.isLt; omega⟩

section Rows

variable (q k v : Fin 16 → Fin 4096 → EReal) (cK cV : Fin 32 → Fin 8192 → Fin 128 → EReal)
  (hq : ∀ r n, ∃ x : ℝ, q r n = (x : EReal)) (hk : ∀ r n, ∃ x : ℝ, k r n = (x : EReal))
  (hv : ∀ r n, ∃ x : ℝ, v r n = (x : EReal)) (hcK : ∀ h p d, ∃ x : ℝ, cK h p d = (x : EReal))
  (hcV : ∀ h p d, ∃ x : ℝ, cV h p d = (x : EReal))
  (hh : Fin 32) (r : Fin 16) (d : Fin 128)

/-- The real rows of head hh and query row r. -/
def rq : Fin 128 → ℝ := fun d' => (q r (Spec.col hh d')).toReal
def rk0 : Fin 4096 → Fin 128 → ℝ := fun j d' => (cK hh (lo j) d').toReal
def rk1 : Fin 4096 → Fin 128 → ℝ := fun j d' => (cK hh (hi j) d').toReal
def rkn : Fin 16 → Fin 128 → ℝ := fun j d' => (k j (Spec.col hh d')).toReal
def rv0 : Fin 4096 → ℝ := fun j => (cV hh (lo j) d).toReal
def rv1 : Fin 4096 → ℝ := fun j => (cV hh (hi j) d).toReal
def rvn : Fin 16 → ℝ := fun j => (v j (Spec.col hh d)).toReal

include hq hcK in
theorem scoreC_coe (p : Fin 8192) :
    Spec.scoreC q cK hh r p = ((rscore (rq q hh r) (fun p d' => (cK hh p d').toReal) p : ℝ) : EReal) := by
  unfold Spec.scoreC rscore rq
  rw [← sum_coe_mul]
  exact Finset.sum_congr rfl fun d' _ => by rw [coe_toReal_of_exists (hq _ _), coe_toReal_of_exists (hcK _ _ _)]

include hq hk in
theorem scoreN_coe (j : Fin 16) :
    Spec.scoreN q k hh r j = ((rscore (rq q hh r) (rkn k hh) j : ℝ) : EReal) := by
  unfold Spec.scoreN rscore rq rkn
  rw [← sum_coe_mul]
  exact Finset.sum_congr rfl fun d' _ => by rw [coe_toReal_of_exists (hq _ _), coe_toReal_of_exists (hk _ _)]

include hq hk hcK in
/-- The normaliser is the three-block sum of exponentials of real scores. -/
theorem S_rows :
    Spec.S q k cK hh r
      = ∑ j : Fin 4096, Ideal.exp ((rscore (rq q hh r) (rk0 cK hh) j : ℝ) : EReal)
        + ∑ j : Fin 4096, Ideal.exp ((rscore (rq q hh r) (rk1 cK hh) j : ℝ) : EReal)
        + ∑ j : Fin 16, Ideal.exp ((rscore (rq q hh r) (rkn k hh) j : ℝ) : EReal) := by
  unfold Spec.S
  rw [sum_halves]
  refine congrArg₂ (· + ·) (congrArg₂ (· + ·) ?_ ?_) ?_
  · exact Finset.sum_congr rfl fun j _ => by rw [scoreC_coe q cK hq hcK hh r]; rfl
  · exact Finset.sum_congr rfl fun j _ => by rw [scoreC_coe q cK hq hcK hh r]; rfl
  · exact Finset.sum_congr rfl fun j _ => by rw [scoreN_coe q k hq hk hh r]

include hq hk hv hcK hcV in
/-- The weighted average is the three-block weighted sum over real scores and real values. -/
theorem naive_rows {S : EReal} (hS : S = Spec.S q k cK hh r) :
    Spec.naive q k v cK cV hh r d
      = ∑ j : Fin 4096, Ideal.div (Ideal.exp ((rscore (rq q hh r) (rk0 cK hh) j : ℝ) : EReal)) S
            * ((rv0 cV hh d j : ℝ) : EReal)
        + ∑ j : Fin 4096, Ideal.div (Ideal.exp ((rscore (rq q hh r) (rk1 cK hh) j : ℝ) : EReal)) S
            * ((rv1 cV hh d j : ℝ) : EReal)
        + ∑ j : Fin 16, Ideal.div (Ideal.exp ((rscore (rq q hh r) (rkn k hh) j : ℝ) : EReal)) S
            * ((rvn v hh d j : ℝ) : EReal) := by
  unfold Spec.naive
  rw [sum_halves, ← hS]
  refine congrArg₂ (· + ·) (congrArg₂ (· + ·) ?_ ?_) ?_
  · refine Finset.sum_congr rfl fun j _ => ?_
    rw [scoreC_coe q cK hq hcK hh r]
    exact congrArg (_ * ·) (coe_toReal_of_exists (hcV _ _ _)).symm
  · refine Finset.sum_congr rfl fun j _ => ?_
    rw [scoreC_coe q cK hq hcK hh r]
    exact congrArg (_ * ·) (coe_toReal_of_exists (hcV _ _ _)).symm
  · refine Finset.sum_congr rfl fun j _ => ?_
    rw [scoreN_coe q k hq hk hh r]
    exact congrArg (_ * ·) (coe_toReal_of_exists (hv _ _)).symm

end Rows

/-! ### A head's two points, and the result array -/

section Point

variable (V : (c : Dev nD) → (b : Ref sig .tc) → Buf (Elt Ideal) ((c : Thread nD τ).loc b)) (c : Dev nD)
  (q k v : Fin 16 → Fin 4096 → EReal) (cK cV : Fin 32 → Fin 8192 → Fin 128 → EReal)
  (hVq : ∀ h r d, (V c main_v11 : FVec Ideal S32x16x128 .f32) (ix3 h r d) = q r (Spec.col h d))
  (hVk : ∀ h r d, (V c main_v13 : FVec Ideal S32x16x128 .f32) (ix3 h r d) = k r (Spec.col h d))
  (hVv : ∀ h r d, (V c main_v15 : FVec Ideal S32x16x128 .f32) (ix3 h r d) = v r (Spec.col h d))
  (hVK : ∀ h p d, (V c main_arg4 : FVec Ideal S32x8192x128 .f32) (ix3 h p d) = cK h p d)
  (hVV : ∀ h p d, (V c main_arg5 : FVec Ideal S32x8192x128 .f32) (ix3 h p d) = cV h p d)
  (hq : ∀ r n, ∃ x : ℝ, q r n = (x : EReal)) (hk : ∀ r n, ∃ x : ℝ, k r n = (x : EReal))
  (hv : ∀ r n, ∃ x : ℝ, v r n = (x : EReal)) (hcK : ∀ h p d, ∃ x : ℝ, cK h p d = (x : EReal))
  (hcV : ∀ h p d, ∃ x : ℝ, cV h p d = (x : EReal))

include hVq hVk hVv hVK hVV hq hk hv hcK hcV

/-- What head hh's second point stores at (r, d), its first point having run before it: the weighted average. -/
theorem head_point (t0 t : Fin cfg1.N) (hh : Fin 32) (ht0 : hh.val = t0.val / 2) (ht : hh.val = t.val / 2)
    (h0 : t0.val % 2 = 0) (h1 : t.val % 2 = 1) (r : Fin 16) (d : Fin 128) :
    (caseB V c t h1 (caseA V c t0 h0)).1 (ix3 (0 : Fin 1) r d) = Spec.naive q k v cK cV hh r d := by
  rw [caseB_eq, caseA_eq]
  refine (attn_row (iblk1 V c 0 t0) (iblk1 V c 0 t) (iblk1 V c 1 t0) (iblk1 V c 2 t0) (iblk1 V c 1 t) (iblk1 V c 2 t)
    (iblk1 V c 3 t) (iblk1 V c 4 t) r d (rq q hh r) (rk0 cK hh) (rk1 cK hh) (rkn k hh) (rv0 cV hh d) (rv1 cV hh d)
    (rvn v hh d) ?hqa ?hqb ?hk0 ?hk1 ?hkn ?hv0 ?hv1 ?hvn (S_rows q k cK hq hk hcK hh r)).trans
    (naive_rows q k v cK cV hq hk hv hcK hcV hh r d rfl).symm
  case hqa => intro d'; rw [blk0_at V c t0 hh ht0 r d', hVq]; exact (coe_toReal_of_exists (hq _ _)).symm
  case hqb => intro d'; rw [blk0_at V c t hh ht r d', hVq]; exact (coe_toReal_of_exists (hq _ _)).symm
  case hk0 =>
    intro j d'
    rw [blk1_at V c t0 hh ht0 j (lo j) (by show j.val = (t0.val % 2) * 4096 + j.val; omega) d', hVK]
    exact (coe_toReal_of_exists (hcK _ _ _)).symm
  case hk1 =>
    intro j d'
    rw [blk1_at V c t hh ht j (hi j) (by show 4096 + j.val = (t.val % 2) * 4096 + j.val; omega) d', hVK]
    exact (coe_toReal_of_exists (hcK _ _ _)).symm
  case hkn => intro j d'; rw [blk3_at V c t hh ht j d', hVk]; exact (coe_toReal_of_exists (hk _ _)).symm
  case hv0 =>
    intro j
    rw [blk2_at V c t0 hh ht0 j (lo j) (by show j.val = (t0.val % 2) * 4096 + j.val; omega) d, hVV]
    exact (coe_toReal_of_exists (hcV _ _ _)).symm
  case hv1 =>
    intro j
    rw [blk2_at V c t hh ht j (hi j) (by show 4096 + j.val = (t.val % 2) * 4096 + j.val; omega) d, hVV]
    exact (coe_toReal_of_exists (hcV _ _ _)).symm
  case hvn => intro j; rw [blk4_at V c t hh ht j d, hVv]; exact (coe_toReal_of_exists (hv _ _)).symm

end Point

section Final

variable (V : (c : Dev nD) → (b : Ref sig .tc) → Buf (Elt Ideal) ((c : Thread nD τ).loc b)) (c : Dev nD)
  (q k v : Fin 16 → Fin 4096 → EReal) (cK cV : Fin 32 → Fin 8192 → Fin 128 → EReal)

/-- The result array after the region: at (h, r, d) the weighted average of head h's cached and new values for
    query row r, feature d. -/
theorem attn_final
    (hVq : ∀ h r d, (V c main_v11 : FVec Ideal S32x16x128 .f32) (ix3 h r d) = q r (Spec.col h d))
    (hVk : ∀ h r d, (V c main_v13 : FVec Ideal S32x16x128 .f32) (ix3 h r d) = k r (Spec.col h d))
    (hVv : ∀ h r d, (V c main_v15 : FVec Ideal S32x16x128 .f32) (ix3 h r d) = v r (Spec.col h d))
    (hVK : ∀ h p d, (V c main_arg4 : FVec Ideal S32x8192x128 .f32) (ix3 h p d) = cK h p d)
    (hVV : ∀ h p d, (V c main_arg5 : FVec Ideal S32x8192x128 .f32) (ix3 h p d) = cV h p d)
    (hq : ∀ r n, ∃ x : ℝ, q r n = (x : EReal)) (hk : ∀ r n, ∃ x : ℝ, k r n = (x : EReal))
    (hv : ∀ r n, ∃ x : ℝ, v r n = (x : EReal)) (hcK : ∀ h p d, ∃ x : ℝ, cK h p d = (x : EReal))
    (hcV : ∀ h p d, ∃ x : ℝ, cV h p d = (x : EReal)) :
    ((dats1 V c).arrAt 5 cfg1.N : FVec Ideal S32x16x128 .f32)
      = fun i => Spec.naive q k v cK cV (i 0) (i 1) (i 2) := by
  refine (dats1 V c).arrAt_eq_of_cover 5 _ (fun t hf => ?_) cover5
  have h1 : t.val % 2 = 1 := (flush1_5 t).mp hf
  have hN : cfg1.N = 64 := N_1
  have hlt : t.val - 1 < cfg1.N := Nat.lt_of_le_of_lt (Nat.sub_le _ _) t.isLt
  have h0 : (⟨t.val - 1, hlt⟩ : Fin cfg1.N).val % 2 = 0 := by show (t.val - 1) % 2 = 0; omega
  have hhlt : t.val / 2 < 32 := by have := t.isLt; omega
  have ht0 : (⟨t.val / 2, hhlt⟩ : Fin 32).val = (⟨t.val - 1, hlt⟩ : Fin cfg1.N).val / 2 := by
    show t.val / 2 = (t.val - 1) / 2; omega
  show (cfg1.win 5).cut (grid1.coords t) ((dats1 V c).after 5 t) = _
  rw [after1_5, outsAt1_B V c t h1]
  have e : outsAt1 V c (t.val - 1) hlt = (VO5.read (Elt Ideal) VO5.junk, caseA V c ⟨t.val - 1, hlt⟩ h0) :=
    outsAt1_A V c ⟨t.val - 1, hlt⟩ h0
  rw [e]
  funext y
  obtain ⟨u, r, d, rfl⟩ : ∃ (u : Fin 1) (r : Fin 16) (d : Fin 128), y = ix3 u r d := ⟨y 0, y 1, y 2, eq_ix3 y⟩
  obtain rfl : u = 0 := Subsingleton.elim _ _
  show (caseB V c t h1 (caseA V c ⟨t.val - 1, hlt⟩ h0)).1 (ix3 (0 : Fin 1) r d)
    = (fun i : S32x16x128.Idx => Spec.naive q k v cK cV (i 0) (i 1) (i 2))
        (((cfg1.win 5).blk t).view.emb (ix3 (0 : Fin 1) r d))
  rw [emb5_at t ⟨t.val / 2, hhlt⟩ rfl r d]
  exact head_point V c q k v cK cV hVq hVk hVv hVK hVV hq hk hv hcK hcV ⟨t.val - 1, hlt⟩ t ⟨t.val / 2, hhlt⟩ ht0 rfl
    h0 h1 r d

end Final

end Cert.KernelIdeal.Hand

end
-- ==== Proof.lean ====
/-
  The certificate's five claims. The two kernel programs' frames are read off their runs as lists of segments (three
  host stretches around the projection region and the attention region); the reference's frame is its run with the
  result dropped; the idealization rewrote nothing, so there is nothing to preserve; and at the extended reals both
  programs end with the same array, the softmax-weighted average of the cached and new values per head.
-/
import proofs.«157200_j55740085567782_2_alg».proof.Defs
import proofs.«157200_j55740085567782_2_alg».proof.Proof.Gen.Kernel
import proofs.«157200_j55740085567782_2_alg».proof.Proof.Gen.KernelIdeal
import proofs.«157200_j55740085567782_2_alg».proof.Proof.Gen.ReferenceIdeal
import proofs.«157200_j55740085567782_2_alg».proof.Proof.Gen.ReferenceIdeal.Run
import proofs.«157200_j55740085567782_2_alg».proof.Proof.Gen.Pre_finite_inputs
import proofs.«157200_j55740085567782_2_alg».proof.Proof.FrameBits
import proofs.«157200_j55740085567782_2_alg».proof.Proof.FrameIdeal
import proofs.«157200_j55740085567782_2_alg».proof.Proof.KernelValue
import proofs.«157200_j55740085567782_2_alg».proof.Proof.AttnValue
import proofs.«157200_j55740085567782_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end with the same array. The kernel's run ends with the result buffer at the
    last valuation, which — through the result's re-layout, the attention region's blocks (the online softmax of each
    head's row equals the plain softmax-weighted average, every score being a finite real under the precondition), the
    per-head re-layout and the projection region's blocks — is the weighted average of the cached and new values; the
    reference's run ends at the same function of arguments that agree. -/
theorem algebraic : Cert.algebraic_KernelIdeal_ReferenceIdeal := by
  intro m ρ m' ρ' hpre hagree
  refine ⟨fun c => Cert.KernelIdeal.Hand.W5 m c (Proc.devRef .tc Cert.KernelIdeal.main_v18),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hq, hk, hv, hcK, hcV⟩ := Cert.KernelIdeal.Hand.reals_of_pre m c (hpre c)
  have hval := Cert.KernelIdeal.Hand.kernel_value_of m c (hpre c)
    (Cert.KernelIdeal.Hand.attn_final (Cert.KernelIdeal.Hand.V3 m) c _ _ _ _ _
      (Cert.KernelIdeal.Hand.V3_v11_at m c) (Cert.KernelIdeal.Hand.V3_v13_at m c) (Cert.KernelIdeal.Hand.V3_v15_at m c)
      (fun h p d => congrFun (Cert.KernelIdeal.Hand.V3_arg4 m c) _) (fun h p d => congrFun (Cert.KernelIdeal.Hand.V3_arg5 m c) _)
      hq hk hv hcK hcV)
  rw [Cert.ReferenceIdeal.RefValue.res_eq, (hagree c).1, (hagree c).2.1, (hagree c).2.2.1, (hagree c).2.2.2.1,
    (hagree c).2.2.2.2.1, (hagree c).2.2.2.2.2]
  exact hval.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
